-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "a_exact_inv_512" .f32 0x3B000000#32 ((1 / 512 : ℝ) : EReal)
  ∧ IdealRules.named_const.Statement Cert.KernelIdeal.κ "inv_511" .f32 0x3B004020#32 ((1 / 511 : ℝ) : EReal)
  ∧ IdealRules.named_const.Statement Cert.KernelIdeal.κ "a_exact_inv_512" .f32 0x3B000000#32 ((1 / 512 : ℝ) : EReal)
  ∧ IdealRules.named_const.Statement Cert.KernelIdeal.κ "inv_511" .f32 0x3B004020#32 ((1 / 511 : ℝ) : EReal)
  ∧ IdealRules.named_const.Statement Cert.KernelIdeal.κ "a_exact_inv_512" .f32 0x3B000000#32 ((1 / 512 : ℝ) : EReal)
  ∧ IdealRules.named_const.Statement Cert.KernelIdeal.κ "inv_511" .f32 0x3B004020#32 ((1 / 511 : ℝ) : EReal)
  ∧ IdealRules.named_const.Statement Cert.KernelIdeal.κ "a_exact_inv_512" .f32 0x3B000000#32 ((1 / 512 : ℝ) : EReal)
  ∧ IdealRules.named_const.Statement Cert.KernelIdeal.κ "inv_511" .f32 0x3B004020#32 ((1 / 511 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x512 : Shape := ⟨3, ![256, 128, 512]⟩
abbrev S768x128 : Shape := ⟨2, ![768, 128]⟩
abbrev S128 : Shape := ⟨1, ![128]⟩
abbrev S_ : Shape := ⟨0, ![]⟩

class Facts : Prop where
  bcast_S_S256x128x512 : S_.BroadcastsInDim S256x128x512 (![] : Fin 0 → Fin S256x128x512.rank)
  reducesTo_S256x128x512_S_d0_1_2 : S256x128x512.ReducesTo [0, 1, 2] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S256x128x512 .f32) (main_arg1 : FVec F S768x128 .f32) (main_arg2 : FVec F S128 .f32) : IVec S_ 1 :=
  let main_v0 : FVec F S256x128x512 .f32 := Host.absf main_arg0
  let main_cst : FVec F S_ .f32 := constant S_ .f32 0x7F800000#32
  let main_v1 : FVec F S256x128x512 .f32 := broadcastInDim S256x128x512 ![] bcast_S_S256x128x512 main_cst
  let main_v2 : IVec S256x128x512 1 := cmpf .olt main_v0 main_v1
  let main_c : IVec S_ 1 := constantI S_ 1 1#1
  let main_v3 : IVec S_ 1 := (fun x v => Host.reduce IntOp.andi x v reducesTo_S256x128x512_S_d0_1_2 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S256x128x512 : Shape := ⟨3, ![256, 128, 512]⟩
abbrev S768x128 : Shape := ⟨2, ![768, 128]⟩
abbrev S128 : Shape := ⟨1, ![128]⟩
abbrev S32768x512 : Shape := ⟨2, ![32768, 512]⟩
abbrev S1x128 : Shape := ⟨2, ![1, 128]⟩
abbrev S256x128 : Shape := ⟨2, ![256, 128]⟩
abbrev S1024x512 : Shape := ⟨2, ![1024, 512]⟩
abbrev S32x128 : Shape := ⟨2, ![32, 128]⟩
abbrev S1024 : Shape := ⟨1, ![1024]⟩
abbrev S1024x1 : Shape := ⟨2, ![1024, 1]⟩
abbrev S8x128 : Shape := ⟨2, ![8, 128]⟩
abbrev S128x128 : Shape := ⟨2, ![128, 128]⟩

abbrev nBuf : Space → Nat
  | .hbm => 6
  | .vmem => 12
  | .smem => 0
  | _ => 0

abbrev bufTy : (tb : Table) → Fin (tcTables nBuf tb) → BufTy
  | .hbm, ⟨0, _⟩ => ⟨S256x128x512, .f32⟩
  | .hbm, ⟨1, _⟩ => ⟨S768x128, .f32⟩
  | .hbm, ⟨2, _⟩ => ⟨S128, .f32⟩
  | .hbm, ⟨3, _⟩ => ⟨S32768x512, .f32⟩
  | .hbm, ⟨4, _⟩ => ⟨S1x128, .f32⟩
  | .hbm, ⟨5, _⟩ => ⟨S256x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S768x128, .f32⟩
  | .local _ .vmem, ⟨9, _⟩ => ⟨S1x128, .f32⟩
  | .local _ .vmem, ⟨10, _⟩ => ⟨S32x128, .f32⟩
  | .local _ .vmem, ⟨11, _⟩ => ⟨S32x128, .f32⟩
  | _, _ => ⟨S256x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256x128x512_S32768x512 : S256x128x512.ShapeCasts S32768x512
  shapeCasts_S128_S1x128 : S128.ShapeCasts S1x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  shapeCasts_S1024x1_S8x128 : S1024x1.ShapeCasts S8x128
  concatenates_S8x128_S8x128_S8x128_S8x128_S32x128_d0 : Shape.Concatenates [S8x128, S8x128, S8x128, S8x128] S32x128 0
  inb_S768x128_S768x128_0_0 : ∀ a, (![0, 0] : Fin 2 → Nat) a + S768x128.size a ≤ S768x128.size a
  h_S768x128 : 0 < S768x128.numel
  slices_S768x128_o0_0_S128x128 : S768x128.Slices ![0, 0] S128x128
  slices_S768x128_o128_0_S128x128 : S768x128.Slices ![128, 0] S128x128
  slices_S768x128_o256_0_S128x128 : S768x128.Slices ![256, 0] S128x128
  slices_S768x128_o384_0_S128x128 : S768x128.Slices ![384, 0] S128x128
  slices_S768x128_o512_0_S128x128 : S768x128.Slices ![512, 0] S128x128
  slices_S768x128_o640_0_S128x128 : S768x128.Slices ![640, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  dot_S32x128_S128x128_S32x128_1_0_0_1_n_n_wf : DotDims.WF S32x128 S128x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .f32 = 32 ∨ (Rect.block (s := S32768x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .f32 = 32 ∨ (Rect.block (s := S32768x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x128.size a ≤ S768x128.size a
  hwx0_4 : ∀ i : grid0.Coords, EltTy.bits .f32 = 32 ∨ (Rect.block (s := S768x128) S768x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S256x128.size a
  hwx0_6 : ∀ i : grid0.Coords, EltTy.bits .f32 = 32 ∨ (Rect.block (s := S256x128) S32x128.size (cc0_transform_6 i) (hinb0_6 i)).WholeWords (EltTy.packing .f32)

variable [Facts₀]

def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S768x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S32x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x128x512 : Shape := ⟨3, ![256, 128, 512]⟩
abbrev S768x128 : Shape := ⟨2, ![768, 128]⟩
abbrev S128 : Shape := ⟨1, ![128]⟩
abbrev S32768x512 : Shape := ⟨2, ![32768, 512]⟩
abbrev S32768x2 : Shape := ⟨2, ![32768, 2]⟩
abbrev S1024x512 : Shape := ⟨2, ![1024, 512]⟩
abbrev S1024x2 : Shape := ⟨2, ![1024, 2]⟩
abbrev S1024 : Shape := ⟨1, ![1024]⟩
abbrev S1024x1 : Shape := ⟨2, ![1024, 1]⟩
abbrev S256x128x2 : Shape := ⟨3, ![256, 128, 2]⟩
abbrev S256x2x128 : Shape := ⟨3, ![256, 2, 128]⟩
abbrev S256x256 : Shape := ⟨2, ![256, 256]⟩
abbrev S256x768 : Shape := ⟨2, ![256, 768]⟩
abbrev S1x128 : Shape := ⟨2, ![1, 128]⟩
abbrev S256x128 : Shape := ⟨2, ![256, 128]⟩

abbrev nBuf : Space → Nat
  | .hbm => 21
  | .vmem => 16
  | .smem => 0
  | _ => 0

abbrev bufTy : (tb : Table) → Fin (tcTables nBuf tb) → BufTy
  | .hbm, ⟨0, _⟩ => ⟨S256x128x512, .f32⟩
  | .hbm, ⟨1, _⟩ => ⟨S768x128, .f32⟩
  | .hbm, ⟨2, _⟩ => ⟨S128, .f32⟩
  | .hbm, ⟨3, _⟩ => ⟨S32768x512, .f32⟩
  | .hbm, ⟨4, _⟩ => ⟨S32768x2, .f32⟩
  | .hbm, ⟨5, _⟩ => ⟨S256x128x2, .f32⟩
  | .hbm, ⟨6, _⟩ => ⟨S256x2x128, .f32⟩
  | .hbm, ⟨7, _⟩ => ⟨S256x256, .f32⟩
  | .hbm, ⟨8, _⟩ => ⟨S32768x512, .f32⟩
  | .hbm, ⟨9, _⟩ => ⟨S32768x2, .f32⟩
  | .hbm, ⟨10, _⟩ => ⟨S256x128x2, .f32⟩
  | .hbm, ⟨11, _⟩ => ⟨S256x2x128, .f32⟩
  | .hbm, ⟨12, _⟩ => ⟨S256x256, .f32⟩
  | .hbm, ⟨13, _⟩ => ⟨S32768x512, .f32⟩
  | .hbm, ⟨14, _⟩ => ⟨S32768x2, .f32⟩
  | .hbm, ⟨15, _⟩ => ⟨S256x128x2, .f32⟩
  | .hbm, ⟨16, _⟩ => ⟨S256x2x128, .f32⟩
  | .hbm, ⟨17, _⟩ => ⟨S256x256, .f32⟩
  | .hbm, ⟨18, _⟩ => ⟨S256x768, .f32⟩
  | .hbm, ⟨19, _⟩ => ⟨S1x128, .f32⟩
  | .hbm, ⟨20, _⟩ => ⟨S256x128, .f32⟩
  | .local _ .vmem, ⟨0, _⟩ => ⟨S1024x512, .f32⟩
  | .local _ .vmem, ⟨1, _⟩ => ⟨S1024x512, .f32⟩
  | .local _ .vmem, ⟨2, _⟩ => ⟨S1024x2, .f32⟩
  | .local _ .vmem, ⟨3, _⟩ => ⟨S1024x2, .f32⟩
  | .local _ .vmem, ⟨4, _⟩ => ⟨S1024x512, .f32⟩
  | .local _ .vmem, ⟨5, _⟩ => ⟨S1024x512, .f32⟩
  | .local _ .vmem, ⟨6, _⟩ => ⟨S1024x2, .f32⟩
  | .local _ .vmem, ⟨7, _⟩ => ⟨S1024x2, .f32⟩
  | .local _ .vmem, ⟨8, _⟩ => ⟨S1024x512, .f32⟩
  | .local _ .vmem, ⟨9, _⟩ => ⟨S1024x512, .f32⟩
  | .local _ .vmem, ⟨10, _⟩ => ⟨S1024x2, .f32⟩
  | .local _ .vmem, ⟨11, _⟩ => ⟨S1024x2, .f32⟩
  | .local _ .vmem, ⟨12, _⟩ => ⟨S256x768, .f32⟩
  | .local _ .vmem, ⟨13, _⟩ => ⟨S768x128, .f32⟩
  | .local _ .vmem, ⟨14, _⟩ => ⟨S1x128, .f32⟩
  | .local _ .vmem, ⟨15, _⟩ => ⟨S256x128, .f32⟩
  | _, _ => ⟨S256x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem1_0 : DmaSem sig := 13
abbrev cc3_sem2_0 : DmaSem sig := 14
abbrev cc3_sem3_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x768 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S768x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  shapeCasts_S256x128x512_S32768x512 : S256x128x512.ShapeCasts S32768x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  inb_S1024x2_S1024x1_0_0 : ∀ a, (![0, 0] : Fin 2 → Nat) a + S1024x1.size a ≤ S1024x2.size a
  h_S1024x1 : 0 < S1024x1.numel
  inb_S1024x2_S1024x1_0_1 : ∀ a, (![0, 1] : Fin 2 → Nat) a + S1024x1.size a ≤ S1024x2.size a
  shapeCasts_S32768x2_S256x128x2 : S32768x2.ShapeCasts S256x128x2
  transposes_S256x128x2_S256x2x128_0_2_1 : S256x128x2.Transposes [0, 2, 1] S256x2x128
  shapeCasts_S256x2x128_S256x256 : S256x2x128.ShapeCasts S256x256
  concatenates_S256x256_S256x256_S256x256_S256x768_d1 : Shape.Concatenates [S256x256, S256x256, S256x256] S256x768 1
  shapeCasts_S128_S1x128 : S128.ShapeCasts S1x128
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x768_S768x128_S256x128_1_0_0_1_n_n_wf : DotDims.WF S256x768 S768x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S32768x2.size a
  hwx0_1 : ∀ i : grid0.Coords, EltTy.bits .f32 = 32 ∨ (Rect.block (s := S32768x2) S1024x2.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .f32 = 32 ∨ (Rect.block (s := S32768x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2.size a ≤ S32768x2.size a
  hwx1_1 : ∀ i : grid1.Coords, EltTy.bits .f32 = 32 ∨ (Rect.block (s := S32768x2) S1024x2.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S32768x512.size a
  hwx2_0 : ∀ i : grid2.Coords, EltTy.bits .f32 = 32 ∨ (Rect.block (s := S32768x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2.size a ≤ S32768x2.size a
  hwx2_1 : ∀ i : grid2.Coords, EltTy.bits .f32 = 32 ∨ (Rect.block (s := S32768x2) S1024x2.size (cc2_transform_1 i) (hinb2_1 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S256x768.size a ≤ S256x768.size a
  hwx3_0 : ∀ i : grid3.Coords, EltTy.bits .f32 = 32 ∨ (Rect.block (s := S256x768) S256x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x128.size a ≤ S768x128.size a
  hwx3_1 : ∀ i : grid3.Coords, EltTy.bits .f32 = 32 ∨ (Rect.block (s := S768x128) S768x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)

variable [Facts₀]

def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x2.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v10) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x2.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v15) S256x768.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S768x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S256x128.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== Proof.Spec.lean ====
/-
  The mathematics of the claim, free of any program.

  Over an input array x of shape [256, 128, 512] (batch b, channel c, time t), a weight matrix w of shape
  [768, 128] and a bias vector of shape [128], all entries extended reals:
    mu x b c = (sum over t of x b c t) * (1/512)                       the mean of a row,
    sd x b c = sqrt ((sum over t of (x b c t - mu)^2) * (1/511))       its unbiased standard deviation,
  and two arrangements of one affine map of these 2 * 128 statistics per batch row:
    Gk: the six 128-row slices of w are added three and three (slices 0, 2, 4 meet sd; slices 1, 3, 5 meet mu),
        then  y b o = (sum_c sd b c * ws c o + sum_c mu b c * wm c o) + bias o;
    Gr: the statistics are laid out three times over as a feature row of length 768
        (feat b (256 k + c) = sd b c, feat b (256 k + 128 + c) = mu b c for k = 0, 1, 2), then
        y b o = (sum_f feat b f * w f o) + bias o.
  On real entries the two agree by distributivity; that is proved elsewhere. Here are only the definitions.
-/
import Idealize.ShloMosaic.PureOps.Ideal
import Idealize.ShloMosaic.Lib.ValueIdx

noncomputable section

namespace Cert.Spec

open Idealize.ShloMosaic Idealize.ShloMosaic.ValueIdx
open scoped BigOperators

/-- The shapes of the three arguments and of the result. -/
abbrev SX : Shape := ⟨3, ![256, 128, 512]⟩
abbrev SW : Shape := ⟨2, ![768, 128]⟩
abbrev SB : Shape := ⟨1, ![128]⟩
abbrev SY : Shape := ⟨2, ![256, 128]⟩

/-- Row `128 k + c` of the weight matrix: row `c` of its `k`-th slice of 128 rows. -/
def wrow (k : Fin 6) (c : Fin 128) : Fin 768 := ⟨128 * k.val + c.val, by omega⟩

/-- The mean of row `(b, c)`: its sum times 1/512. -/
def mu (x : SX.Idx → EReal) (b : Fin 256) (c : Fin 128) : EReal :=
  (∑ t : Fin 512, x (ix3 b c t)) * ((1 / 512 : ℝ) : EReal)

/-- The sum of squared deviations of row `(b, c)` from its mean. -/
def ssq (x : SX.Idx → EReal) (b : Fin 256) (c : Fin 128) : EReal :=
  ∑ t : Fin 512, (x (ix3 b c t) - mu x b c) * (x (ix3 b c t) - mu x b c)

/-- The unbiased standard deviation of row `(b, c)`: the root of the squared deviations' sum times 1/511. -/
def sd (x : SX.Idx → EReal) (b : Fin 256) (c : Fin 128) : EReal :=
  Ideal.sqrt (ssq x b c * ((1 / 511 : ℝ) : EReal))

/-- The kernel's summed weight slices: `ws = (slice 0 + slice 2) + slice 4`, `wm = (slice 1 + slice 3) + slice 5`. -/
def ws (w : SW.Idx → EReal) (c : Fin 128) (o : Fin 128) : EReal :=
  (w (ix2 (wrow 0 c) o) + w (ix2 (wrow 2 c) o)) + w (ix2 (wrow 4 c) o)
def wm (w : SW.Idx → EReal) (c : Fin 128) (o : Fin 128) : EReal :=
  (w (ix2 (wrow 1 c) o) + w (ix2 (wrow 3 c) o)) + w (ix2 (wrow 5 c) o)

/-- The kernel's arrangement of the result. -/
def Gk (x : SX.Idx → EReal) (w : SW.Idx → EReal) (bias : SB.Idx → EReal) : SY.Idx → EReal := fun i =>
  ((∑ c : Fin 128, sd x (i 0) c * ws w c (i 1)) + (∑ c : Fin 128, mu x (i 0) c * wm w c (i 1))) + bias (ix1 (i 1))

/-- The reference's feature row: position `f` holds `sd` of channel `f % 256` when that is below 128, else `mu` of
    channel `f % 256 - 128`. -/
def feat (x : SX.Idx → EReal) (b : Fin 256) (f : Fin 768) : EReal :=
  if h : f.val % 256 < 128 then sd x b ⟨f.val % 256, h⟩ else mu x b ⟨f.val % 256 - 128, by omega⟩

/-- The reference's arrangement of the result. -/
def Gr (x : SX.Idx → EReal) (w : SW.Idx → EReal) (bias : SB.Idx → EReal) : SY.Idx → EReal := fun i =>
  (∑ f : Fin 768, feat x (i 0) f * w (ix2 f (i 1))) + bias (ix1 (i 1))

/-- The kernel's arrangement at row `p`, column `o`. -/
theorem Gk_apply (x : SX.Idx → EReal) (w : SW.Idx → EReal) (bias : SB.Idx → EReal) (p : Fin 256) (o : Fin 128) :
    Gk x w bias (ix2 p o)
      = ((∑ c : Fin 128, sd x p c * ws w c o) + (∑ c : Fin 128, mu x p c * wm w c o)) + bias (ix1 o) := rfl

/-- The reference's arrangement at row `p`, column `o`. -/
theorem Gr_apply (x : SX.Idx → EReal) (w : SW.Idx → EReal) (bias : SB.Idx → EReal) (p : Fin 256) (o : Fin 128) :
    Gr x w bias (ix2 p o) = (∑ f : Fin 768, feat x p f * w (ix2 f o)) + bias (ix1 o) := rfl

end Cert.Spec

end
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.Algebra.lean ====
/-
  The law joining the two arrangements.

  When every entry of x and of w is a real number, the row statistics are real: a finite sum of reals is real, the
  squared deviations are non-negative so their scaled sum has a real square root. On real numbers the feature row's
  product with w splits into its six slices of 128 rows (summing in blocks), slices 0, 2, 4 carrying sd and slices
  1, 3, 5 carrying mu, and distributivity gathers them into the two products with the summed slices. The bias is
  added last on both sides and may be any extended real.
-/
import proofs.«109826_g2000005534411080_pallasbulk_673_7_alg».proof.Proof.Spec
import proofs.«109826_g2000005534411080_pallasbulk_673_7_alg».proof.Proof.LibBlockSum

noncomputable section

namespace Cert.Spec

open Idealize.ShloMosaic Idealize.ShloMosaic.ValueIdx
open scoped BigOperators

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The statistics over the reals -/

def muR (xr : SX.Idx → ℝ) (b : Fin 256) (c : Fin 128) : ℝ :=
  (∑ t : Fin 512, xr (ix3 b c t)) * (1 / 512)

def ssqR (xr : SX.Idx → ℝ) (b : Fin 256) (c : Fin 128) : ℝ :=
  ∑ t : Fin 512, (xr (ix3 b c t) - muR xr b c) * (xr (ix3 b c t) - muR xr b c)

def sdR (xr : SX.Idx → ℝ) (b : Fin 256) (c : Fin 128) : ℝ :=
  Real.sqrt (ssqR xr b c * (1 / 511))

def featR (xr : SX.Idx → ℝ) (b : Fin 256) (f : Fin 768) : ℝ :=
  if h : f.val % 256 < 128 then sdR xr b ⟨f.val % 256, h⟩ else muR xr b ⟨f.val % 256 - 128, by omega⟩

theorem mu_coe (xr : SX.Idx → ℝ) (b : Fin 256) (c : Fin 128) :
    mu (fun i => ((xr i : ℝ) : EReal)) b c = ((muR xr b c : ℝ) : EReal) := by
  unfold mu muR
  rw [coe_sum, ← EReal.coe_mul]

theorem ssq_coe (xr : SX.Idx → ℝ) (b : Fin 256) (c : Fin 128) :
    ssq (fun i => ((xr i : ℝ) : EReal)) b c = ((ssqR xr b c : ℝ) : EReal) := by
  unfold ssq ssqR
  simp only [mu_coe, ← EReal.coe_sub, ← EReal.coe_mul]
  rw [coe_sum]

/-- A sum of squares is non-negative. -/
theorem ssqR_nonneg (xr : SX.Idx → ℝ) (b : Fin 256) (c : Fin 128) : 0 ≤ ssqR xr b c :=
  Finset.sum_nonneg fun _ _ => mul_self_nonneg _

theorem sd_coe (xr : SX.Idx → ℝ) (b : Fin 256) (c : Fin 128) :
    sd (fun i => ((xr i : ℝ) : EReal)) b c = ((sdR xr b c : ℝ) : EReal) := by
  unfold sd sdR
  rw [ssq_coe, ← EReal.coe_mul, Ideal.sqrt_coe,
    if_neg (not_lt.mpr (mul_nonneg (ssqR_nonneg xr b c) (by norm_num)))]

theorem feat_coe (xr : SX.Idx → ℝ) (b : Fin 256) (f : Fin 768) :
    feat (fun i => ((xr i : ℝ) : EReal)) b f = ((featR xr b f : ℝ) : EReal) := by
  unfold feat featR
  split_ifs with h
  · exact sd_coe xr b _
  · exact mu_coe xr b _

/-! ## The feature row on the six slices -/

/-- On an even slice the feature row holds the standard deviations. -/
theorem featR_even (xr : SX.Idx → ℝ) (b : Fin 256) (k : Fin 6) (hk : k.val % 2 = 0) (c : Fin 128) :
    featR xr b (wrow k c) = sdR xr b c := by
  have hk6 := k.isLt
  have hc := c.isLt
  have h1 : (128 * k.val + c.val) % 256 < 128 := by omega
  have h2 : (128 * k.val + c.val) % 256 = c.val := by omega
  unfold featR wrow
  rw [dif_pos h1]
  exact congrArg (sdR xr b) (Fin.ext h2)

/-- On an odd slice it holds the means. -/
theorem featR_odd (xr : SX.Idx → ℝ) (b : Fin 256) (k : Fin 6) (hk : k.val % 2 = 1) (c : Fin 128) :
    featR xr b (wrow k c) = muR xr b c := by
  have hk6 := k.isLt
  have hc := c.isLt
  have h1 : ¬ (128 * k.val + c.val) % 256 < 128 := by omega
  have h2 : (128 * k.val + c.val) % 256 - 128 = c.val := by omega
  unfold featR wrow
  rw [dif_neg h1]
  exact congrArg (muR xr b) (Fin.ext h2)

/-- A sum over the 768 rows of w taken slice by slice: six slices of 128 rows. -/
theorem sum_slices {M : Type*} [AddCommMonoid M] (g : Fin 768 → M) :
    ∑ f : Fin 768, g f = ∑ k : Fin 6, ∑ c : Fin 128, g (wrow k c) := by
  rw [← Fin.sum_congr' g (show 6 * 128 = 768 from rfl), Idealize.ShloMosaic.BlockSum.sum_blocks 6 128]
  exact Finset.sum_congr rfl fun s _ => Finset.sum_congr rfl fun q _ => congrArg g (Fin.ext rfl)

/-- The product of the feature row with a column of w, slice by slice. -/
theorem feat_sum_slices (xr : SX.Idx → ℝ) (wr : SW.Idx → ℝ) (b : Fin 256) (o : Fin 128) :
    ∑ f : Fin 768, featR xr b f * wr (ix2 f o)
      = ∑ k : Fin 6, ∑ c : Fin 128, featR xr b (wrow k c) * wr (ix2 (wrow k c) o) :=
  sum_slices fun f : Fin 768 => featR xr b f * wr (ix2 f o)

/-- Over the reals the two arrangements agree: distributivity over the three slices each statistic meets. -/
theorem real_law (xr : SX.Idx → ℝ) (wr : SW.Idx → ℝ) (b : Fin 256) (o : Fin 128) :
    (∑ c : Fin 128, sdR xr b c * ((wr (ix2 (wrow 0 c) o) + wr (ix2 (wrow 2 c) o)) + wr (ix2 (wrow 4 c) o)))
      + (∑ c : Fin 128, muR xr b c * ((wr (ix2 (wrow 1 c) o) + wr (ix2 (wrow 3 c) o)) + wr (ix2 (wrow 5 c) o)))
    = ∑ f : Fin 768, featR xr b f * wr (ix2 f o) := by
  rw [feat_sum_slices, Fin.sum_univ_six]
  simp only [featR_even xr b 0 (by decide), featR_odd xr b 1 (by decide), featR_even xr b 2 (by decide),
    featR_odd xr b 3 (by decide), featR_even xr b 4 (by decide), featR_odd xr b 5 (by decide),
    mul_add, Finset.sum_add_distrib]
  ring

/-! ## The law on the extended reals -/

/-- On real entries the kernel's two products are the real ones. -/
theorem kernel_products_coe (xr : SX.Idx → ℝ) (wr : SW.Idx → ℝ) (b : Fin 256) (o : Fin 128) :
    (∑ c : Fin 128, sd (fun i => ((xr i : ℝ) : EReal)) b c * ws (fun i => ((wr i : ℝ) : EReal)) c o)
      + (∑ c : Fin 128, mu (fun i => ((xr i : ℝ) : EReal)) b c * wm (fun i => ((wr i : ℝ) : EReal)) c o)
    = (((∑ c : Fin 128, sdR xr b c * ((wr (ix2 (wrow 0 c) o) + wr (ix2 (wrow 2 c) o)) + wr (ix2 (wrow 4 c) o)))
      + (∑ c : Fin 128, muR xr b c * ((wr (ix2 (wrow 1 c) o) + wr (ix2 (wrow 3 c) o)) + wr (ix2 (wrow 5 c) o))) : ℝ) : EReal) := by
  have h1 : ∀ c : Fin 128, sd (fun i => ((xr i : ℝ) : EReal)) b c * ws (fun i => ((wr i : ℝ) : EReal)) c o
      = ((sdR xr b c * ((wr (ix2 (wrow 0 c) o) + wr (ix2 (wrow 2 c) o)) + wr (ix2 (wrow 4 c) o)) : ℝ) : EReal) := fun c => by
    rw [sd_coe, EReal.coe_mul, EReal.coe_add, EReal.coe_add]; rfl
  have h2 : ∀ c : Fin 128, mu (fun i => ((xr i : ℝ) : EReal)) b c * wm (fun i => ((wr i : ℝ) : EReal)) c o
      = ((muR xr b c * ((wr (ix2 (wrow 1 c) o) + wr (ix2 (wrow 3 c) o)) + wr (ix2 (wrow 5 c) o)) : ℝ) : EReal) := fun c => by
    rw [mu_coe, EReal.coe_mul, EReal.coe_add, EReal.coe_add]; rfl
  rw [Finset.sum_congr rfl fun c _ => h1 c, Finset.sum_congr rfl fun c _ => h2 c, coe_sum, coe_sum, EReal.coe_add]

/-- On real entries the reference's product is the real one. -/
theorem reference_product_coe (xr : SX.Idx → ℝ) (wr : SW.Idx → ℝ) (b : Fin 256) (o : Fin 128) :
    (∑ f : Fin 768, feat (fun i => ((xr i : ℝ) : EReal)) b f * (fun i => ((wr i : ℝ) : EReal)) (ix2 f o))
    = ((∑ f : Fin 768, featR xr b f * wr (ix2 f o) : ℝ) : EReal) := by
  have h : ∀ f : Fin 768, feat (fun i => ((xr i : ℝ) : EReal)) b f * (fun i => ((wr i : ℝ) : EReal)) (ix2 f o)
      = ((featR xr b f * wr (ix2 f o) : ℝ) : EReal) := fun f => by
    rw [feat_coe, EReal.coe_mul]
  rw [Finset.sum_congr rfl fun f _ => h f, coe_sum]

/-- With every entry of x and of w real, the kernel's arrangement and the reference's are one function. -/
theorem Gk_eq_Gr (x : SX.Idx → EReal) (w : SW.Idx → EReal) (bias : SB.Idx → EReal)
    (hx : ∀ i, ∃ r : ℝ, x i = (r : EReal)) (hw : ∀ i, ∃ r : ℝ, w i = (r : EReal)) :
    Gk x w bias = Gr x w bias := by
  choose xr hxr using hx
  choose wr hwr using hw
  have ex : x = fun i => ((xr i : ℝ) : EReal) := funext hxr
  have ew : w = fun i => ((wr i : ℝ) : EReal) := funext hwr
  funext i
  obtain ⟨p, o, rfl⟩ : ∃ (p : Fin 256) (o : Fin 128), i = ix2 p o := ⟨i 0, i 1, eq_ix2 i⟩
  rw [Gk_apply, Gr_apply, ex, ew, kernel_products_coe, reference_product_coe, real_law]

end Cert.Spec

end
-- ==== Proof.Finite.lean ====
/-
  What the precondition says.

  The printed predicate is the conjunction, over the three arguments, of "every entry's absolute value is below
  +infinity" (an all-reduction of the elementwise comparison). An extended real whose absolute value max(x, -x) is
  below the top element is neither infinity, so it is a real number. Hence under the precondition every entry of every
  argument is real.
-/
import proofs.«109826_g2000005534411080_pallasbulk_673_7_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- An extended real with |x| < +infinity is a real number. -/
theorem real_of_abs_lt_inf (x : EReal)
    (e : FloatOps.cmpf (F := Ideal) (φ := .f32) CmpFPredicate.olt (FloatOps.hostAbsf x) (FloatOps.ofBits FTy.f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.cmpf_def, Ideal.absf_def, Ideal.ofBits_def, htop] at e
  induction x using EReal.rec with
  | bot => simp [Ideal.cmp] at e
  | coe r => exact ⟨r, rfl⟩
  | top => simp [Ideal.cmp] at e

/-- Under the precondition every entry of each of the three arguments is a real number. -/
theorem real_entries [Facts] (a0 : FVec Ideal S256x128x512 .f32) (a1 : FVec Ideal S768x128 .f32) (a2 : FVec Ideal S128 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · have e := Host.reduce_andi_all _ _ _ _ _ h0' i
    simp only [cmpf, Host.absf, broadcastInDim, constant] at e
    exact real_of_abs_lt_inf _ e
  · have e := Host.reduce_andi_all _ _ _ _ _ h1 i
    simp only [cmpf, Host.absf, broadcastInDim, constant] at e
    exact real_of_abs_lt_inf _ e
  · have e := Host.reduce_andi_all _ _ _ _ _ h2 i
    simp only [cmpf, Host.absf, broadcastInDim, constant] at e
    exact real_of_abs_lt_inf _ e

end Cert.Finite

end
-- ==== Proof.BBody.lean ====
/-
  The kernel's body at one grid point, run once for all points.

  On whole staging buffers, the six inputs at known contents and the output's at anything, the body
  loads the inputs, computes one 32x128 tile from them and stores it over the whole output buffer.
  What the output buffer then holds is named here as a function of the six input blocks: the single
  store's value laid over the buffer.
-/
import proofs.«109826_g2000005534411080_pallasbulk_673_7_alg».proof.Proof.Gen.Kernel.Launch
import proofs.«109826_g2000005534411080_pallasbulk_673_7_alg».proof.Proof.Gen.Kernel.Skeleton
import proofs.«109826_g2000005534411080_pallasbulk_673_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole of a row block, of the weight matrix, of the bias row and of the output tile. -/
abbrev rX : Rect S1024x512 := Rect.unit (s := S1024x512) ![0, 0] S1024x512.size inb_S1024x512_S1024x512_0_0
abbrev rW : Rect S768x128 := Rect.unit (s := S768x128) ![0, 0] S768x128.size inb_S768x128_S768x128_0_0
abbrev rB : Rect S1x128 := Rect.unit (s := S1x128) ![0, 0] S1x128.size inb_S1x128_S1x128_0_0
abbrev rY : Rect S32x128 := Rect.unit (s := S32x128) ![0, 0] S32x128.size inb_S32x128_S32x128_0_0

/-- The tile the body computes from the four row blocks, the weight matrix and the bias row. -/
def tile (x0 x1 x2 x3 : Vec F S1024x512 .f32) (x4 : Vec F S768x128 .f32) (x5 : Vec F S1x128 .f32) : FVec F S32x128 .f32 :=
  k0_pay12 (k0_pay3 (View.ld x0 rX)) (k0_pay4 (View.ld x0 rX)) (k0_pay7 (View.ld x1 rX)) (k0_pay8 (View.ld x1 rX))
    (k0_pay10 (View.ld x2 rX)) (k0_pay11 (View.ld x2 rX)) (View.ld x3 rX) (View.ld x4 rW) (View.ld x5 rB)

/-- The output's staging buffer after the body: its one store laid over the buffer. -/
def outY (x0 x1 x2 x3 : Vec F S1024x512 .f32) (x4 : Vec F S768x128 .f32) (x5 : Vec F S1x128 .f32) : Vec F S32x128 .f32 :=
  View.canon [⟨rY, tile x0 x1 x2 x3 x4 x5⟩]

/-- The store covers the buffer. -/
theorem coverY (p0 : Vec F S32x128 .f32) (y : S32x128.Idx) :
    ∃ pc ∈ ([⟨rY, p0⟩] : List (View.Piece (Elt F) S32x128 .f32)), y ∈ pc.1.set :=
  View.cover_of_tiled [⟨rY, p0⟩] S32x128.size (by rfl) y

set_option maxHeartbeats 4000000 in
/-- The body on whole staging memrefs, the inputs' at contents `x0 … x5` and the output's at anything, runs to the
    continuation holding the inputs' as they were and the output's at `outY` of them. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x512 .f32) (harg4 : arg4.IsWhole)
    (arg5 : Memref sig .tc .vmem S768x128 .f32) (harg5 : arg5.IsWhole) (arg6 : Memref sig .tc .vmem S1x128 .f32) (harg6 : arg6.IsWhole)
    (arg7 : Memref sig .tc .vmem S32x128 .f32) (harg7 : arg7.IsWhole)
    (x0 x1 x2 x3 : Vec F S1024x512 .f32) (x4 : Vec F S768x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outY x0 x1 x2 x3 x4 x5)) -∗ K ⟨⟩))
      ⊢ wp frame (wpE (defs₀ (F := F)) Variants.none c none) E
          (cc0__fused_pool_linear_kernel i arg1 harg1 arg2 harg2 arg3 harg3 arg4 harg4 arg5 harg5 arg6 harg6 arg7 harg7) K := by
  simp only [cc0__fused_pool_linear_kernel_eq_skeleton]; unfold cc0__fused_pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverY _)

end Cert.Kernel.Hand

end
-- ==== Proof.BDat.lean ====
/-
  The proof data of the one pipeline, and the body obligation at every grid point.

  The four row-block windows read one array. Each holds it at a quarter of the full share; the weight
  matrix and the bias row are held whole. After the body every input buffer still holds its block and
  the output buffer holds the tile computed from the six blocks. The invariant carried from point to
  point is only the scoped buffers that are no staging buffer (there are none).
-/
import proofs.«109826_g2000005534411080_pallasbulk_673_7_alg».proof.Proof.BBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The share of the row array each of its four windows holds: the four quarters of the whole. -/
def quarter : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The proof data on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outY (iblk V c 0 t) (iblk V c 1 t) (iblk V c 2 t) (iblk V c 3 t) (iblk V c 4 t) (iblk V c 5 t)
  Φ _ := Pipeline.scopedRest (Ix := Unit) (Name := ℕ) (U := UR sig nD τ) (Lvl := ℕ) (Val := Elt F) spec0 c
  q := quarter
  owed _ := 0

theorem A_eq (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) :
    (dat0 V c).after 6 t = outY (iblk V c 0 t) (iblk V c 1 t) (iblk V c 2 t) (iblk V c 3 t) (iblk V c 4 t) (iblk V c 5 t) := by
  dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d
theorem before0_4 (c : Dev nD) (t : Fin cfg0.N) (d) : (dat0 V c).before 4 t d = iblk V c 4 t :=
  before0_4_of V (dat0 V c) (A_eq V c 4) (after0_4 V c) t d
theorem before0_5 (c : Dev nD) (t : Fin cfg0.N) (d) : (dat0 V c).before 5 t d = iblk V c 5 t :=
  before0_5_of V (dat0 V c) (A_eq V c 5) (after0_5 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.BRun.lean ====
/-
  The run of the whole program: two reshapes on the host, then the one pipelined region.

  The region is entered with the row array, the weight matrix, the reshaped bias and the result array
  each held whole. The row array is dealt among its four windows a quarter of the share each; the
  others go whole to their one window. From the body obligation the launch theorem for windows that
  share an array gives: every execution ends, nothing faults, every window's array holds what the
  write-backs leave, and every buffer the region does not touch holds what it held on entry.
-/
import proofs.«109826_g2000005534411080_pallasbulk_673_7_alg».proof.Proof.BDat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core `c`'s buffers when the region is entered: after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-! ## Dealing the arrays to the windows -/

section Deal
variable {ℓ : Loc nD τ sig} {I : Finset (Idx ℓ)} {f : Buf (Elt F) ℓ}

/-- A buffer held whole is held at the four quarters of the share. -/
theorem quarters :
    (ℓ ↦[I]{fullShare} f : sProp 𝕄) ⊢ iprop((ℓ ↦[I]{fullShare.left.left} f) ∗ (ℓ ↦[I]{fullShare.left.right} f)
      ∗ (ℓ ↦[I]{fullShare.right.left} f) ∗ (ℓ ↦[I]{fullShare.right.right} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H0, H1⟩
  icases HR with ⟨H2, H3⟩
  isplitl [H0]; · iexact H0
  isplitl [H1]; · iexact H1
  isplitl [H2]; · iexact H2
  iexact H3
end Deal

variable (V' : (c : Dev nD) → (b : Ref sig .tc) → Buf (Elt F) ((c : Thread nD τ).loc b))

/-- The windows' arrays, each a whole buffer, at the proof data's shares. -/
theorem arrays_eq (c : Dev nD) (G : (w : Fin cfg0.W) → Buf (Elt F) ((cfg0.win w).arr.view.loc (c.tc : Thread nD τ))) :
    (dat0 V' c).arrays G
      = bigSep Finset.univ fun w => (((c.tc : Thread nD τ).loc (Pipeline.arrRef spec0 w)) ↦{(dat0 V' c).share w} G w : sProp 𝕄) := by
  unfold Dat.arrays
  exact bigSep_congr fun w _ => by rw [(arr_whole0 w).set_eq_univ]

/-- The four buffers behind the seven windows. -/
theorem arrRefs_eq : Finset.univ.image (Pipeline.arrRef spec0) = [main_v0, main_arg1, main_v1, main_v2].toFinset := by decide

/-- The buffers behind the arrays, each held whole at the entry contents, make the pipeline's arrays at entry. -/
theorem hsplit (c : Dev nD) :
    (Pipeline.arrBufs (Ix := Unit) (Name := ℕ) (U := UR sig nD τ) (Lvl := ℕ) spec0 c (V' c) : sProp 𝕄)
      ⊢ (dat0 V' c).arrays ((dat0 V' c).arrAt · 0) := by
  rw [arrays_eq, bigSep_W0]
  have e : (Pipeline.arrBufs (Ix := Unit) (Name := ℕ) (U := UR sig nD τ) (Lvl := ℕ) spec0 c (V' c) : sProp 𝕄)
      = iprop((((c.tc : Thread nD τ).loc main_v0) ↦{fullShare} V' c main_v0) ∗ (((c.tc : Thread nD τ).loc main_arg1) ↦{fullShare} V' c main_arg1)
        ∗ (((c.tc : Thread nD τ).loc main_v1) ↦{fullShare} V' c main_v1) ∗ (((c.tc : Thread nD τ).loc main_v2) ↦{fullShare} V' c main_v2)) :=
    bigSep_eq_bigSepL_of_eq [main_v0, main_arg1, main_v1, main_v2] arrRefs_eq (by decide) _
  rw [e]
  iintro ⟨Hx, Hw, Hb, Hy⟩
  ihave Hq := quarters $$ Hx
  icases Hq with ⟨H0, H1, H2, H3⟩
  isplitl [H0]; · iexact H0
  isplitl [H1]; · iexact H1
  isplitl [H2]; · iexact H2
  isplitl [H3]; · iexact H3
  isplitl [Hw]; · iexact Hw
  isplitl [Hb]; · iexact Hb
  iexact Hy

/-! ## The run -/

/-- The proof data of the one pipeline, at the entry contents after the reshapes. -/
def dats (p : Fin 1) (c : Dev nD) : Dat τ (Elt F) Unit ℕ (UR sig nD τ) ℕ (cfgs p) c := dat0 (V m) c

set_option backward.isDefEq.respectTransparency.types false in
/-- Every weakly fair execution of the program from a memory with zero counters ends, nothing faulting, every
    window's array at what the write-backs leave and every buffer the region passes by at its entry contents. -/
theorem run_main : θ_run defs (onTc (τ := τ) (main (F := F))) (s₀ m ρ) (fun r => ∀ c : Dev nD,
      (∀ w, r.2.mem ((spec0 w).arr.view.loc (c.tc : Thread nD τ)) = (dat0 (V m) c).arrAt w cfg0.N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation (V m) c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := fun c => hsplit (V m) c)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c =>
      show iprop(emp ∗ Pipeline.scopedRest (Ix := Unit) (Name := ℕ) (U := UR sig nD τ) (Lvl := ℕ) (Val := Elt F) spec0 c)
          ⊢ Pipeline.scopedRest (Ix := Unit) (Name := ℕ) (U := UR sig nD τ) (Lvl := ℕ) (Val := Elt F) spec0 c from by
        iintro ⟨-, H⟩
        iexact H)
    (hout := fun c =>
      show Pipeline.scopedRest (Ix := Unit) (Name := ℕ) (U := UR sig nD τ) (Lvl := ℕ) (Val := Elt F) spec0 c
          ⊢ iprop(emp ∗ Pipeline.scopedRest (Ix := Unit) (Name := ℕ) (U := UR sig nD τ) (Lvl := ℕ) (Val := Elt F) spec0 c) from by
        iintro H
        isplitr; · iempintro
        iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- The arguments are no window's array but the weight matrix, and unscoped. -/
theorem arg0_rest : main_arg0 ∈ Pipeline.restRefs sig spec0 := Pipeline.mem_restRefs_of main_arg0 rfl (by decide)
theorem arg2_rest : main_arg2 ∈ Pipeline.restRefs sig spec0 := Pipeline.mem_restRefs_of main_arg2 rfl (by decide)

/-- The run read at the result and at the three arguments: the result array holds what the eight write-backs leave,
    the arguments what they held at launch. -/
theorem run_args : θ_run defs (onTc (τ := τ) (main (F := F))) ⟨m, fun _ => 0, ρ⟩ (fun r => ∀ c : Dev nD,
      r.2.mem ((c.tc : Thread nD τ).loc main_v2) = (dat0 (V m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 6,
      ((h c).2 main_arg0 arg0_rest).trans (V_main_arg0 m c),
      ((h c).1 4).trans (((dat0 (V m) c).arrAt_in 4 rfl _).trans ((A_eq (V m) c 4).trans (V_main_arg1 m c))),
      ((h c).2 main_arg2 arg2_rest).trans (V_main_arg2 m c)⟩) (run_main m ρ)

/-- The frame: the program runs to the end, nothing faults, and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_args m ρ)

end Cert.Kernel.Hand

end
-- ==== Proof.KBody.lean ====
/-
  The kernel's body at one grid point, run once for all points.

  On whole staging buffers, the six inputs at known contents and the output's at anything, the body
  loads the inputs, computes one 32x128 tile from them and stores it over the whole output buffer.
  What the output buffer then holds is named here as a function of the six input blocks: the single
  store's value laid over the buffer.
-/
import proofs.«109826_g2000005534411080_pallasbulk_673_7_alg».proof.Proof.Gen.KernelIdeal.Launch
import proofs.«109826_g2000005534411080_pallasbulk_673_7_alg».proof.Proof.Gen.KernelIdeal.Skeleton
import proofs.«109826_g2000005534411080_pallasbulk_673_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The whole of a row block, of the weight matrix, of the bias row and of the output tile. -/
abbrev rX : Rect S1024x512 := Rect.unit (s := S1024x512) ![0, 0] S1024x512.size inb_S1024x512_S1024x512_0_0
abbrev rW : Rect S768x128 := Rect.unit (s := S768x128) ![0, 0] S768x128.size inb_S768x128_S768x128_0_0
abbrev rB : Rect S1x128 := Rect.unit (s := S1x128) ![0, 0] S1x128.size inb_S1x128_S1x128_0_0
abbrev rY : Rect S32x128 := Rect.unit (s := S32x128) ![0, 0] S32x128.size inb_S32x128_S32x128_0_0

/-- The tile the body computes from the four row blocks, the weight matrix and the bias row. -/
def tile (x0 x1 x2 x3 : Vec F S1024x512 .f32) (x4 : Vec F S768x128 .f32) (x5 : Vec F S1x128 .f32) : FVec F S32x128 .f32 :=
  k0_pay12 (k0_pay3 (View.ld x0 rX)) (k0_pay4 (View.ld x0 rX)) (k0_pay7 (View.ld x1 rX)) (k0_pay8 (View.ld x1 rX))
    (k0_pay10 (View.ld x2 rX)) (k0_pay11 (View.ld x2 rX)) (View.ld x3 rX) (View.ld x4 rW) (View.ld x5 rB)

/-- The output's staging buffer after the body: its one store laid over the buffer. -/
def outY (x0 x1 x2 x3 : Vec F S1024x512 .f32) (x4 : Vec F S768x128 .f32) (x5 : Vec F S1x128 .f32) : Vec F S32x128 .f32 :=
  View.canon [⟨rY, tile x0 x1 x2 x3 x4 x5⟩]

/-- The store covers the buffer. -/
theorem coverY (p0 : Vec F S32x128 .f32) (y : S32x128.Idx) :
    ∃ pc ∈ ([⟨rY, p0⟩] : List (View.Piece (Elt F) S32x128 .f32)), y ∈ pc.1.set :=
  View.cover_of_tiled [⟨rY, p0⟩] S32x128.size (by rfl) y

set_option maxHeartbeats 4000000 in
/-- The body on whole staging memrefs, the inputs' at contents `x0 … x5` and the output's at anything, runs to the
    continuation holding the inputs' as they were and the output's at `outY` of them. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x512 .f32) (harg4 : arg4.IsWhole)
    (arg5 : Memref sig .tc .vmem S768x128 .f32) (harg5 : arg5.IsWhole) (arg6 : Memref sig .tc .vmem S1x128 .f32) (harg6 : arg6.IsWhole)
    (arg7 : Memref sig .tc .vmem S32x128 .f32) (harg7 : arg7.IsWhole)
    (x0 x1 x2 x3 : Vec F S1024x512 .f32) (x4 : Vec F S768x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outY x0 x1 x2 x3 x4 x5)) -∗ K ⟨⟩))
      ⊢ wp frame (wpE (defs₀ (F := F)) Variants.none c none) E
          (cc0__fused_pool_linear_kernel i arg1 harg1 arg2 harg2 arg3 harg3 arg4 harg4 arg5 harg5 arg6 harg6 arg7 harg7) K := by
  simp only [cc0__fused_pool_linear_kernel_eq_skeleton]; unfold cc0__fused_pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverY _)

end Cert.KernelIdeal.Hand

end
-- ==== Proof.KDat.lean ====
/-
  The proof data of the one pipeline, and the body obligation at every grid point.

  The four row-block windows read one array. Each holds it at a quarter of the full share; the weight
  matrix and the bias row are held whole. After the body every input buffer still holds its block and
  the output buffer holds the tile computed from the six blocks. The invariant carried from point to
  point is only the scoped buffers that are no staging buffer (there are none).
-/
import proofs.«109826_g2000005534411080_pallasbulk_673_7_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The share of the row array each of its four windows holds: the four quarters of the whole. -/
def quarter : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The proof data on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outY (iblk V c 0 t) (iblk V c 1 t) (iblk V c 2 t) (iblk V c 3 t) (iblk V c 4 t) (iblk V c 5 t)
  Φ _ := Pipeline.scopedRest (Ix := Unit) (Name := ℕ) (U := UR sig nD τ) (Lvl := ℕ) (Val := Elt F) spec0 c
  q := quarter
  owed _ := 0

theorem A_eq (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) :
    (dat0 V c).after 6 t = outY (iblk V c 0 t) (iblk V c 1 t) (iblk V c 2 t) (iblk V c 3 t) (iblk V c 4 t) (iblk V c 5 t) := by
  dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d
theorem before0_4 (c : Dev nD) (t : Fin cfg0.N) (d) : (dat0 V c).before 4 t d = iblk V c 4 t :=
  before0_4_of V (dat0 V c) (A_eq V c 4) (after0_4 V c) t d
theorem before0_5 (c : Dev nD) (t : Fin cfg0.N) (d) : (dat0 V c).before 5 t d = iblk V c 5 t :=
  before0_5_of V (dat0 V c) (A_eq V c 5) (after0_5 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KRun.lean ====
/-
  The run of the whole program: two reshapes on the host, then the one pipelined region.

  The region is entered with the row array, the weight matrix, the reshaped bias and the result array
  each held whole. The row array is dealt among its four windows a quarter of the share each; the
  others go whole to their one window. From the body obligation the launch theorem for windows that
  share an array gives: every execution ends, nothing faults, every window's array holds what the
  write-backs leave, and every buffer the region does not touch holds what it held on entry.
-/
import proofs.«109826_g2000005534411080_pallasbulk_673_7_alg».proof.Proof.KDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host prefix -/

/-- Core `c`'s buffers when the region is entered: after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-! ## Dealing the arrays to the windows -/

section Deal
variable {ℓ : Loc nD τ sig} {I : Finset (Idx ℓ)} {f : Buf (Elt F) ℓ}

/-- A buffer held whole is held at the four quarters of the share. -/
theorem quarters :
    (ℓ ↦[I]{fullShare} f : sProp 𝕄) ⊢ iprop((ℓ ↦[I]{fullShare.left.left} f) ∗ (ℓ ↦[I]{fullShare.left.right} f)
      ∗ (ℓ ↦[I]{fullShare.right.left} f) ∗ (ℓ ↦[I]{fullShare.right.right} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H0, H1⟩
  icases HR with ⟨H2, H3⟩
  isplitl [H0]; · iexact H0
  isplitl [H1]; · iexact H1
  isplitl [H2]; · iexact H2
  iexact H3
end Deal

variable (V' : (c : Dev nD) → (b : Ref sig .tc) → Buf (Elt F) ((c : Thread nD τ).loc b))

/-- The windows' arrays, each a whole buffer, at the proof data's shares. -/
theorem arrays_eq (c : Dev nD) (G : (w : Fin cfg0.W) → Buf (Elt F) ((cfg0.win w).arr.view.loc (c.tc : Thread nD τ))) :
    (dat0 V' c).arrays G
      = bigSep Finset.univ fun w => (((c.tc : Thread nD τ).loc (Pipeline.arrRef spec0 w)) ↦{(dat0 V' c).share w} G w : sProp 𝕄) := by
  unfold Dat.arrays
  exact bigSep_congr fun w _ => by rw [(arr_whole0 w).set_eq_univ]

/-- The four buffers behind the seven windows. -/
theorem arrRefs_eq : Finset.univ.image (Pipeline.arrRef spec0) = [main_v0, main_arg1, main_v1, main_v2].toFinset := by decide

/-- The buffers behind the arrays, each held whole at the entry contents, make the pipeline's arrays at entry. -/
theorem hsplit (c : Dev nD) :
    (Pipeline.arrBufs (Ix := Unit) (Name := ℕ) (U := UR sig nD τ) (Lvl := ℕ) spec0 c (V' c) : sProp 𝕄)
      ⊢ (dat0 V' c).arrays ((dat0 V' c).arrAt · 0) := by
  rw [arrays_eq, bigSep_W0]
  have e : (Pipeline.arrBufs (Ix := Unit) (Name := ℕ) (U := UR sig nD τ) (Lvl := ℕ) spec0 c (V' c) : sProp 𝕄)
      = iprop((((c.tc : Thread nD τ).loc main_v0) ↦{fullShare} V' c main_v0) ∗ (((c.tc : Thread nD τ).loc main_arg1) ↦{fullShare} V' c main_arg1)
        ∗ (((c.tc : Thread nD τ).loc main_v1) ↦{fullShare} V' c main_v1) ∗ (((c.tc : Thread nD τ).loc main_v2) ↦{fullShare} V' c main_v2)) :=
    bigSep_eq_bigSepL_of_eq [main_v0, main_arg1, main_v1, main_v2] arrRefs_eq (by decide) _
  rw [e]
  iintro ⟨Hx, Hw, Hb, Hy⟩
  ihave Hq := quarters $$ Hx
  icases Hq with ⟨H0, H1, H2, H3⟩
  isplitl [H0]; · iexact H0
  isplitl [H1]; · iexact H1
  isplitl [H2]; · iexact H2
  isplitl [H3]; · iexact H3
  isplitl [Hw]; · iexact Hw
  isplitl [Hb]; · iexact Hb
  iexact Hy

/-! ## The run -/

/-- The proof data of the one pipeline, at the entry contents after the reshapes. -/
def dats (p : Fin 1) (c : Dev nD) : Dat τ (Elt F) Unit ℕ (UR sig nD τ) ℕ (cfgs p) c := dat0 (V m) c

set_option backward.isDefEq.respectTransparency.types false in
/-- Every weakly fair execution of the program from a memory with zero counters ends, nothing faulting, every
    window's array at what the write-backs leave and every buffer the region passes by at its entry contents. -/
theorem run_main : θ_run defs (onTc (τ := τ) (main (F := F))) (s₀ m ρ) (fun r => ∀ c : Dev nD,
      (∀ w, r.2.mem ((spec0 w).arr.view.loc (c.tc : Thread nD τ)) = (dat0 (V m) c).arrAt w cfg0.N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation (V m) c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := fun c => hsplit (V m) c)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c =>
      show iprop(emp ∗ Pipeline.scopedRest (Ix := Unit) (Name := ℕ) (U := UR sig nD τ) (Lvl := ℕ) (Val := Elt F) spec0 c)
          ⊢ Pipeline.scopedRest (Ix := Unit) (Name := ℕ) (U := UR sig nD τ) (Lvl := ℕ) (Val := Elt F) spec0 c from by
        iintro ⟨-, H⟩
        iexact H)
    (hout := fun c =>
      show Pipeline.scopedRest (Ix := Unit) (Name := ℕ) (U := UR sig nD τ) (Lvl := ℕ) (Val := Elt F) spec0 c
          ⊢ iprop(emp ∗ Pipeline.scopedRest (Ix := Unit) (Name := ℕ) (U := UR sig nD τ) (Lvl := ℕ) (Val := Elt F) spec0 c) from by
        iintro H
        isplitr; · iempintro
        iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- The arguments are no window's array but the weight matrix, and unscoped. -/
theorem arg0_rest : main_arg0 ∈ Pipeline.restRefs sig spec0 := Pipeline.mem_restRefs_of main_arg0 rfl (by decide)
theorem arg2_rest : main_arg2 ∈ Pipeline.restRefs sig spec0 := Pipeline.mem_restRefs_of main_arg2 rfl (by decide)

/-- The run read at the result and at the three arguments: the result array holds what the eight write-backs leave,
    the arguments what they held at launch. -/
theorem run_args : θ_run defs (onTc (τ := τ) (main (F := F))) ⟨m, fun _ => 0, ρ⟩ (fun r => ∀ c : Dev nD,
      r.2.mem ((c.tc : Thread nD τ).loc main_v2) = (dat0 (V m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 6,
      ((h c).2 main_arg0 arg0_rest).trans (V_main_arg0 m c),
      ((h c).1 4).trans (((dat0 (V m) c).arrAt_in 4 rfl _).trans ((A_eq (V m) c 4).trans (V_main_arg1 m c))),
      ((h c).2 main_arg2 arg2_rest).trans (V_main_arg2 m c)⟩) (run_main m ρ)

/-- The frame: the program runs to the end, nothing faults, and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_args m ρ)

end Cert.KernelIdeal.Hand

end
-- ==== Proof.KBlocks.lean ====
/-
  The windows' blocks read back to the arguments.

  The row array the region reads is the first argument with its two leading axes merged: row
  `128 b + ch` of it is row `(b, ch)` of the argument. At grid point `t` window `k` (`k < 4`) holds rows
  `1024 (4 t + k) … + 1023` of it, so row `j` of that block is row `(32 t + 8 k + j / 128, j % 128)` of the
  argument. The weight window is the whole second argument, the bias window the third argument as one row,
  and the output window at point `t` is rows `32 t … 32 t + 31` of the result.
-/
import proofs.«109826_g2000005534411080_pallasbulk_673_7_alg».proof.Proof.KRun
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F] [Named F]

variable (m : (ℓ : Loc nD τ sig) → Buf (Elt F) ℓ)

theorem hz : (![0, 0] : Fin 2 → Nat) = fun _ => 0 := funext fun a => by fin_cases a <;> rfl

/-! ## The index maps, decided over the grid -/

theorem idx_row0 : ∀ t : Fin cfg0.N, win0_0.index t (0 : Fin 2) = 4 * t.val + 0 ∧ win0_0.index t (1 : Fin 2) = 0 :=
  (by decide +kernel : ∀ t : Fin grid0.N, _)
theorem idx_row1 : ∀ t : Fin cfg0.N, win0_1.index t (0 : Fin 2) = 4 * t.val + 1 ∧ win0_1.index t (1 : Fin 2) = 0 :=
  (by decide +kernel : ∀ t : Fin grid0.N, _)
theorem idx_row2 : ∀ t : Fin cfg0.N, win0_2.index t (0 : Fin 2) = 4 * t.val + 2 ∧ win0_2.index t (1 : Fin 2) = 0 :=
  (by decide +kernel : ∀ t : Fin grid0.N, _)
theorem idx_row3 : ∀ t : Fin cfg0.N, win0_3.index t (0 : Fin 2) = 4 * t.val + 3 ∧ win0_3.index t (1 : Fin 2) = 0 :=
  (by decide +kernel : ∀ t : Fin grid0.N, _)
theorem idx_w : ∀ t : Fin cfg0.N, win0_4.index t (0 : Fin 2) = 0 ∧ win0_4.index t (1 : Fin 2) = 0 :=
  (by decide +kernel : ∀ t : Fin grid0.N, _)
theorem idx_b : ∀ t : Fin cfg0.N, win0_5.index t (0 : Fin 2) = 0 ∧ win0_5.index t (1 : Fin 2) = 0 :=
  (by decide +kernel : ∀ t : Fin grid0.N, _)
theorem idx_y : ∀ t : Fin cfg0.N, win0_6.index t (0 : Fin 2) = t.val ∧ win0_6.index t (1 : Fin 2) = 0 :=
  (by decide +kernel : ∀ t : Fin grid0.N, _)

/-! ## What the reshapes leave -/

/-- The row array is the first argument with its leading axes merged. -/
theorem V_main_v0 (c : Dev nD) :
    (V m c main_v0 : S32768x512.Idx → Elt F .f32)
      = shapeCast S32768x512 (m ((c : Thread nD τ).loc main_arg0)) shapeCasts_S256x128x512_S32768x512 := by
  dsimp only [V, hostOps0]; after_results; rfl

/-- The bias row is the third argument as a one-row matrix. -/
theorem V_main_v1 (c : Dev nD) :
    (V m c main_v1 : S1x128.Idx → Elt F .f32)
      = shapeCast S1x128 (m ((c : Thread nD τ).loc main_arg2)) shapeCasts_S128_S1x128 := by
  dsimp only [V, hostOps0]; after_results; rfl

theorem V_main_v0_apply (c : Dev nD) (j : Fin 32768) (tt : Fin 512) (b : Fin 256) (ch : Fin 128) (h : j.val = 128 * b.val + ch.val) :
    V m c main_v0 (ix2 j tt : S32768x512.Idx) = m ((c : Thread nD τ).loc main_arg0) (ix3 b ch tt) := by
  rw [V_main_v0]
  exact shapeCast_apply _ _ (ix2 j tt) (ix3 b ch tt) (by
    rw [Shape.rowMajor_val_three, Shape.rowMajor_val_two]
    show (b.val * 128 + ch.val) * 512 + tt.val = j.val * 512 + tt.val
    omega)

theorem V_main_v1_apply (c : Dev nD) (o : Fin 128) :
    V m c main_v1 (ix2 (0 : Fin 1) o : S1x128.Idx) = m ((c : Thread nD τ).loc main_arg2) (ix1 o) := by
  rw [V_main_v1]
  exact shapeCast_apply _ _ (ix2 (0 : Fin 1) o) (ix1 o) (by
    rw [Shape.rowMajor_val_one, Shape.rowMajor_val_two]
    show o.val = (0 : Fin 1).val * 128 + o.val
    simp)

/-! ## The input blocks -/

/-- Row `j` of the block of window 0 at point `t` is row `(b, ch)` of the first argument, where
    `b = 32 t + 8 * 0 + j / 128` and `ch = j % 128`. -/
theorem iblk_row0 (c : Dev nD) (t : Fin cfg0.N) (j : Fin 1024) (tt : Fin 512) (b : Fin 256) (ch : Fin 128)
    (hb : b.val = 32 * t.val + 8 * 0 + j.val / 128) (hc : ch.val = j.val % 128) :
    (iblk (V m) c 0 t : Vec F S1024x512 .f32) (ix2 j tt) = m ((c : Thread nD τ).loc main_arg0) (ix3 b ch tt) := by
  obtain ⟨e0, e1⟩ := idx_row0 t
  have ht : t.val < 8 := Nat.lt_of_lt_of_eq t.isLt (show cfg0.N = 8 from N_0)
  show V m c main_v0 (((cfg0.win 0).blk t).view.emb (ix2 j tt)) = _
  have hemb : ((cfg0.win 0).blk t).view.emb (ix2 j tt) = (ix2 (⟨1024 * (4 * t.val + 0) + j.val, by omega⟩ : Fin 32768) tt : S32768x512.Idx) := by
    funext a; apply Fin.ext
    match a with
    | ⟨0, _⟩ => show win0_0.index t (0 : Fin 2) * 1024 + 1 * j.val = 1024 * (4 * t.val + 0) + j.val; omega
    | ⟨1, _⟩ => show win0_0.index t (1 : Fin 2) * 512 + 1 * tt.val = tt.val; omega
  rw [hemb]
  exact V_main_v0_apply m c _ tt b ch (by show 1024 * (4 * t.val + 0) + j.val = 128 * b.val + ch.val; omega)

/-- Row `j` of the block of window 1 at point `t` is row `(b, ch)` of the first argument, where
    `b = 32 t + 8 * 1 + j / 128` and `ch = j % 128`. -/
theorem iblk_row1 (c : Dev nD) (t : Fin cfg0.N) (j : Fin 1024) (tt : Fin 512) (b : Fin 256) (ch : Fin 128)
    (hb : b.val = 32 * t.val + 8 * 1 + j.val / 128) (hc : ch.val = j.val % 128) :
    (iblk (V m) c 1 t : Vec F S1024x512 .f32) (ix2 j tt) = m ((c : Thread nD τ).loc main_arg0) (ix3 b ch tt) := by
  obtain ⟨e0, e1⟩ := idx_row1 t
  have ht : t.val < 8 := Nat.lt_of_lt_of_eq t.isLt (show cfg0.N = 8 from N_0)
  show V m c main_v0 (((cfg0.win 1).blk t).view.emb (ix2 j tt)) = _
  have hemb : ((cfg0.win 1).blk t).view.emb (ix2 j tt) = (ix2 (⟨1024 * (4 * t.val + 1) + j.val, by omega⟩ : Fin 32768) tt : S32768x512.Idx) := by
    funext a; apply Fin.ext
    match a with
    | ⟨0, _⟩ => show win0_1.index t (0 : Fin 2) * 1024 + 1 * j.val = 1024 * (4 * t.val + 1) + j.val; omega
    | ⟨1, _⟩ => show win0_1.index t (1 : Fin 2) * 512 + 1 * tt.val = tt.val; omega
  rw [hemb]
  exact V_main_v0_apply m c _ tt b ch (by show 1024 * (4 * t.val + 1) + j.val = 128 * b.val + ch.val; omega)

/-- Row `j` of the block of window 2 at point `t` is row `(b, ch)` of the first argument, where
    `b = 32 t + 8 * 2 + j / 128` and `ch = j % 128`. -/
theorem iblk_row2 (c : Dev nD) (t : Fin cfg0.N) (j : Fin 1024) (tt : Fin 512) (b : Fin 256) (ch : Fin 128)
    (hb : b.val = 32 * t.val + 8 * 2 + j.val / 128) (hc : ch.val = j.val % 128) :
    (iblk (V m) c 2 t : Vec F S1024x512 .f32) (ix2 j tt) = m ((c : Thread nD τ).loc main_arg0) (ix3 b ch tt) := by
  obtain ⟨e0, e1⟩ := idx_row2 t
  have ht : t.val < 8 := Nat.lt_of_lt_of_eq t.isLt (show cfg0.N = 8 from N_0)
  show V m c main_v0 (((cfg0.win 2).blk t).view.emb (ix2 j tt)) = _
  have hemb : ((cfg0.win 2).blk t).view.emb (ix2 j tt) = (ix2 (⟨1024 * (4 * t.val + 2) + j.val, by omega⟩ : Fin 32768) tt : S32768x512.Idx) := by
    funext a; apply Fin.ext
    match a with
    | ⟨0, _⟩ => show win0_2.index t (0 : Fin 2) * 1024 + 1 * j.val = 1024 * (4 * t.val + 2) + j.val; omega
    | ⟨1, _⟩ => show win0_2.index t (1 : Fin 2) * 512 + 1 * tt.val = tt.val; omega
  rw [hemb]
  exact V_main_v0_apply m c _ tt b ch (by show 1024 * (4 * t.val + 2) + j.val = 128 * b.val + ch.val; omega)

/-- Row `j` of the block of window 3 at point `t` is row `(b, ch)` of the first argument, where
    `b = 32 t + 8 * 3 + j / 128` and `ch = j % 128`. -/
theorem iblk_row3 (c : Dev nD) (t : Fin cfg0.N) (j : Fin 1024) (tt : Fin 512) (b : Fin 256) (ch : Fin 128)
    (hb : b.val = 32 * t.val + 8 * 3 + j.val / 128) (hc : ch.val = j.val % 128) :
    (iblk (V m) c 3 t : Vec F S1024x512 .f32) (ix2 j tt) = m ((c : Thread nD τ).loc main_arg0) (ix3 b ch tt) := by
  obtain ⟨e0, e1⟩ := idx_row3 t
  have ht : t.val < 8 := Nat.lt_of_lt_of_eq t.isLt (show cfg0.N = 8 from N_0)
  show V m c main_v0 (((cfg0.win 3).blk t).view.emb (ix2 j tt)) = _
  have hemb : ((cfg0.win 3).blk t).view.emb (ix2 j tt) = (ix2 (⟨1024 * (4 * t.val + 3) + j.val, by omega⟩ : Fin 32768) tt : S32768x512.Idx) := by
    funext a; apply Fin.ext
    match a with
    | ⟨0, _⟩ => show win0_3.index t (0 : Fin 2) * 1024 + 1 * j.val = 1024 * (4 * t.val + 3) + j.val; omega
    | ⟨1, _⟩ => show win0_3.index t (1 : Fin 2) * 512 + 1 * tt.val = tt.val; omega
  rw [hemb]
  exact V_main_v0_apply m c _ tt b ch (by show 1024 * (4 * t.val + 3) + j.val = 128 * b.val + ch.val; omega)

/-- The weight window's block is the whole second argument. -/
theorem iblk_w (c : Dev nD) (t : Fin cfg0.N) (f : Fin 768) (o : Fin 128) :
    (iblk (V m) c 4 t : Vec F S768x128 .f32) (ix2 f o) = m ((c : Thread nD τ).loc main_arg1) (ix2 f o) := by
  obtain ⟨e0, e1⟩ := idx_w t
  show V m c main_arg1 (((cfg0.win 4).blk t).view.emb (ix2 f o)) = _
  have hemb : ((cfg0.win 4).blk t).view.emb (ix2 f o) = (ix2 f o : S768x128.Idx) := by
    funext a; apply Fin.ext
    match a with
    | ⟨0, _⟩ => show win0_4.index t (0 : Fin 2) * 768 + 1 * f.val = f.val; omega
    | ⟨1, _⟩ => show win0_4.index t (1 : Fin 2) * 128 + 1 * o.val = o.val; omega
  rw [hemb, V_main_arg1]

/-- The bias window's block is the third argument as one row. -/
theorem iblk_b (c : Dev nD) (t : Fin cfg0.N) (o : Fin 128) :
    (iblk (V m) c 5 t : Vec F S1x128 .f32) (ix2 (0 : Fin 1) o) = m ((c : Thread nD τ).loc main_arg2) (ix1 o) := by
  obtain ⟨e0, e1⟩ := idx_b t
  show V m c main_v1 (((cfg0.win 5).blk t).view.emb (ix2 (0 : Fin 1) o)) = _
  have hemb : ((cfg0.win 5).blk t).view.emb (ix2 (0 : Fin 1) o) = (ix2 (0 : Fin 1) o : S1x128.Idx) := by
    funext a; apply Fin.ext
    match a with
    | ⟨0, _⟩ => show win0_5.index t (0 : Fin 2) * 1 + 1 * (0 : Fin 1).val = (0 : Fin 1).val; simp [e0]
    | ⟨1, _⟩ => show win0_5.index t (1 : Fin 2) * 128 + 1 * o.val = o.val; omega
  rw [hemb, V_main_v1_apply]

/-! ## The output block -/

/-- Row `r` of the output window's block at point `t` is row `32 t + r` of the result array. -/
theorem read_y (c : Dev nD) (t : Fin cfg0.N) (G : S256x128.Idx → Elt F .f32) (r : Fin 32) (o : Fin 128) (p : Fin 256)
    (hp : p.val = 32 * t.val + r.val) :
    (((cfg0.win 6).blk t).view.read (Elt F) G : Vec F S32x128 .f32) (ix2 r o) = G (ix2 p o) := by
  obtain ⟨e0, e1⟩ := idx_y t
  show G (((cfg0.win 6).blk t).view.emb (ix2 r o)) = _
  have hemb : ((cfg0.win 6).blk t).view.emb (ix2 r o) = (ix2 p o : S256x128.Idx) := by
    funext a; apply Fin.ext
    match a with
    | ⟨0, _⟩ => show win0_6.index t (0 : Fin 2) * 32 + 1 * r.val = p.val; omega
    | ⟨1, _⟩ => show win0_6.index t (1 : Fin 2) * 128 + 1 * o.val = o.val; omega
  rw [hemb]

end Cert.KernelIdeal.Hand

end
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.KPay.lean ====
/-
  The kernel's body, read at an index on the extended reals: the row statistics of one stream.

  Each of the four streams holds a block X of 1024 rows and 512 columns and computes, per row j, the mean (the row's
  sum times the named constant 1/512) and the deviation (the root of the sum of squared differences from that mean,
  times the named constant 1/511). The columns of 1024 statistics are then re-laid row-major as tiles of 8 rows and
  128 columns: entry (a, c) of the tile is row 128 a + c of the column.
-/
import proofs.«109826_g2000005534411080_pallasbulk_673_7_alg».proof.Proof.Gen.KernelIdeal.Skeleton
import proofs.«109826_g2000005534411080_pallasbulk_673_7_alg».proof.Proof.LibRowLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay

open Idealize.ShloMosaic Idealize.ShloMosaic.ValueIdx Cert.KernelIdeal Cert.KernelIdeal.Gen Cert.LibRowLayout
open scoped BigOperators

/-- The two named constants denote their rationals. -/
theorem inv512 : Named.named (F := Ideal) κ "a_exact_inv_512" (φ := .f32) 0x3B000000#32 = ((1 / 512 : ℝ) : EReal) :=
  IdealRules.named_const.ideal_named_scalar _ _ _ _ rfl
theorem inv511 : Named.named (F := Ideal) κ "inv_511" (φ := .f32) 0x3B004020#32 = ((1 / 511 : ℝ) : EReal) :=
  IdealRules.named_const.ideal_named_scalar _ _ _ _ rfl

/-- The mean of row `j` of a block. -/
def rowMu (X : S1024x512.Idx → EReal) (j : Fin 1024) : EReal :=
  (∑ t : Fin 512, X (ix2 j t)) * ((1 / 512 : ℝ) : EReal)

/-- The sum of squared deviations of row `j` from its mean. -/
def rowSsq (X : S1024x512.Idx → EReal) (j : Fin 1024) : EReal :=
  ∑ t : Fin 512, (X (ix2 j t) - rowMu X j) * (X (ix2 j t) - rowMu X j)

/-- The unbiased standard deviation of row `j` of a block. -/
def rowSd (X : S1024x512.Idx → EReal) (j : Fin 1024) : EReal :=
  Ideal.sqrt (rowSsq X j * ((1 / 511 : ℝ) : EReal))

/-- A square root taken elementwise, at an index. -/
theorem sqrt_at {s : Shape} (v : FVec Ideal s .f32) (i : s.Idx) : sqrt v i = Ideal.sqrt (v i) := rfl

/-! ## One stream's three vectors, as the body computes them -/

/-- The column of row means. -/
def meanCol (X : Vec Ideal S1024x512 .f32) : FVec Ideal S1024x1 .f32 :=
  mulf (shapeCast S1024x1 (multiReduction .add [1] S1024 (shapeCast S1024x512 X shapeCasts_S1024x512_S1024x512)
      0x00000000#32 reduces_S1024x512_S1024 (.inl rfl) rfl) shapeCasts_S1024_S1024x1)
    (broadcast S1024x1 (Named.named κ "a_exact_inv_512" 0x3B000000#32))

/-- The vector of sums of squared deviations. -/
def ssqVec (X : Vec Ideal S1024x512 .f32) : FVec Ideal S1024 .f32 :=
  multiReduction .add [1] S1024
    (mulf (subf (shapeCast S1024x512 X shapeCasts_S1024x512_S1024x512) (broadcastTo S1024x512 (meanCol X) broadcasts_S1024x1_S1024x512))
      (subf (shapeCast S1024x512 X shapeCasts_S1024x512_S1024x512) (broadcastTo S1024x512 (meanCol X) broadcasts_S1024x1_S1024x512)))
    0x00000000#32 reduces_S1024x512_S1024 (.inl rfl) rfl

/-- The column of row deviations. -/
def sdCol (X : Vec Ideal S1024x512 .f32) : FVec Ideal S1024x1 .f32 :=
  sqrt (mulf (shapeCast S1024x1 (ssqVec X) shapeCasts_S1024_S1024x1) (broadcast S1024x1 (Named.named κ "inv_511" 0x3B004020#32)))

theorem meanCol_apply (X : Vec Ideal S1024x512 .f32) (j : Fin 1024) : meanCol X (ix2 j (0 : Fin 1)) = rowMu X j := by
  unfold meanCol
  refine (congrArg (· * _) ((shapeCast_a_a1_apply _ _ j 0).trans ((multiReduction_row _ _ _ _ _ j).trans
    (Finset.sum_congr rfl fun t _ => congrFun (shapeCast_self X _) (ix2 j t))))).trans ?_
  exact congrArg ((∑ t : Fin 512, X (ix2 j t)) * ·) inv512

theorem ssqVec_apply (X : Vec Ideal S1024x512 .f32) (j : Fin 1024) : ssqVec X (ix1 j) = rowSsq X j := by
  unfold ssqVec
  refine (multiReduction_row _ _ _ _ _ j).trans (Finset.sum_congr rfl fun t _ => ?_)
  have e : subf (shapeCast S1024x512 X shapeCasts_S1024x512_S1024x512) (broadcastTo S1024x512 (meanCol X) broadcasts_S1024x1_S1024x512) (ix2 j t)
      = X (ix2 j t) - rowMu X j :=
    congrArg₂ (· - ·) (congrFun (shapeCast_self X _) (ix2 j t)) ((broadcastTo_a1_ab_apply _ _ j t).trans (meanCol_apply X j))
  exact congrArg₂ (· * ·) e e

theorem sdCol_apply (X : Vec Ideal S1024x512 .f32) (j : Fin 1024) : sdCol X (ix2 j (0 : Fin 1)) = rowSd X j := by
  unfold sdCol rowSd
  refine congrArg Ideal.sqrt ?_
  exact (congrArg (· * _) ((shapeCast_a_a1_apply _ _ j 0).trans (ssqVec_apply X j))).trans
    (congrArg (rowSsq X j * ·) inv511)

/-! ## The columns re-laid as tiles -/

/-- Row `128 a + c` of a block: the row whose statistic lands at entry `(a, c)` of the tile. -/
def tileRow (a : Fin 8) (c : Fin 128) : Fin 1024 := ⟨128 * a.val + c.val, by omega⟩

/-- A column of 1024 entries re-laid row-major as 8 rows of 128: entry `(a, c)` is entry `128 a + c` of the column. -/
theorem col_tile_apply {α : Type} (v : S1024x1.Idx → α) (h : S1024x1.ShapeCasts S8x128) (a : Fin 8) (c : Fin 128) :
    shapeCast S8x128 v h (ix2 a c) = v (ix2 (tileRow a c) (0 : Fin 1)) :=
  shapeCast_apply v h _ _ (by
    rw [Shape.rowMajor_val_two, Shape.rowMajor_val_two]
    show (128 * a.val + c.val) * 1 + 0 = a.val * 128 + c.val
    omega)

/-- The tile of deviations and the tile of means of one stream. -/
def sdTile (X : Vec Ideal S1024x512 .f32) : FVec Ideal S8x128 .f32 := shapeCast S8x128 (sdCol X) shapeCasts_S1024x1_S8x128
def muTile (X : Vec Ideal S1024x512 .f32) : FVec Ideal S8x128 .f32 := shapeCast S8x128 (meanCol X) shapeCasts_S1024x1_S8x128

theorem sdTile_apply (X : Vec Ideal S1024x512 .f32) (a : Fin 8) (c : Fin 128) : sdTile X (ix2 a c) = rowSd X (tileRow a c) :=
  (col_tile_apply _ _ a c).trans (sdCol_apply X _)
theorem muTile_apply (X : Vec Ideal S1024x512 .f32) (a : Fin 8) (c : Fin 128) : muTile X (ix2 a c) = rowMu X (tileRow a c) :=
  (col_tile_apply _ _ a c).trans (meanCol_apply X _)

/-! ## The skeleton's payloads are these vectors -/

theorem pay3_eq (X : Vec Ideal S1024x512 .f32) : k0_pay3 (F := Ideal) X = sdTile X := rfl
theorem pay4_eq (X : Vec Ideal S1024x512 .f32) : k0_pay4 (F := Ideal) X = muTile X := rfl
theorem pay7_eq (X : Vec Ideal S1024x512 .f32) : k0_pay7 (F := Ideal) X = sdTile X := rfl
theorem pay8_eq (X : Vec Ideal S1024x512 .f32) : k0_pay8 (F := Ideal) X = muTile X := rfl
theorem pay10_eq (X : Vec Ideal S1024x512 .f32) : k0_pay10 (F := Ideal) X = meanCol X := rfl
theorem pay11_eq (X : Vec Ideal S1024x512 .f32) : k0_pay11 (F := Ideal) X = ssqVec X := rfl

end Cert.KernelIdeal.Pay

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.KTile.lean ====
/-
  The kernel's body, read at an index on the extended reals: the stored tile.

  The four streams' tiles of deviations are stacked into 32 rows (rows 8k .. 8k+7 from stream k), and so are the tiles
  of means. The weight matrix's six slices of 128 rows are added three and three: slices 0, 2, 4 and slices 1, 3, 5.
  The stored tile is the product of the stacked deviations with the first sum, plus the product of the stacked means
  with the second, each from a zero block, plus the bias row broadcast down the rows. So at row 8k + a and column o it
  is the sum over c of sd (stream k, row 128 a + c) times the three weights, plus the same with the means, plus bias o.
-/
import proofs.«109826_g2000005534411080_pallasbulk_673_7_alg».proof.Proof.KPay
import proofs.«109826_g2000005534411080_pallasbulk_673_7_alg».proof.Proof.LibPlainDot
import proofs.«109826_g2000005534411080_pallasbulk_673_7_alg».proof.Proof.Spec

noncomputable section

namespace Cert.KernelIdeal.Pay

open Idealize.ShloMosaic Idealize.ShloMosaic.ValueIdx Cert.KernelIdeal Cert.KernelIdeal.Gen Cert.LibRowLayout
open Cert.Spec (wrow)
open scoped BigOperators

/-- Row `8 k + a` of the stored tile: row `a` of stream `k`'s part. -/
def tileRowOf (k : Fin 4) (a : Fin 8) : Fin 32 := ⟨8 * k.val + a.val, by omega⟩

/-! ## The summed weight slices -/

/-- Slice `K` of the weight matrix (128 rows from row `128 K`) at `(c, o)` is row `128 K + c`, column `o`. -/
theorem slice_apply (wv : Vec Ideal S768x128 .f32) (K : Fin 6) (off : Fin 2 → Nat) (h : S768x128.Slices off S128x128)
    (h0 : off 0 = 128 * K.val) (h1 : off 1 = 0) (c : Fin 128) (o : Fin 128) :
    extractStridedSlice S128x128 off wv h (ix2 c o) = wv (ix2 (wrow K c) o) :=
  extractStridedSlice_apply off wv h (ix2 c o) (ix2 (wrow K c) o) fun ax => by
    match ax with
    | ⟨0, _⟩ => show 128 * K.val + c.val = off 0 + c.val; omega
    | ⟨1, _⟩ => show o.val = off 1 + o.val; omega

def wsVec (wv : Vec Ideal S768x128 .f32) : FVec Ideal S128x128 .f32 :=
  addf (addf (extractStridedSlice S128x128 ![0, 0] wv slices_S768x128_o0_0_S128x128)
      (extractStridedSlice S128x128 ![256, 0] wv slices_S768x128_o256_0_S128x128))
    (extractStridedSlice S128x128 ![512, 0] wv slices_S768x128_o512_0_S128x128)

def wmVec (wv : Vec Ideal S768x128 .f32) : FVec Ideal S128x128 .f32 :=
  addf (addf (extractStridedSlice S128x128 ![128, 0] wv slices_S768x128_o128_0_S128x128)
      (extractStridedSlice S128x128 ![384, 0] wv slices_S768x128_o384_0_S128x128))
    (extractStridedSlice S128x128 ![640, 0] wv slices_S768x128_o640_0_S128x128)

theorem wsVec_apply (wv : Vec Ideal S768x128 .f32) (c : Fin 128) (o : Fin 128) :
    wsVec wv (ix2 c o) = (wv (ix2 (wrow 0 c) o) + wv (ix2 (wrow 2 c) o)) + wv (ix2 (wrow 4 c) o) :=
  congrArg₂ (· + ·) (congrArg₂ (· + ·) (slice_apply wv 0 _ _ rfl rfl c o) (slice_apply wv 2 _ _ rfl rfl c o))
    (slice_apply wv 4 _ _ rfl rfl c o)

theorem wmVec_apply (wv : Vec Ideal S768x128 .f32) (c : Fin 128) (o : Fin 128) :
    wmVec wv (ix2 c o) = (wv (ix2 (wrow 1 c) o) + wv (ix2 (wrow 3 c) o)) + wv (ix2 (wrow 5 c) o) :=
  congrArg₂ (· + ·) (congrArg₂ (· + ·) (slice_apply wv 1 _ _ rfl rfl c o) (slice_apply wv 3 _ _ rfl rfl c o))
    (slice_apply wv 5 _ _ rfl rfl c o)

/-! ## The stacked statistics -/

def sdRows (x0 x1 x2 x3 : Vec Ideal S1024x512 .f32) : FVec Ideal S32x128 .f32 :=
  concatenate S32x128 0 [⟨S8x128, sdTile x0⟩, ⟨S8x128, sdTile x1⟩, ⟨S8x128, sdTile x2⟩, ⟨S8x128, sdTile x3⟩]
    concatenates_S8x128_S8x128_S8x128_S8x128_S32x128_d0

def muRows (x0 x1 x2 x3 : Vec Ideal S1024x512 .f32) : FVec Ideal S32x128 .f32 :=
  concatenate S32x128 0 [⟨S8x128, muTile x0⟩, ⟨S8x128, muTile x1⟩, ⟨S8x128, muTile x2⟩, ⟨S8x128, muTile x3⟩]
    concatenates_S8x128_S8x128_S8x128_S8x128_S32x128_d0

theorem sdRows_at0 (x0 x1 x2 x3 : Vec Ideal S1024x512 .f32) (a : Fin 8) (c : Fin 128) :
    sdRows x0 x1 x2 x3 (ix2 (tileRowOf 0 a) c) = sdTile x0 (ix2 a c) :=
  concatenate_apply_piece (0 : Fin 2) _ _ (ix2 (tileRowOf 0 a) c) 0 (by show 0 < 4; omega) S8x128 (sdTile x0) rfl rfl (8 * 0) rfl
    (ix2 a c) (fun b hb => by
      match b, hb with
      | ⟨0, _⟩, hb => exact absurd rfl hb
      | ⟨1, _⟩, _ => rfl) rfl

theorem sdRows_at1 (x0 x1 x2 x3 : Vec Ideal S1024x512 .f32) (a : Fin 8) (c : Fin 128) :
    sdRows x0 x1 x2 x3 (ix2 (tileRowOf 1 a) c) = sdTile x1 (ix2 a c) :=
  concatenate_apply_piece (0 : Fin 2) _ _ (ix2 (tileRowOf 1 a) c) 1 (by show 1 < 4; omega) S8x128 (sdTile x1) rfl rfl (8 * 1) rfl
    (ix2 a c) (fun b hb => by
      match b, hb with
      | ⟨0, _⟩, hb => exact absurd rfl hb
      | ⟨1, _⟩, _ => rfl) rfl

theorem sdRows_at2 (x0 x1 x2 x3 : Vec Ideal S1024x512 .f32) (a : Fin 8) (c : Fin 128) :
    sdRows x0 x1 x2 x3 (ix2 (tileRowOf 2 a) c) = sdTile x2 (ix2 a c) :=
  concatenate_apply_piece (0 : Fin 2) _ _ (ix2 (tileRowOf 2 a) c) 2 (by show 2 < 4; omega) S8x128 (sdTile x2) rfl rfl (8 * 2) rfl
    (ix2 a c) (fun b hb => by
      match b, hb with
      | ⟨0, _⟩, hb => exact absurd rfl hb
      | ⟨1, _⟩, _ => rfl) rfl

theorem sdRows_at3 (x0 x1 x2 x3 : Vec Ideal S1024x512 .f32) (a : Fin 8) (c : Fin 128) :
    sdRows x0 x1 x2 x3 (ix2 (tileRowOf 3 a) c) = sdTile x3 (ix2 a c) :=
  concatenate_apply_piece (0 : Fin 2) _ _ (ix2 (tileRowOf 3 a) c) 3 (by show 3 < 4; omega) S8x128 (sdTile x3) rfl rfl (8 * 3) rfl
    (ix2 a c) (fun b hb => by
      match b, hb with
      | ⟨0, _⟩, hb => exact absurd rfl hb
      | ⟨1, _⟩, _ => rfl) rfl

theorem muRows_at0 (x0 x1 x2 x3 : Vec Ideal S1024x512 .f32) (a : Fin 8) (c : Fin 128) :
    muRows x0 x1 x2 x3 (ix2 (tileRowOf 0 a) c) = muTile x0 (ix2 a c) :=
  concatenate_apply_piece (0 : Fin 2) _ _ (ix2 (tileRowOf 0 a) c) 0 (by show 0 < 4; omega) S8x128 (muTile x0) rfl rfl (8 * 0) rfl
    (ix2 a c) (fun b hb => by
      match b, hb with
      | ⟨0, _⟩, hb => exact absurd rfl hb
      | ⟨1, _⟩, _ => rfl) rfl

theorem muRows_at1 (x0 x1 x2 x3 : Vec Ideal S1024x512 .f32) (a : Fin 8) (c : Fin 128) :
    muRows x0 x1 x2 x3 (ix2 (tileRowOf 1 a) c) = muTile x1 (ix2 a c) :=
  concatenate_apply_piece (0 : Fin 2) _ _ (ix2 (tileRowOf 1 a) c) 1 (by show 1 < 4; omega) S8x128 (muTile x1) rfl rfl (8 * 1) rfl
    (ix2 a c) (fun b hb => by
      match b, hb with
      | ⟨0, _⟩, hb => exact absurd rfl hb
      | ⟨1, _⟩, _ => rfl) rfl

theorem muRows_at2 (x0 x1 x2 x3 : Vec Ideal S1024x512 .f32) (a : Fin 8) (c : Fin 128) :
    muRows x0 x1 x2 x3 (ix2 (tileRowOf 2 a) c) = muTile x2 (ix2 a c) :=
  concatenate_apply_piece (0 : Fin 2) _ _ (ix2 (tileRowOf 2 a) c) 2 (by show 2 < 4; omega) S8x128 (muTile x2) rfl rfl (8 * 2) rfl
    (ix2 a c) (fun b hb => by
      match b, hb with
      | ⟨0, _⟩, hb => exact absurd rfl hb
      | ⟨1, _⟩, _ => rfl) rfl

theorem muRows_at3 (x0 x1 x2 x3 : Vec Ideal S1024x512 .f32) (a : Fin 8) (c : Fin 128) :
    muRows x0 x1 x2 x3 (ix2 (tileRowOf 3 a) c) = muTile x3 (ix2 a c) :=
  concatenate_apply_piece (0 : Fin 2) _ _ (ix2 (tileRowOf 3 a) c) 3 (by show 3 < 4; omega) S8x128 (muTile x3) rfl rfl (8 * 3) rfl
    (ix2 a c) (fun b hb => by
      match b, hb with
      | ⟨0, _⟩, hb => exact absurd rfl hb
      | ⟨1, _⟩, _ => rfl) rfl

/-! ## The stored tile -/

/-- What the body stores, from the six loaded blocks. -/
def tile (x0 x1 x2 x3 : Vec Ideal S1024x512 .f32) (wv : Vec Ideal S768x128 .f32) (bv : Vec Ideal S1x128 .f32) :
    FVec Ideal S32x128 .f32 :=
  k0_pay12 (F := Ideal) (k0_pay3 x0) (k0_pay4 x0) (k0_pay7 x1) (k0_pay8 x1) (k0_pay10 x2) (k0_pay11 x2) x3 wv bv

theorem tile_eq (x0 x1 x2 x3 : Vec Ideal S1024x512 .f32) (wv : Vec Ideal S768x128 .f32) (bv : Vec Ideal S1x128 .f32) :
    tile x0 x1 x2 x3 wv bv
      = addf (addf (matmul dot_S32x128_S128x128_S32x128_1_0_0_1_n_n none (sdRows x0 x1 x2 x3) (wsVec wv) (constant S32x128 .f32 0x00000000#32))
            (matmul dot_S32x128_S128x128_S32x128_1_0_0_1_n_n none (muRows x0 x1 x2 x3) (wmVec wv) (constant S32x128 .f32 0x00000000#32)))
          (broadcastTo S32x128 (shapeCast S1x128 bv shapeCasts_S1x128_S1x128) broadcasts_S1x128_S32x128) := rfl

/-- Rows `8·0 + a` of the stored tile: stream 0's statistics against the summed weight slices, plus the bias. -/
theorem tile_at0 (x0 x1 x2 x3 : Vec Ideal S1024x512 .f32) (wv : Vec Ideal S768x128 .f32) (bv : Vec Ideal S1x128 .f32)
    (a : Fin 8) (o : Fin 128) :
    tile x0 x1 x2 x3 wv bv (ix2 (tileRowOf 0 a) o)
      = ((∑ c : Fin 128, rowSd x0 (tileRow a c) * ((wv (ix2 (wrow 0 c) o) + wv (ix2 (wrow 2 c) o)) + wv (ix2 (wrow 4 c) o)))
          + (∑ c : Fin 128, rowMu x0 (tileRow a c) * ((wv (ix2 (wrow 1 c) o) + wv (ix2 (wrow 3 c) o)) + wv (ix2 (wrow 5 c) o))))
        + bv (ix2 (0 : Fin 1) o) := by
  rw [tile_eq]
  refine congrArg₂ (· + ·) (congrArg₂ (· + ·) ?_ ?_) ?_
  · exact (Idealize.ShloMosaic.PlainDot.matmul_zero_apply dot_S32x128_S128x128_S32x128_1_0_0_1_n_n rfl rfl rfl rfl rfl rfl rfl rfl
      none _ _ (tileRowOf 0 a) o).trans (Finset.sum_congr rfl fun c _ =>
        congrArg₂ (· * ·) ((sdRows_at0 x0 x1 x2 x3 a c).trans (sdTile_apply x0 a c)) (wsVec_apply wv c o))
  · exact (Idealize.ShloMosaic.PlainDot.matmul_zero_apply dot_S32x128_S128x128_S32x128_1_0_0_1_n_n rfl rfl rfl rfl rfl rfl rfl rfl
      none _ _ (tileRowOf 0 a) o).trans (Finset.sum_congr rfl fun c _ =>
        congrArg₂ (· * ·) ((muRows_at0 x0 x1 x2 x3 a c).trans (muTile_apply x0 a c)) (wmVec_apply wv c o))
  · exact (broadcastTo_1b_ab_apply _ _ (tileRowOf 0 a) o).trans (congrFun (shapeCast_self bv _) (ix2 (0 : Fin 1) o))

/-- Rows `8·1 + a` of the stored tile: stream 1's statistics against the summed weight slices, plus the bias. -/
theorem tile_at1 (x0 x1 x2 x3 : Vec Ideal S1024x512 .f32) (wv : Vec Ideal S768x128 .f32) (bv : Vec Ideal S1x128 .f32)
    (a : Fin 8) (o : Fin 128) :
    tile x0 x1 x2 x3 wv bv (ix2 (tileRowOf 1 a) o)
      = ((∑ c : Fin 128, rowSd x1 (tileRow a c) * ((wv (ix2 (wrow 0 c) o) + wv (ix2 (wrow 2 c) o)) + wv (ix2 (wrow 4 c) o)))
          + (∑ c : Fin 128, rowMu x1 (tileRow a c) * ((wv (ix2 (wrow 1 c) o) + wv (ix2 (wrow 3 c) o)) + wv (ix2 (wrow 5 c) o))))
        + bv (ix2 (0 : Fin 1) o) := by
  rw [tile_eq]
  refine congrArg₂ (· + ·) (congrArg₂ (· + ·) ?_ ?_) ?_
  · exact (Idealize.ShloMosaic.PlainDot.matmul_zero_apply dot_S32x128_S128x128_S32x128_1_0_0_1_n_n rfl rfl rfl rfl rfl rfl rfl rfl
      none _ _ (tileRowOf 1 a) o).trans (Finset.sum_congr rfl fun c _ =>
        congrArg₂ (· * ·) ((sdRows_at1 x0 x1 x2 x3 a c).trans (sdTile_apply x1 a c)) (wsVec_apply wv c o))
  · exact (Idealize.ShloMosaic.PlainDot.matmul_zero_apply dot_S32x128_S128x128_S32x128_1_0_0_1_n_n rfl rfl rfl rfl rfl rfl rfl rfl
      none _ _ (tileRowOf 1 a) o).trans (Finset.sum_congr rfl fun c _ =>
        congrArg₂ (· * ·) ((muRows_at1 x0 x1 x2 x3 a c).trans (muTile_apply x1 a c)) (wmVec_apply wv c o))
  · exact (broadcastTo_1b_ab_apply _ _ (tileRowOf 1 a) o).trans (congrFun (shapeCast_self bv _) (ix2 (0 : Fin 1) o))

/-- Rows `8·2 + a` of the stored tile: stream 2's statistics against the summed weight slices, plus the bias. -/
theorem tile_at2 (x0 x1 x2 x3 : Vec Ideal S1024x512 .f32) (wv : Vec Ideal S768x128 .f32) (bv : Vec Ideal S1x128 .f32)
    (a : Fin 8) (o : Fin 128) :
    tile x0 x1 x2 x3 wv bv (ix2 (tileRowOf 2 a) o)
      = ((∑ c : Fin 128, rowSd x2 (tileRow a c) * ((wv (ix2 (wrow 0 c) o) + wv (ix2 (wrow 2 c) o)) + wv (ix2 (wrow 4 c) o)))
          + (∑ c : Fin 128, rowMu x2 (tileRow a c) * ((wv (ix2 (wrow 1 c) o) + wv (ix2 (wrow 3 c) o)) + wv (ix2 (wrow 5 c) o))))
        + bv (ix2 (0 : Fin 1) o) := by
  rw [tile_eq]
  refine congrArg₂ (· + ·) (congrArg₂ (· + ·) ?_ ?_) ?_
  · exact (Idealize.ShloMosaic.PlainDot.matmul_zero_apply dot_S32x128_S128x128_S32x128_1_0_0_1_n_n rfl rfl rfl rfl rfl rfl rfl rfl
      none _ _ (tileRowOf 2 a) o).trans (Finset.sum_congr rfl fun c _ =>
        congrArg₂ (· * ·) ((sdRows_at2 x0 x1 x2 x3 a c).trans (sdTile_apply x2 a c)) (wsVec_apply wv c o))
  · exact (Idealize.ShloMosaic.PlainDot.matmul_zero_apply dot_S32x128_S128x128_S32x128_1_0_0_1_n_n rfl rfl rfl rfl rfl rfl rfl rfl
      none _ _ (tileRowOf 2 a) o).trans (Finset.sum_congr rfl fun c _ =>
        congrArg₂ (· * ·) ((muRows_at2 x0 x1 x2 x3 a c).trans (muTile_apply x2 a c)) (wmVec_apply wv c o))
  · exact (broadcastTo_1b_ab_apply _ _ (tileRowOf 2 a) o).trans (congrFun (shapeCast_self bv _) (ix2 (0 : Fin 1) o))

/-- Rows `8·3 + a` of the stored tile: stream 3's statistics against the summed weight slices, plus the bias. -/
theorem tile_at3 (x0 x1 x2 x3 : Vec Ideal S1024x512 .f32) (wv : Vec Ideal S768x128 .f32) (bv : Vec Ideal S1x128 .f32)
    (a : Fin 8) (o : Fin 128) :
    tile x0 x1 x2 x3 wv bv (ix2 (tileRowOf 3 a) o)
      = ((∑ c : Fin 128, rowSd x3 (tileRow a c) * ((wv (ix2 (wrow 0 c) o) + wv (ix2 (wrow 2 c) o)) + wv (ix2 (wrow 4 c) o)))
          + (∑ c : Fin 128, rowMu x3 (tileRow a c) * ((wv (ix2 (wrow 1 c) o) + wv (ix2 (wrow 3 c) o)) + wv (ix2 (wrow 5 c) o))))
        + bv (ix2 (0 : Fin 1) o) := by
  rw [tile_eq]
  refine congrArg₂ (· + ·) (congrArg₂ (· + ·) ?_ ?_) ?_
  · exact (Idealize.ShloMosaic.PlainDot.matmul_zero_apply dot_S32x128_S128x128_S32x128_1_0_0_1_n_n rfl rfl rfl rfl rfl rfl rfl rfl
      none _ _ (tileRowOf 3 a) o).trans (Finset.sum_congr rfl fun c _ =>
        congrArg₂ (· * ·) ((sdRows_at3 x0 x1 x2 x3 a c).trans (sdTile_apply x3 a c)) (wsVec_apply wv c o))
  · exact (Idealize.ShloMosaic.PlainDot.matmul_zero_apply dot_S32x128_S128x128_S32x128_1_0_0_1_n_n rfl rfl rfl rfl rfl rfl rfl rfl
      none _ _ (tileRowOf 3 a) o).trans (Finset.sum_congr rfl fun c _ =>
        congrArg₂ (· * ·) ((muRows_at3 x0 x1 x2 x3 a c).trans (muTile_apply x3 a c)) (wmVec_apply wv c o))
  · exact (broadcastTo_1b_ab_apply _ _ (tileRowOf 3 a) o).trans (congrFun (shapeCast_self bv _) (ix2 (0 : Fin 1) o))

end Cert.KernelIdeal.Pay

end
-- ==== Proof.KValue.lean ====
/-
  From the eight written-back tiles to the whole result.

  Grid point `t` writes back rows `32 t … 32 t + 31` of the result. Row `r = 8 k + a` of that tile is computed from
  stream `k`: entry `(a, c)` of the stream's tiles is the statistic of row `128 a + c` of the stream's block, which is
  row `(32 t + r, c)` of the first argument. So the tile is the specification's function restricted to its rows; the
  eight tiles cover the result, which therefore ends as that function of the three arguments.
-/
import proofs.«109826_g2000005534411080_pallasbulk_673_7_alg».proof.Proof.KBlocks
import proofs.«109826_g2000005534411080_pallasbulk_673_7_alg».proof.Proof.KTile
import proofs.«109826_g2000005534411080_pallasbulk_673_7_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Pay
open scoped BigOperators

variable (m : (ℓ : Loc nD τ sig) → Buf (Elt Ideal) ℓ) (ρ : Dev nD → PrngReg)

/-! ## A block's row statistics are the argument's -/

/-- A block row that is row `(b, ch)` of the argument has that row's mean and deviation. -/
theorem rowMu_eq (X : S1024x512.Idx → EReal) (x : Spec.SX.Idx → EReal) (j : Fin 1024) (b : Fin 256) (ch : Fin 128)
    (h : ∀ tt : Fin 512, X (ix2 j tt) = x (ix3 b ch tt)) : rowMu X j = Spec.mu x b ch := by
  unfold rowMu Spec.mu
  simp only [h]
theorem rowSd_eq (X : S1024x512.Idx → EReal) (x : Spec.SX.Idx → EReal) (j : Fin 1024) (b : Fin 256) (ch : Fin 128)
    (h : ∀ tt : Fin 512, X (ix2 j tt) = x (ix3 b ch tt)) : rowSd X j = Spec.sd x b ch := by
  unfold rowSd rowSsq Spec.sd Spec.ssq
  rw [rowMu_eq X x j b ch h]
  simp only [h]

/-! ## The cover -/

/-- An index of the result is in point `t`'s block iff each coordinate is in the block's range on its axis. -/
theorem mem_blk_y (t : Fin cfg0.N) (i : S256x128.Idx) :
    i ∈ ((cfg0.win 6).blk t).view.set ↔ ∀ a : Fin 2, win0_6.index t a * S32x128.size a ≤ (i a).val ∧ (i a).val < win0_6.index t a * S32x128.size a + S32x128.size a := by
  show i ∈ ((View.whole main_v2).slice (win0_6.rect t)).set ↔ _
  rw [View.set_slice_whole, Rect.mem_set_unit]
  exact Iff.rfl

/-- Row `p` of the result is in the block of point `p / 32`. -/
theorem cover_y (i : S256x128.Idx) : ∃ t : Fin cfg0.N, (cfg0.win 6).flush t = true ∧ i ∈ ((cfg0.win 6).blk t).view.set := by
  have hi0 : (i 0).val < 256 := (i 0).isLt
  have hi1 : (i 1).val < 128 := (i 1).isLt
  have ht : (i 0).val / 32 < cfg0.N := Nat.lt_of_lt_of_eq (by omega : (i 0).val / 32 < 8) (show 8 = cfg0.N from N_0.symm)
  obtain ⟨e0, e1⟩ := idx_y ⟨(i 0).val / 32, ht⟩
  refine ⟨⟨(i 0).val / 32, ht⟩, flush0_6 _, ?_⟩
  rw [mem_blk_y]
  intro a
  match a with
  | ⟨0, _⟩ =>
    show win0_6.index ⟨(i 0).val / 32, ht⟩ (0 : Fin 2) * 32 ≤ (i 0).val ∧ (i 0).val < win0_6.index ⟨(i 0).val / 32, ht⟩ (0 : Fin 2) * 32 + 32
    rw [e0]
    show (i 0).val / 32 * 32 ≤ (i 0).val ∧ (i 0).val < (i 0).val / 32 * 32 + 32
    omega
  | ⟨1, _⟩ =>
    show win0_6.index ⟨(i 0).val / 32, ht⟩ (1 : Fin 2) * 128 ≤ (i 1).val ∧ (i 1).val < win0_6.index ⟨(i 0).val / 32, ht⟩ (1 : Fin 2) * 128 + 128
    rw [e1]
    omega

/-! ## The tile at a point, row by row -/

/-- Rows `8 * 0 + a` of the tile point `t` computes: the specification at row `32 t + 8 * 0 + a`. -/
theorem tile_row0 (c : Dev nD) (t : Fin cfg0.N) (a : Fin 8) (o : Fin 128) (p : Fin 256) (hp : p.val = 32 * t.val + 8 * 0 + a.val) :
    Pay.tile (iblk (V m) c 0 t) (iblk (V m) c 1 t) (iblk (V m) c 2 t) (iblk (V m) c 3 t) (iblk (V m) c 4 t) (iblk (V m) c 5 t)
        (ix2 (tileRowOf 0 a) o)
      = Spec.Gk (m ((c : Thread nD τ).loc main_arg0)) (m ((c : Thread nD τ).loc main_arg1)) (m ((c : Thread nD τ).loc main_arg2)) (ix2 p o) := by
  refine (Pay.tile_at0 (iblk (V m) c 0 t) (iblk (V m) c 1 t) (iblk (V m) c 2 t) (iblk (V m) c 3 t) (iblk (V m) c 4 t) (iblk (V m) c 5 t) a o).trans ?_
  refine Eq.trans ?_ (Spec.Gk_apply _ _ _ p o).symm
  have hrow : ∀ (ch : Fin 128) (tt : Fin 512),
      (iblk (V m) c 0 t : Vec Ideal S1024x512 .f32) (ix2 (tileRow a ch) tt) = m ((c : Thread nD τ).loc main_arg0) (ix3 p ch tt) :=
    fun ch tt => iblk_row0 m c t (tileRow a ch) tt p ch
      (by show p.val = 32 * t.val + 8 * 0 + (128 * a.val + ch.val) / 128; omega)
      (by show ch.val = (128 * a.val + ch.val) % 128; omega)
  refine congrArg₂ (· + ·) (congrArg₂ (· + ·) (Finset.sum_congr rfl fun ch _ => ?_) (Finset.sum_congr rfl fun ch _ => ?_)) ?_
  · refine congrArg₂ (· * ·) (rowSd_eq _ _ _ p ch (hrow ch)) ?_
    exact congrArg₂ (· + ·) (congrArg₂ (· + ·) (iblk_w m c t _ o) (iblk_w m c t _ o)) (iblk_w m c t _ o)
  · refine congrArg₂ (· * ·) (rowMu_eq _ _ _ p ch (hrow ch)) ?_
    exact congrArg₂ (· + ·) (congrArg₂ (· + ·) (iblk_w m c t _ o) (iblk_w m c t _ o)) (iblk_w m c t _ o)
  · exact iblk_b m c t o

/-- Rows `8 * 1 + a` of the tile point `t` computes: the specification at row `32 t + 8 * 1 + a`. -/
theorem tile_row1 (c : Dev nD) (t : Fin cfg0.N) (a : Fin 8) (o : Fin 128) (p : Fin 256) (hp : p.val = 32 * t.val + 8 * 1 + a.val) :
    Pay.tile (iblk (V m) c 0 t) (iblk (V m) c 1 t) (iblk (V m) c 2 t) (iblk (V m) c 3 t) (iblk (V m) c 4 t) (iblk (V m) c 5 t)
        (ix2 (tileRowOf 1 a) o)
      = Spec.Gk (m ((c : Thread nD τ).loc main_arg0)) (m ((c : Thread nD τ).loc main_arg1)) (m ((c : Thread nD τ).loc main_arg2)) (ix2 p o) := by
  refine (Pay.tile_at1 (iblk (V m) c 0 t) (iblk (V m) c 1 t) (iblk (V m) c 2 t) (iblk (V m) c 3 t) (iblk (V m) c 4 t) (iblk (V m) c 5 t) a o).trans ?_
  refine Eq.trans ?_ (Spec.Gk_apply _ _ _ p o).symm
  have hrow : ∀ (ch : Fin 128) (tt : Fin 512),
      (iblk (V m) c 1 t : Vec Ideal S1024x512 .f32) (ix2 (tileRow a ch) tt) = m ((c : Thread nD τ).loc main_arg0) (ix3 p ch tt) :=
    fun ch tt => iblk_row1 m c t (tileRow a ch) tt p ch
      (by show p.val = 32 * t.val + 8 * 1 + (128 * a.val + ch.val) / 128; omega)
      (by show ch.val = (128 * a.val + ch.val) % 128; omega)
  refine congrArg₂ (· + ·) (congrArg₂ (· + ·) (Finset.sum_congr rfl fun ch _ => ?_) (Finset.sum_congr rfl fun ch _ => ?_)) ?_
  · refine congrArg₂ (· * ·) (rowSd_eq _ _ _ p ch (hrow ch)) ?_
    exact congrArg₂ (· + ·) (congrArg₂ (· + ·) (iblk_w m c t _ o) (iblk_w m c t _ o)) (iblk_w m c t _ o)
  · refine congrArg₂ (· * ·) (rowMu_eq _ _ _ p ch (hrow ch)) ?_
    exact congrArg₂ (· + ·) (congrArg₂ (· + ·) (iblk_w m c t _ o) (iblk_w m c t _ o)) (iblk_w m c t _ o)
  · exact iblk_b m c t o

/-- Rows `8 * 2 + a` of the tile point `t` computes: the specification at row `32 t + 8 * 2 + a`. -/
theorem tile_row2 (c : Dev nD) (t : Fin cfg0.N) (a : Fin 8) (o : Fin 128) (p : Fin 256) (hp : p.val = 32 * t.val + 8 * 2 + a.val) :
    Pay.tile (iblk (V m) c 0 t) (iblk (V m) c 1 t) (iblk (V m) c 2 t) (iblk (V m) c 3 t) (iblk (V m) c 4 t) (iblk (V m) c 5 t)
        (ix2 (tileRowOf 2 a) o)
      = Spec.Gk (m ((c : Thread nD τ).loc main_arg0)) (m ((c : Thread nD τ).loc main_arg1)) (m ((c : Thread nD τ).loc main_arg2)) (ix2 p o) := by
  refine (Pay.tile_at2 (iblk (V m) c 0 t) (iblk (V m) c 1 t) (iblk (V m) c 2 t) (iblk (V m) c 3 t) (iblk (V m) c 4 t) (iblk (V m) c 5 t) a o).trans ?_
  refine Eq.trans ?_ (Spec.Gk_apply _ _ _ p o).symm
  have hrow : ∀ (ch : Fin 128) (tt : Fin 512),
      (iblk (V m) c 2 t : Vec Ideal S1024x512 .f32) (ix2 (tileRow a ch) tt) = m ((c : Thread nD τ).loc main_arg0) (ix3 p ch tt) :=
    fun ch tt => iblk_row2 m c t (tileRow a ch) tt p ch
      (by show p.val = 32 * t.val + 8 * 2 + (128 * a.val + ch.val) / 128; omega)
      (by show ch.val = (128 * a.val + ch.val) % 128; omega)
  refine congrArg₂ (· + ·) (congrArg₂ (· + ·) (Finset.sum_congr rfl fun ch _ => ?_) (Finset.sum_congr rfl fun ch _ => ?_)) ?_
  · refine congrArg₂ (· * ·) (rowSd_eq _ _ _ p ch (hrow ch)) ?_
    exact congrArg₂ (· + ·) (congrArg₂ (· + ·) (iblk_w m c t _ o) (iblk_w m c t _ o)) (iblk_w m c t _ o)
  · refine congrArg₂ (· * ·) (rowMu_eq _ _ _ p ch (hrow ch)) ?_
    exact congrArg₂ (· + ·) (congrArg₂ (· + ·) (iblk_w m c t _ o) (iblk_w m c t _ o)) (iblk_w m c t _ o)
  · exact iblk_b m c t o

/-- Rows `8 * 3 + a` of the tile point `t` computes: the specification at row `32 t + 8 * 3 + a`. -/
theorem tile_row3 (c : Dev nD) (t : Fin cfg0.N) (a : Fin 8) (o : Fin 128) (p : Fin 256) (hp : p.val = 32 * t.val + 8 * 3 + a.val) :
    Pay.tile (iblk (V m) c 0 t) (iblk (V m) c 1 t) (iblk (V m) c 2 t) (iblk (V m) c 3 t) (iblk (V m) c 4 t) (iblk (V m) c 5 t)
        (ix2 (tileRowOf 3 a) o)
      = Spec.Gk (m ((c : Thread nD τ).loc main_arg0)) (m ((c : Thread nD τ).loc main_arg1)) (m ((c : Thread nD τ).loc main_arg2)) (ix2 p o) := by
  refine (Pay.tile_at3 (iblk (V m) c 0 t) (iblk (V m) c 1 t) (iblk (V m) c 2 t) (iblk (V m) c 3 t) (iblk (V m) c 4 t) (iblk (V m) c 5 t) a o).trans ?_
  refine Eq.trans ?_ (Spec.Gk_apply _ _ _ p o).symm
  have hrow : ∀ (ch : Fin 128) (tt : Fin 512),
      (iblk (V m) c 3 t : Vec Ideal S1024x512 .f32) (ix2 (tileRow a ch) tt) = m ((c : Thread nD τ).loc main_arg0) (ix3 p ch tt) :=
    fun ch tt => iblk_row3 m c t (tileRow a ch) tt p ch
      (by show p.val = 32 * t.val + 8 * 3 + (128 * a.val + ch.val) / 128; omega)
      (by show ch.val = (128 * a.val + ch.val) % 128; omega)
  refine congrArg₂ (· + ·) (congrArg₂ (· + ·) (Finset.sum_congr rfl fun ch _ => ?_) (Finset.sum_congr rfl fun ch _ => ?_)) ?_
  · refine congrArg₂ (· * ·) (rowSd_eq _ _ _ p ch (hrow ch)) ?_
    exact congrArg₂ (· + ·) (congrArg₂ (· + ·) (iblk_w m c t _ o) (iblk_w m c t _ o)) (iblk_w m c t _ o)
  · refine congrArg₂ (· * ·) (rowMu_eq _ _ _ p ch (hrow ch)) ?_
    exact congrArg₂ (· + ·) (congrArg₂ (· + ·) (iblk_w m c t _ o) (iblk_w m c t _ o)) (iblk_w m c t _ o)
  · exact iblk_b m c t o

/-! ## From the tiles to the result -/

/-- What point `t` writes back is the specification restricted to rows `32 t … 32 t + 31`. -/
theorem flushed_eq (c : Dev nD) (t : Fin cfg0.N) :
    (dat0 (V m) c).flushed 6 t = ((cfg0.win 6).blk t).view.read (Elt Ideal)
      (Spec.Gk (m ((c : Thread nD τ).loc main_arg0)) (m ((c : Thread nD τ).loc main_arg1)) (m ((c : Thread nD τ).loc main_arg2))) := by
  show (cfg0.win 6).cut (grid0.coords t) ((dat0 (V m) c).after 6 t) = _
  rw [after0_6]
  unfold outY
  rw [View.canon_unit_zero hz]
  unfold tile
  simp only [View.ld_unit_zero (S := S1024x512) hz, View.ld_unit_zero (S := S768x128) hz, View.ld_unit_zero (S := S1x128) hz]
  funext y
  obtain ⟨r, o, rfl⟩ : ∃ (r : Fin 32) (o : Fin 128), y = ix2 r o := ⟨y 0, y 1, eq_ix2 y⟩
  have ht : t.val < 8 := Nat.lt_of_lt_of_eq t.isLt (show cfg0.N = 8 from N_0)
  have hr : r.val < 32 := r.isLt
  have hp : 32 * t.val + r.val < 256 := by omega
  refine Eq.trans ?_ (read_y c t _ r o ⟨32 * t.val + r.val, hp⟩ rfl).symm
  obtain ⟨k, a, rfl⟩ : ∃ (k : Fin 4) (a : Fin 8), r = tileRowOf k a :=
    ⟨⟨r.val / 8, by omega⟩, ⟨r.val % 8, by omega⟩, Fin.ext (by show r.val = 8 * (r.val / 8) + r.val % 8; omega)⟩
  match k with
  | ⟨0, _⟩ => exact tile_row0 m c t a o _ (by show 32 * t.val + (8 * 0 + a.val) = 32 * t.val + 8 * 0 + a.val; omega)
  | ⟨1, _⟩ => exact tile_row1 m c t a o _ (by show 32 * t.val + (8 * 1 + a.val) = 32 * t.val + 8 * 1 + a.val; omega)
  | ⟨2, _⟩ => exact tile_row2 m c t a o _ (by show 32 * t.val + (8 * 2 + a.val) = 32 * t.val + 8 * 2 + a.val; omega)
  | ⟨3, _⟩ => exact tile_row3 m c t a o _ (by show 32 * t.val + (8 * 3 + a.val) = 32 * t.val + 8 * 3 + a.val; omega)

/-- The result array after the run is the specification's function of the three arguments. -/
theorem final (c : Dev nD) :
    (dat0 (V m) c).arrAt 6 cfg0.N
      = Spec.Gk (m ((c : Thread nD τ).loc main_arg0)) (m ((c : Thread nD τ).loc main_arg1)) (m ((c : Thread nD τ).loc main_arg2)) :=
  (dat0 (V m) c).arrAt_eq_of_cover 6 _ (fun t _ => flushed_eq m c t) cover_y

/-- The idealized kernel runs to the end, nothing faults, its result is the specification's function of the
    arguments as launched, and the arguments end as launched. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v2)
        = Cert.Spec.Gk (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run defs _ _).mono (fun r h c => ⟨(h c).1.trans (final m c), (h c).2⟩) (run_args m ρ)

end Cert.KernelIdeal.Hand

end
-- ==== Proof.RBody0.lean ====
/-
  Region 0 of the reference's main function: the pooling kernel on a grid of 32 points.
  At each point the body reads one block of 1024 rows by 512 lanes of the flattened input and fills the
  1024 by 2 block of its output: column 0 with each row's standard deviation, column 1 with each row's mean.
  Everything here is stated at a parameter V, the contents of the core's buffers when the region is entered.
-/
import proofs.«109826_g2000005534411080_pallasbulk_673_7_alg».proof.Proof.Gen.ReferenceIdeal.Launch
import proofs.«109826_g2000005534411080_pallasbulk_673_7_alg».proof.Proof.Gen.ReferenceIdeal.Skeleton
import proofs.«109826_g2000005534411080_pallasbulk_673_7_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: the whole input block, and the two columns of the output block. -/
abbrev r0_in : Rect S1024x512 := Rect.unit (s := S1024x512) ![0, 0] S1024x512.size inb_S1024x512_S1024x512_0_0
abbrev r0_c0 : Rect S1024x2 := Rect.unit (s := S1024x2) ![0, 0] S1024x1.size inb_S1024x2_S1024x1_0_0
abbrev r0_c1 : Rect S1024x2 := Rect.unit (s := S1024x2) ![0, 1] S1024x1.size inb_S1024x2_S1024x1_0_1

/-- The output block after the body, from the input block: column 1 (stored last) holds the means,
    column 0 the standard deviations. -/
def out0_1 (x0 : Vec F S1024x512 .f32) : Vec F S1024x2 .f32 :=
  View.canon [⟨r0_c1, k0_pay2 (View.ld x0 r0_in)⟩, ⟨r0_c0, k0_pay3 (View.ld x0 r0_in)⟩]

/-- The two columns tile the 1024 by 2 block, so they cover it. -/
theorem cover0_1 (p1 p0 : Vec F S1024x1 .f32) (y : S1024x2.Idx) :
    ∃ pc ∈ ([⟨r0_c1, p1⟩, ⟨r0_c0, p0⟩] : List (View.Piece (Elt F) S1024x2 .f32)), y ∈ pc.1.set :=
  View.cover_of_tiled [⟨r0_c1, p1⟩, ⟨r0_c0, p0⟩] S1024x1.size (by rfl) y

set_option maxHeartbeats 1000000 in
/-- The body on whole staging buffers, the input's at contents x0 and the output's at anything, runs to the
    continuation holding the input's as it was and the output's at out0_1 of the input. The body also reads the
    output buffer's two columns before overwriting them; what it reads there is never used. -/
theorem sound_kernel0 (c : Dev nD) (E : Set ℕ) (i : grid0.Coords) (arg0 : Memref sig .tc .vmem S1024x512 .f32) (harg0 : arg0.IsWhole) (arg1 : Memref sig .tc .vmem S1024x2 .f32) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__std_mean_pool_kernel i arg0 harg0 arg1 harg1) K := by
  simp only [cc0__std_mean_pool_kernel_eq_skeleton]; unfold cc0__std_mean_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _)

/-- The proof data of pipeline 0 on core c: the arrays as the region finds them; after the body at point t the
    input's buffer at its block and the output's at out0_1 of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RBody1.lean ====
/-
  Region 1 of the reference's main function: the pooling kernel on a grid of 32 points.
  At each point the body reads one block of 1024 rows by 512 lanes of the flattened input and fills the
  1024 by 2 block of its output: column 0 with each row's standard deviation, column 1 with each row's mean.
  Everything here is stated at a parameter V, the contents of the core's buffers when the region is entered.
-/
import proofs.«109826_g2000005534411080_pallasbulk_673_7_alg».proof.Proof.Gen.ReferenceIdeal.Launch
import proofs.«109826_g2000005534411080_pallasbulk_673_7_alg».proof.Proof.Gen.ReferenceIdeal.Skeleton
import proofs.«109826_g2000005534411080_pallasbulk_673_7_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: the whole input block, and the two columns of the output block. -/
abbrev r1_in : Rect S1024x512 := Rect.unit (s := S1024x512) ![0, 0] S1024x512.size inb_S1024x512_S1024x512_0_0
abbrev r1_c0 : Rect S1024x2 := Rect.unit (s := S1024x2) ![0, 0] S1024x1.size inb_S1024x2_S1024x1_0_0
abbrev r1_c1 : Rect S1024x2 := Rect.unit (s := S1024x2) ![0, 1] S1024x1.size inb_S1024x2_S1024x1_0_1

/-- The output block after the body, from the input block: column 1 (stored last) holds the means,
    column 0 the standard deviations. -/
def out1_1 (x0 : Vec F S1024x512 .f32) : Vec F S1024x2 .f32 :=
  View.canon [⟨r1_c1, k1_pay2 (View.ld x0 r1_in)⟩, ⟨r1_c0, k1_pay3 (View.ld x0 r1_in)⟩]

/-- The two columns tile the 1024 by 2 block, so they cover it. -/
theorem cover1_1 (p1 p0 : Vec F S1024x1 .f32) (y : S1024x2.Idx) :
    ∃ pc ∈ ([⟨r1_c1, p1⟩, ⟨r1_c0, p0⟩] : List (View.Piece (Elt F) S1024x2 .f32)), y ∈ pc.1.set :=
  View.cover_of_tiled [⟨r1_c1, p1⟩, ⟨r1_c0, p0⟩] S1024x1.size (by rfl) y

set_option maxHeartbeats 1000000 in
/-- The body on whole staging buffers, the input's at contents x0 and the output's at anything, runs to the
    continuation holding the input's as it was and the output's at out1_1 of the input. The body also reads the
    output buffer's two columns before overwriting them; what it reads there is never used. -/
theorem sound_kernel1 (c : Dev nD) (E : Set ℕ) (i : grid1.Coords) (arg0 : Memref sig .tc .vmem S1024x512 .f32) (harg0 : arg0.IsWhole) (arg1 : Memref sig .tc .vmem S1024x2 .f32) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__std_mean_pool_kernel i arg0 harg0 arg1 harg1) K := by
  simp only [cc1__std_mean_pool_kernel_eq_skeleton]; unfold cc1__std_mean_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _)

/-- The proof data of pipeline 1 on core c: the arrays as the region finds them; after the body at point t the
    input's buffer at its block and the output's at out1_1 of it; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RBody2.lean ====
/-
  Region 2 of the reference's main function: the pooling kernel on a grid of 32 points.
  At each point the body reads one block of 1024 rows by 512 lanes of the flattened input and fills the
  1024 by 2 block of its output: column 0 with each row's standard deviation, column 1 with each row's mean.
  Everything here is stated at a parameter V, the contents of the core's buffers when the region is entered.
-/
import proofs.«109826_g2000005534411080_pallasbulk_673_7_alg».proof.Proof.Gen.ReferenceIdeal.Launch
import proofs.«109826_g2000005534411080_pallasbulk_673_7_alg».proof.Proof.Gen.ReferenceIdeal.Skeleton
import proofs.«109826_g2000005534411080_pallasbulk_673_7_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: the whole input block, and the two columns of the output block. -/
abbrev r2_in : Rect S1024x512 := Rect.unit (s := S1024x512) ![0, 0] S1024x512.size inb_S1024x512_S1024x512_0_0
abbrev r2_c0 : Rect S1024x2 := Rect.unit (s := S1024x2) ![0, 0] S1024x1.size inb_S1024x2_S1024x1_0_0
abbrev r2_c1 : Rect S1024x2 := Rect.unit (s := S1024x2) ![0, 1] S1024x1.size inb_S1024x2_S1024x1_0_1

/-- The output block after the body, from the input block: column 1 (stored last) holds the means,
    column 0 the standard deviations. -/
def out2_1 (x0 : Vec F S1024x512 .f32) : Vec F S1024x2 .f32 :=
  View.canon [⟨r2_c1, k2_pay2 (View.ld x0 r2_in)⟩, ⟨r2_c0, k2_pay3 (View.ld x0 r2_in)⟩]

/-- The two columns tile the 1024 by 2 block, so they cover it. -/
theorem cover2_1 (p1 p0 : Vec F S1024x1 .f32) (y : S1024x2.Idx) :
    ∃ pc ∈ ([⟨r2_c1, p1⟩, ⟨r2_c0, p0⟩] : List (View.Piece (Elt F) S1024x2 .f32)), y ∈ pc.1.set :=
  View.cover_of_tiled [⟨r2_c1, p1⟩, ⟨r2_c0, p0⟩] S1024x1.size (by rfl) y

set_option maxHeartbeats 1000000 in
/-- The body on whole staging buffers, the input's at contents x0 and the output's at anything, runs to the
    continuation holding the input's as it was and the output's at out2_1 of the input. The body also reads the
    output buffer's two columns before overwriting them; what it reads there is never used. -/
theorem sound_kernel2 (c : Dev nD) (E : Set ℕ) (i : grid2.Coords) (arg0 : Memref sig .tc .vmem S1024x512 .f32) (harg0 : arg0.IsWhole) (arg1 : Memref sig .tc .vmem S1024x2 .f32) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__std_mean_pool_kernel i arg0 harg0 arg1 harg1) K := by
  simp only [cc2__std_mean_pool_kernel_eq_skeleton]; unfold cc2__std_mean_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _ _)

/-- The proof data of pipeline 2 on core c: the arrays as the region finds them; after the body at point t the
    input's buffer at its block and the output's at out2_1 of it; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.RBody3.lean ====
/-
  Region 3 of the reference's main function: the linear kernel on a grid of one point.
  The body reads the whole 256 by 768 feature matrix, the whole 768 by 128 weight matrix and the 1 by 128 bias row,
  and fills the whole 256 by 128 output with the matrix product plus the bias row repeated down the rows.
  Everything here is stated at a parameter V, the contents of the core's buffers when the region is entered.
-/
import proofs.«109826_g2000005534411080_pallasbulk_673_7_alg».proof.Proof.Gen.ReferenceIdeal.Launch
import proofs.«109826_g2000005534411080_pallasbulk_673_7_alg».proof.Proof.Gen.ReferenceIdeal.Skeleton
import proofs.«109826_g2000005534411080_pallasbulk_673_7_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, for any proof data whose array is
    V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each buffer whole. -/
abbrev r3_a : Rect S256x768 := Rect.unit (s := S256x768) ![0, 0] S256x768.size inb_S256x768_S256x768_0_0
abbrev r3_w : Rect S768x128 := Rect.unit (s := S768x128) ![0, 0] S768x128.size inb_S768x128_S768x128_0_0
abbrev r3_b : Rect S1x128 := Rect.unit (s := S1x128) ![0, 0] S1x128.size inb_S1x128_S1x128_0_0
abbrev r3_o : Rect S256x128 := Rect.unit (s := S256x128) ![0, 0] S256x128.size inb_S256x128_S256x128_0_0

/-- The output block after the body, from the three input blocks: its one whole store. -/
def out3_3 (x0 : Vec F S256x768 .f32) (x1 : Vec F S768x128 .f32) (x2 : Vec F S1x128 .f32) : Vec F S256x128 .f32 :=
  View.canon [⟨r3_o, k3_pay1 (View.ld x0 r3_a) (View.ld x1 r3_w) (View.ld x2 r3_b)⟩]

/-- The one store covers the block. -/
theorem cover3_3 (p0 : Vec F S256x128 .f32) (y : S256x128.Idx) :
    ∃ pc ∈ ([⟨r3_o, p0⟩] : List (View.Piece (Elt F) S256x128 .f32)), y ∈ pc.1.set :=
  View.cover_of_tiled [⟨r3_o, p0⟩] S256x128.size (by rfl) y

set_option maxHeartbeats 1000000 in
/-- The body on whole staging buffers, the inputs' at contents x0, x1, x2 and the output's at anything, runs to the
    continuation holding the inputs' as they were and the output's at out3_3 of them. The body also reads the output
    buffer before overwriting it; what it reads there is never used. -/
theorem sound_kernel3 (c : Dev nD) (E : Set ℕ) (i : grid3.Coords) (arg0 : Memref sig .tc .vmem S256x768 .f32) (harg0 : arg0.IsWhole) (arg1 : Memref sig .tc .vmem S768x128 .f32) (harg1 : arg1.IsWhole)
    (arg2 : Memref sig .tc .vmem S1x128 .f32) (harg2 : arg2.IsWhole) (arg3 : Memref sig .tc .vmem S256x128 .f32) (harg3 : arg3.IsWhole)
    (x0 : Vec F S256x768 .f32) (x1 : Vec F S768x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__linear_kernel i arg0 harg0 arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core c: the arrays as the region finds them; after the body each input's buffer
    at its block and the output's at out3_3 of them; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.ReferenceIdeal.Hand

end
-- ==== Proof.RFold.lean ====
/-
  The contents of a core's buffers at each boundary between two items of the reference's main function,
  as a fold from the launch memory: a stretch of host operations applies them; a region leaves its arrays at what
  its write-backs leave and every other buffer alone. No item writes an argument, so each argument is read back
  through the fold to its launch contents; the result buffer is read back as the last region's output array.
-/
import proofs.«109826_g2000005534411080_pallasbulk_673_7_alg».proof.Proof.RBody0
import proofs.«109826_g2000005534411080_pallasbulk_673_7_alg».proof.Proof.RBody1
import proofs.«109826_g2000005534411080_pallasbulk_673_7_alg».proof.Proof.RBody2
import proofs.«109826_g2000005534411080_pallasbulk_673_7_alg».proof.Proof.RBody3
import proofs.«109826_g2000005534411080_pallasbulk_673_7_alg».proof.Proof.Gen.ReferenceIdeal.Regions

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev Mem0 : Dev nD → Valuation τ sig (Elt F) := fun c b => m (c, b)

/-- After the host operations hostOps0 (region 0's entry). -/
abbrev Mem1 : Dev nD → Valuation τ sig (Elt F) := fun c => StableHlo.after hostOps0 (Mem0 m c)
abbrev At1 : (c : Dev nD) → (b : Ref sig .tc) → Buf (Elt F) ((c : Thread nD τ).loc b) := fun c b => Mem1 m c b
theorem Mem1_of (c : Dev nD) (r : Ref sig .tc) (h : r ∉ hostOps0_W) : Mem1 m c r = Mem0 m c r :=
  StableHlo.after_of_writes_sub hostOps0 _ hostOps0_writes h

/-- At region 0's exit: its arrays at what the pipeline leaves (the inputs as entered, the output's write-backs
    folded), every other buffer as entered. -/
def Mem2 (c : Dev nD) : Valuation τ sig (Elt F) :=
  Pipeline.withArrays spec0 c (Mem1 m c) fun w => (dat0 (At1 m) c).arrAt w cfg0.N
theorem Mem2_arr (c : Dev nD) (w : Fin cfg0.W) :
    Mem2 m c (Proc.devRef .tc (Pipeline.arrRef spec0 w)) = (dat0 (At1 m) c).arrAt w cfg0.N := by
  unfold Mem2; exact Pipeline.withArrays_arr spec0 launch0.win.arr_inj c _ _ w
theorem Mem2_of_ne (c : Dev nD) (b : Ref sig .tc) (hb : ∀ w, Pipeline.arrRef spec0 w ≠ b) :
    Mem2 m c (Proc.devRef .tc b) = Mem1 m c (Proc.devRef .tc b) := by
  unfold Mem2; exact Pipeline.withArrays_of_ne spec0 c _ _ b hb
/-- The same read at the TensorCore's references. -/
abbrev At2 : (c : Dev nD) → (b : Ref sig .tc) → Buf (Elt F) ((c : Thread nD τ).loc b) := fun c b => Mem2 m c b
theorem hF0 (c : Dev nD) (w : Fin cfg0.W) : (dat0 (At1 m) c).arrAt w cfg0.N = At2 m c (Pipeline.arrRef spec0 w) :=
  (Mem2_arr m c w).symm
theorem hrest0 (c : Dev nD) : ∀ b, b ∉ Finset.univ.image (Pipeline.arrRef spec0) → At2 m c b = At1 m c b :=
  fun b hb => Mem2_of_ne m c b fun w e => hb (Finset.mem_image.mpr ⟨w, Finset.mem_univ _, e⟩)

/-- After the host operations hostOps1 (region 1's entry). -/
abbrev Mem3 : Dev nD → Valuation τ sig (Elt F) := fun c => StableHlo.after hostOps1 (Mem2 m c)
abbrev At3 : (c : Dev nD) → (b : Ref sig .tc) → Buf (Elt F) ((c : Thread nD τ).loc b) := fun c b => Mem3 m c b
theorem Mem3_of (c : Dev nD) (r : Ref sig .tc) (h : r ∉ hostOps1_W) : Mem3 m c r = Mem2 m c r :=
  StableHlo.after_of_writes_sub hostOps1 _ hostOps1_writes h

/-- At region 1's exit: its arrays at what the pipeline leaves (the inputs as entered, the output's write-backs
    folded), every other buffer as entered. -/
def Mem4 (c : Dev nD) : Valuation τ sig (Elt F) :=
  Pipeline.withArrays spec1 c (Mem3 m c) fun w => (dat1 (At3 m) c).arrAt w cfg1.N
theorem Mem4_arr (c : Dev nD) (w : Fin cfg1.W) :
    Mem4 m c (Proc.devRef .tc (Pipeline.arrRef spec1 w)) = (dat1 (At3 m) c).arrAt w cfg1.N := by
  unfold Mem4; exact Pipeline.withArrays_arr spec1 launch1.win.arr_inj c _ _ w
theorem Mem4_of_ne (c : Dev nD) (b : Ref sig .tc) (hb : ∀ w, Pipeline.arrRef spec1 w ≠ b) :
    Mem4 m c (Proc.devRef .tc b) = Mem3 m c (Proc.devRef .tc b) := by
  unfold Mem4; exact Pipeline.withArrays_of_ne spec1 c _ _ b hb
/-- The same read at the TensorCore's references. -/
abbrev At4 : (c : Dev nD) → (b : Ref sig .tc) → Buf (Elt F) ((c : Thread nD τ).loc b) := fun c b => Mem4 m c b
theorem hF1 (c : Dev nD) (w : Fin cfg1.W) : (dat1 (At3 m) c).arrAt w cfg1.N = At4 m c (Pipeline.arrRef spec1 w) :=
  (Mem4_arr m c w).symm
theorem hrest1 (c : Dev nD) : ∀ b, b ∉ Finset.univ.image (Pipeline.arrRef spec1) → At4 m c b = At3 m c b :=
  fun b hb => Mem4_of_ne m c b fun w e => hb (Finset.mem_image.mpr ⟨w, Finset.mem_univ _, e⟩)

/-- After the host operations hostOps2 (region 2's entry). -/
abbrev Mem5 : Dev nD → Valuation τ sig (Elt F) := fun c => StableHlo.after hostOps2 (Mem4 m c)
abbrev At5 : (c : Dev nD) → (b : Ref sig .tc) → Buf (Elt F) ((c : Thread nD τ).loc b) := fun c b => Mem5 m c b
theorem Mem5_of (c : Dev nD) (r : Ref sig .tc) (h : r ∉ hostOps2_W) : Mem5 m c r = Mem4 m c r :=
  StableHlo.after_of_writes_sub hostOps2 _ hostOps2_writes h

/-- At region 2's exit: its arrays at what the pipeline leaves (the inputs as entered, the output's write-backs
    folded), every other buffer as entered. -/
def Mem6 (c : Dev nD) : Valuation τ sig (Elt F) :=
  Pipeline.withArrays spec2 c (Mem5 m c) fun w => (dat2 (At5 m) c).arrAt w cfg2.N
theorem Mem6_arr (c : Dev nD) (w : Fin cfg2.W) :
    Mem6 m c (Proc.devRef .tc (Pipeline.arrRef spec2 w)) = (dat2 (At5 m) c).arrAt w cfg2.N := by
  unfold Mem6; exact Pipeline.withArrays_arr spec2 launch2.win.arr_inj c _ _ w
theorem Mem6_of_ne (c : Dev nD) (b : Ref sig .tc) (hb : ∀ w, Pipeline.arrRef spec2 w ≠ b) :
    Mem6 m c (Proc.devRef .tc b) = Mem5 m c (Proc.devRef .tc b) := by
  unfold Mem6; exact Pipeline.withArrays_of_ne spec2 c _ _ b hb
/-- The same read at the TensorCore's references. -/
abbrev At6 : (c : Dev nD) → (b : Ref sig .tc) → Buf (Elt F) ((c : Thread nD τ).loc b) := fun c b => Mem6 m c b
theorem hF2 (c : Dev nD) (w : Fin cfg2.W) : (dat2 (At5 m) c).arrAt w cfg2.N = At6 m c (Pipeline.arrRef spec2 w) :=
  (Mem6_arr m c w).symm
theorem hrest2 (c : Dev nD) : ∀ b, b ∉ Finset.univ.image (Pipeline.arrRef spec2) → At6 m c b = At5 m c b :=
  fun b hb => Mem6_of_ne m c b fun w e => hb (Finset.mem_image.mpr ⟨w, Finset.mem_univ _, e⟩)

/-- After the host operations hostOps3 (region 3's entry). -/
abbrev Mem7 : Dev nD → Valuation τ sig (Elt F) := fun c => StableHlo.after hostOps3 (Mem6 m c)
abbrev At7 : (c : Dev nD) → (b : Ref sig .tc) → Buf (Elt F) ((c : Thread nD τ).loc b) := fun c b => Mem7 m c b
theorem Mem7_of (c : Dev nD) (r : Ref sig .tc) (h : r ∉ hostOps3_W) : Mem7 m c r = Mem6 m c r :=
  StableHlo.after_of_writes_sub hostOps3 _ hostOps3_writes h

/-- At region 3's exit: its arrays at what the pipeline leaves (the inputs as entered, the output's write-backs
    folded), every other buffer as entered. -/
def Mem8 (c : Dev nD) : Valuation τ sig (Elt F) :=
  Pipeline.withArrays spec3 c (Mem7 m c) fun w => (dat3 (At7 m) c).arrAt w cfg3.N
theorem Mem8_arr (c : Dev nD) (w : Fin cfg3.W) :
    Mem8 m c (Proc.devRef .tc (Pipeline.arrRef spec3 w)) = (dat3 (At7 m) c).arrAt w cfg3.N := by
  unfold Mem8; exact Pipeline.withArrays_arr spec3 launch3.win.arr_inj c _ _ w
theorem Mem8_of_ne (c : Dev nD) (b : Ref sig .tc) (hb : ∀ w, Pipeline.arrRef spec3 w ≠ b) :
    Mem8 m c (Proc.devRef .tc b) = Mem7 m c (Proc.devRef .tc b) := by
  unfold Mem8; exact Pipeline.withArrays_of_ne spec3 c _ _ b hb
/-- The same read at the TensorCore's references. -/
abbrev At8 : (c : Dev nD) → (b : Ref sig .tc) → Buf (Elt F) ((c : Thread nD τ).loc b) := fun c b => Mem8 m c b
theorem hF3 (c : Dev nD) (w : Fin cfg3.W) : (dat3 (At7 m) c).arrAt w cfg3.N = At8 m c (Pipeline.arrRef spec3 w) :=
  (Mem8_arr m c w).symm
theorem hrest3 (c : Dev nD) : ∀ b, b ∉ Finset.univ.image (Pipeline.arrRef spec3) → At8 m c b = At7 m c b :=
  fun b hb => Mem8_of_ne m c b fun w e => hb (Finset.mem_image.mpr ⟨w, Finset.mem_univ _, e⟩)

/-! The arguments end as launched, and the result buffer holds the last region's output array. -/

theorem Mem8_main_arg0 (c : Dev nD) : Mem8 m c (Proc.devRef .tc main_arg0) = m ((c : Thread nD τ).loc main_arg0) :=
  (Mem8_of_ne m c main_arg0 (by decide)).trans <| (Mem7_of m c main_arg0 (by decide)).trans <| (Mem6_of_ne m c main_arg0 (by decide)).trans <| (Mem5_of m c main_arg0 (by decide)).trans <| (Mem4_of_ne m c main_arg0 (by decide)).trans <| (Mem3_of m c main_arg0 (by decide)).trans <| (Mem2_of_ne m c main_arg0 (by decide)).trans <| (Mem1_of m c main_arg0 (by decide)).trans rfl
theorem Mem8_main_arg1 (c : Dev nD) : Mem8 m c (Proc.devRef .tc main_arg1) = m ((c : Thread nD τ).loc main_arg1) :=
  ((Mem8_arr m c 1).trans (((dat3 (At7 m) c).arrAt_in 1 rfl _).trans (A_eq3 (At7 m) c 1))).trans <| (Mem7_of m c main_arg1 (by decide)).trans <| (Mem6_of_ne m c main_arg1 (by decide)).trans <| (Mem5_of m c main_arg1 (by decide)).trans <| (Mem4_of_ne m c main_arg1 (by decide)).trans <| (Mem3_of m c main_arg1 (by decide)).trans <| (Mem2_of_ne m c main_arg1 (by decide)).trans <| (Mem1_of m c main_arg1 (by decide)).trans rfl
theorem Mem8_main_arg2 (c : Dev nD) : Mem8 m c (Proc.devRef .tc main_arg2) = m ((c : Thread nD τ).loc main_arg2) :=
  (Mem8_of_ne m c main_arg2 (by decide)).trans <| (Mem7_of m c main_arg2 (by decide)).trans <| (Mem6_of_ne m c main_arg2 (by decide)).trans <| (Mem5_of m c main_arg2 (by decide)).trans <| (Mem4_of_ne m c main_arg2 (by decide)).trans <| (Mem3_of m c main_arg2 (by decide)).trans <| (Mem2_of_ne m c main_arg2 (by decide)).trans <| (Mem1_of m c main_arg2 (by decide)).trans rfl
theorem Mem8_main_v17 (c : Dev nD) : Mem8 m c (Proc.devRef .tc main_v17) = (dat3 (At7 m) c).arrAt 3 cfg3.N :=
  Mem8_arr m c 3

/-! The proof data family and what rides beside the buffers. -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (At1 m) c
  | ⟨1, _⟩ => fun c => dat1 (At3 m) c
  | ⟨2, _⟩ => fun c => dat2 (At5 m) c
  | ⟨3, _⟩ => fun c => dat3 (At7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Mem8 m c) ∗ ∃ r, prngReg c r)

end Cert.ReferenceIdeal.Hand

end
-- ==== Proof.RRegs.lean ====
/-
  Each region of the reference's main function as a segment over the thread state "every unscoped buffer at the
  boundary's contents, the generator register at some state, nothing owed".
-/
import proofs.«109826_g2000005534411080_pallasbulk_673_7_alg».proof.Proof.RFold

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at the contents before it, left at the
    contents after it. Its arrays are split out of the unscoped buffers and put back at the exit contents; the
    generator register goes into the body's invariant and comes out; nothing is owed; the body has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m) c).loose
  hwaits := Pipeline.hwaits_of_owed_zero _ _ _ _ L lv 0 fun _ _ => rfl
  pre c := iprop(StableHlo.held (c : Thread nD τ) (Pipeline.ucRefs τ sig) (Mem1 m c) ∗ R c)
  post c := iprop(StableHlo.held (c : Thread nD τ) (Pipeline.ucRefs τ sig) (Mem2 m c) ∗ R c)
  X c := iprop(∃ r, prngReg c r)
  Y c := iprop(∃ r, prngReg c r)
  Z c := Pipeline.unscopedRest (Ix := Unit) (Name := ℕ) (U := UR sig nD τ) (Lvl := ℕ) spec0 c (At1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (At1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (At1 m c) (At2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the body's invariant and comes out; nothing is owed; the body has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m) c).loose
  hwaits := Pipeline.hwaits_of_owed_zero _ _ _ _ L lv 1 fun _ _ => rfl
  pre c := iprop(StableHlo.held (c : Thread nD τ) (Pipeline.ucRefs τ sig) (Mem3 m c) ∗ R c)
  post c := iprop(StableHlo.held (c : Thread nD τ) (Pipeline.ucRefs τ sig) (Mem4 m c) ∗ R c)
  X c := iprop(∃ r, prngReg c r)
  Y c := iprop(∃ r, prngReg c r)
  Z c := Pipeline.unscopedRest (Ix := Unit) (Name := ℕ) (U := UR sig nD τ) (Lvl := ℕ) spec1 c (At3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (At3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (At3 m c) (At4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the body's invariant and comes out; nothing is owed; the body has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (At5 m) c).loose
  hwaits := Pipeline.hwaits_of_owed_zero _ _ _ _ L lv 2 fun _ _ => rfl
  pre c := iprop(StableHlo.held (c : Thread nD τ) (Pipeline.ucRefs τ sig) (Mem5 m c) ∗ R c)
  post c := iprop(StableHlo.held (c : Thread nD τ) (Pipeline.ucRefs τ sig) (Mem6 m c) ∗ R c)
  X c := iprop(∃ r, prngReg c r)
  Y c := iprop(∃ r, prngReg c r)
  Z c := Pipeline.unscopedRest (Ix := Unit) (Name := ℕ) (U := UR sig nD τ) (Lvl := ℕ) spec2 c (At5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (At5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (At5 m c) (At6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the
    contents after it. Its arrays are split out of the unscoped buffers and put back at the exit contents; the
    generator register goes into the body's invariant and comes out; nothing is owed; the body has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (At7 m) c).loose
  hwaits := Pipeline.hwaits_of_owed_zero _ _ _ _ L lv 3 fun _ _ => rfl
  pre c := iprop(StableHlo.held (c : Thread nD τ) (Pipeline.ucRefs τ sig) (Mem7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (At7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (At7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (At7 m c) (At8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.ReferenceIdeal.Hand

end
-- ==== Proof.RRun.lean ====
/-
  The reference's main function runs to the end from any memory with zero counters: its eight items are four
  stretches of host operations and four regions; the last thread state is read against the final memory, which
  gives the result buffer as the last region's output array and each argument as launched.
-/
import proofs.«109826_g2000005534411080_pallasbulk_673_7_alg».proof.Proof.RRegs

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The main function's eight items in order. -/
abbrev items : List (Pipeline.Seg (pcfgs (F := F)) adm (pdats m) () defs₀ 𝒱₀ L lv) :=
  [ .host (hseg hostOps0 hostOps0_sub hostOps0_fresh (Mem0 m)),
    .region (reg0 m),
    .host (hseg hostOps1 hostOps1_sub hostOps1_fresh (Mem2 m)),
    .region (reg1 m),
    .host (hseg hostOps2 hostOps2_sub hostOps2_fresh (Mem4 m)),
    .region (reg2 m),
    .host (hseg hostOps3 hostOps3_sub hostOps3_fresh (Mem6 m)),
    .region (reg3 m) ]

/-- The main function is the run of its items. -/
theorem main_run (c : Dev nD) : main (F := F) c = Pipeline.Seg.run (items m) := (main_chain c).trans (by chain_rfl)

set_option backward.isDefEq.respectTransparency.types false in
/-- Every weakly fair execution of the main function terminates, nothing faulting; the result buffer ends holding
    the last region's output array, and every argument ends as launched. At any float instance. -/
theorem run_arr : θ_run defs (onTc (τ := τ) (main (F := F))) ⟨m, fun _ => 0, ρ⟩ (fun r => ∀ c : Dev nD,
      r.2.mem ((c.tc : Thread nD τ).loc main_v17) = (dat3 (At7 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Mem0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Mem0 m c)
        from Pipeline.unscopedBufs_held c (Mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Mem8 m c b)
    (hfin := fun c s' => by
      iintro ⟨⟨Hh, -⟩, HSI⟩
      unfold StableHlo.held
      imodintro
      iapply (pointsTo_read_all (Pipeline.ucRefs τ sig) (fun b => (((c : Thread nD τ)).1, b)) (Mem8 m c) s')
      isplitl [Hh] <;> iassumption)
    (hQ := fun s h c =>
      ⟨(h c _ (mem_uc main_v17 (by decide))).trans (Mem8_main_v17 m c),
       (h c _ (mem_uc main_arg0 (by decide))).trans (Mem8_main_arg0 m c),
       (h c _ (mem_uc main_arg1 (by decide))).trans (Mem8_main_arg1 m c),
       (h c _ (mem_uc main_arg2 (by decide))).trans (Mem8_main_arg2 m c)⟩)

end Cert.ReferenceIdeal.Hand

end
-- ==== Proof.RPoolSpec.lean ====
/-
  What a pooling region computes, as one function of its whole input array.

  The input is an array A of 32768 rows and 512 lanes; the output has 32768 rows and 2 columns: column 0 holds each
  row's unbiased standard deviation, column 1 its mean.
-/
import proofs.«109826_g2000005534411080_pallasbulk_673_7_alg».proof.Proof.Gen.ReferenceIdeal
import Idealize.ShloMosaic.PureOps.Ideal
import Idealize.ShloMosaic.Lib.ValueIdx
import Idealize.ShloMosaic.Lib.Pipeline.Value

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

/-- The mean of row r of the whole array: its sum times 1/512. -/
def muRow (A : S32768x512.Idx → EReal) (r : Fin 32768) : EReal :=
  (∑ t : Fin 512, A (ix2 r t)) * ((1 / 512 : ℝ) : EReal)

/-- The unbiased standard deviation of row r of the whole array. -/
def sdRow (A : S32768x512.Idx → EReal) (r : Fin 32768) : EReal :=
  Ideal.sqrt ((∑ t : Fin 512, (A (ix2 r t) - muRow A r) * (A (ix2 r t) - muRow A r)) * ((1 / 511 : ℝ) : EReal))

/-- The pooled array: column 0 the deviations, column 1 the means. -/
def poolOf (A : S32768x512.Idx → EReal) : S32768x2.Idx → EReal := fun i =>
  if (i 1).val = 0 then sdRow A (i 0) else muRow A (i 0)

/-- The pooled array at a row and a column. -/
theorem poolOf_apply (A : S32768x512.Idx → EReal) (r : Fin 32768) (q : Fin 2) :
    poolOf A (ix2 r q) = if q.val = 0 then sdRow A r else muRow A r := rfl

end Cert.ReferenceIdeal.Hand

end
-- ==== Proof.RFeat.lean ====
/-
  The feature matrix of the reference, as one function of the input array, and its entries.

  The input x of shape [256, 128, 512] is flattened to 32768 rows (row 128 b + c is x's row (b, c)); the pooled
  array of 32768 rows and 2 columns is reshaped to [256, 128, 2], its last two axes are swapped, and it is reshaped
  to [256, 256]: so column j of row b holds, for j below 128, the deviation of x's row (b, j), and for j from 128 on
  the mean of x's row (b, j - 128). Three copies of that matrix side by side are the feature matrix.
-/
import proofs.«109826_g2000005534411080_pallasbulk_673_7_alg».proof.Proof.Spec
import proofs.«109826_g2000005534411080_pallasbulk_673_7_alg».proof.Proof.RPoolSpec
import Idealize.ShloMosaic.Lib.Pipeline.Value

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

/-- The input flattened to 32768 rows of 512 lanes. -/
def flat (x : S256x128x512.Idx → EReal) : S32768x512.Idx → EReal :=
  shapeCast S32768x512 x shapeCasts_S256x128x512_S32768x512

/-- Row 128 b + c of the flattened input is the input's row (b, c). -/
theorem flat_apply (x : S256x128x512.Idx → EReal) (b : Fin 256) (c : Fin 128) (t : Fin 512) (r : Fin 32768)
    (hr : r.val = 128 * b.val + c.val) : flat x (ix2 r t) = x (ix3 b c t) := by
  unfold flat
  refine shapeCast_apply x _ _ (ix3 b c t) ?_
  rw [Shape.rowMajor_val_three, Shape.rowMajor_val_two]
  show (b.val * 128 + c.val) * 512 + t.val = r.val * 512 + t.val
  rw [hr]; ring

theorem muRow_flat (x : S256x128x512.Idx → EReal) (b : Fin 256) (c : Fin 128) (r : Fin 32768)
    (hr : r.val = 128 * b.val + c.val) : muRow (flat x) r = Cert.Spec.mu x b c := by
  unfold muRow Cert.Spec.mu
  rw [Finset.sum_congr rfl fun t _ => flat_apply x b c t r hr]

theorem sdRow_flat (x : S256x128x512.Idx → EReal) (b : Fin 256) (c : Fin 128) (r : Fin 32768)
    (hr : r.val = 128 * b.val + c.val) : sdRow (flat x) r = Cert.Spec.sd x b c := by
  unfold sdRow Cert.Spec.sd Cert.Spec.ssq
  rw [muRow_flat x b c r hr, Finset.sum_congr rfl fun t _ => by rw [flat_apply x b c t r hr]]

/-- The pooled array laid out as a matrix of 256 rows: reshape, swap the last two axes, reshape. -/
def statsOf (P : S32768x2.Idx → EReal) : S256x256.Idx → EReal :=
  shapeCast S256x256 (transpose S256x2x128 [0, 2, 1] (shapeCast S256x128x2 P shapeCasts_S32768x2_S256x128x2)
    transposes_S256x128x2_S256x2x128_0_2_1) shapeCasts_S256x2x128_S256x256

/-- Column 128 q + c of row b of that matrix is the pooled array's column q at row 128 b + c. -/
theorem statsOf_apply (P : S32768x2.Idx → EReal) (b : Fin 256) (j : Fin 256) (q : Fin 2) (c : Fin 128) (r : Fin 32768)
    (hj : j.val = 128 * q.val + c.val) (hr : r.val = 128 * b.val + c.val) : statsOf P (ix2 b j) = P (ix2 r q) := by
  unfold statsOf
  refine (shapeCast_apply _ _ _ (ix3 b q c) ?_).trans ?_
  · rw [Shape.rowMajor_val_three, Shape.rowMajor_val_two]
    show (b.val * 2 + q.val) * 128 + c.val = b.val * 256 + j.val
    rw [hj]; ring
  refine (transpose_apply _ _ _ _ (ix3 b c q) ?_).trans ?_
  · intro a
    match a with
    | ⟨0, _⟩ => rfl
    | ⟨1, _⟩ => rfl
    | ⟨2, _⟩ => rfl
  refine shapeCast_apply _ _ _ (ix2 r q) ?_
  rw [Shape.rowMajor_val_two, Shape.rowMajor_val_three]
  show r.val * 2 + q.val = (b.val * 128 + c.val) * 2 + q.val
  rw [hr]; ring

/-- The matrix of the input's statistics: deviations in columns 0 to 127, means in columns 128 to 255. -/
theorem stats_flat_apply (x : S256x128x512.Idx → EReal) (b : Fin 256) (j : Fin 256) :
    statsOf (poolOf (flat x)) (ix2 b j)
      = if h : j.val < 128 then Cert.Spec.sd x b ⟨j.val, h⟩ else Cert.Spec.mu x b ⟨j.val - 128, by omega⟩ := by
  by_cases h : j.val < 128
  · rw [dif_pos h, statsOf_apply _ b j (0 : Fin 2) ⟨j.val, h⟩ ⟨128 * b.val + j.val, by omega⟩ (by show j.val = 128 * 0 + j.val; omega) rfl]
    show sdRow (flat x) _ = _
    exact sdRow_flat x b ⟨j.val, h⟩ _ rfl
  · rw [dif_neg h, statsOf_apply _ b j (1 : Fin 2) ⟨j.val - 128, by omega⟩ ⟨128 * b.val + (j.val - 128), by omega⟩
        (by show j.val = 128 * 1 + (j.val - 128); omega) rfl]
    show muRow (flat x) _ = _
    exact muRow_flat x b ⟨j.val - 128, by omega⟩ _ rfl

/-- The feature matrix: three copies of the statistics matrix side by side. -/
def featOf (x : S256x128x512.Idx → EReal) : S256x768.Idx → EReal :=
  concatenate S256x768 1 [⟨S256x256, statsOf (poolOf (flat x))⟩, ⟨S256x256, statsOf (poolOf (flat x))⟩,
    ⟨S256x256, statsOf (poolOf (flat x))⟩] concatenates_S256x256_S256x256_S256x256_S256x768_d1

/-- Entry (b, f) of the feature matrix is entry (b, f mod 256) of the statistics matrix. -/
theorem featOf_stats (x : S256x128x512.Idx → EReal) (b : Fin 256) (f : Fin 768) :
    featOf x (ix2 b f) = statsOf (poolOf (flat x)) (ix2 b ⟨f.val % 256, by omega⟩) := by
  unfold featOf
  have hf : f.val < 768 := f.isLt
  have hk : f.val / 256 = 0 ∨ f.val / 256 = 1 ∨ f.val / 256 = 2 := by omega
  rcases hk with hk | hk | hk
  · refine concatenate_apply_piece (1 : Fin 2) _ _ (ix2 b f) 0 (by show 0 < 3; omega) S256x256 _ rfl rfl 0 rfl (ix2 b ⟨f.val % 256, by omega⟩) ?_ ?_
    · intro a ha
      match a with
      | ⟨0, _⟩ => rfl
      | ⟨1, _⟩ => exact absurd rfl ha
    · show 0 + f.val % 256 = f.val; omega
  · refine concatenate_apply_piece (1 : Fin 2) _ _ (ix2 b f) 1 (by show 1 < 3; omega) S256x256 _ rfl rfl 256 rfl (ix2 b ⟨f.val % 256, by omega⟩) ?_ ?_
    · intro a ha
      match a with
      | ⟨0, _⟩ => rfl
      | ⟨1, _⟩ => exact absurd rfl ha
    · show 256 + f.val % 256 = f.val; omega
  · refine concatenate_apply_piece (1 : Fin 2) _ _ (ix2 b f) 2 (by show 2 < 3; omega) S256x256 _ rfl rfl 512 rfl (ix2 b ⟨f.val % 256, by omega⟩) ?_ ?_
    · intro a ha
      match a with
      | ⟨0, _⟩ => rfl
      | ⟨1, _⟩ => exact absurd rfl ha
    · show 512 + f.val % 256 = f.val; omega

/-- Entry (b, f) of the feature matrix is the specification's feature row. -/
theorem featOf_apply (x : S256x128x512.Idx → EReal) (b : Fin 256) (f : Fin 768) :
    featOf x (ix2 b f) = Cert.Spec.feat x b f := by
  rw [featOf_stats, stats_flat_apply]
  rfl

end Cert.ReferenceIdeal.Hand

end
-- ==== Proof.RPay.lean ====
/-
  The reference's kernel bodies, read at an index on the extended reals.

  The pooling body holds a block X of 1024 rows and 512 columns. Its mean column is, at row j, the sum of the row
  times 1/512 (the literal is that power of two exactly). Its deviation column is the square root of the sum of the
  squared differences from that mean, divided by 511; division by the real 511 is multiplication by 1/511 on every
  extended real. The linear body's result is, at (p, o), the sum over the 768 features of x (p, f) * w (f, o), from a
  zero block, plus the bias row's entry o.
-/
import proofs.«109826_g2000005534411080_pallasbulk_673_7_alg».proof.Proof.Gen.ReferenceIdeal.Skeleton
import proofs.«109826_g2000005534411080_pallasbulk_673_7_alg».proof.Proof.LibRowLayout
import proofs.«109826_g2000005534411080_pallasbulk_673_7_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Pay

open Idealize.ShloMosaic Idealize.ShloMosaic.ValueIdx Cert.ReferenceIdeal Cert.ReferenceIdeal.Gen Cert.LibRowLayout
open scoped BigOperators

/-- The pattern of 2^-9 denotes the real 1/512. -/
theorem ofBits_inv512 : Ideal.ofBits .f32 0x3B000000#32 = ((1 / 512 : ℝ) : EReal) := by
  simp [Ideal.ofBits, Ideal.ieee, -EReal.coe_mul]; norm_num

/-- The pattern of 511.0 denotes the real 511. -/
theorem ofBits_511 : Ideal.ofBits .f32 0x43FF8000#32 = ((511 : ℝ) : EReal) := by
  simp [Ideal.ofBits, Ideal.ieee, -EReal.coe_mul]; norm_num

/-- The mean of row `j` of a block. -/
def rowMu (X : S1024x512.Idx → EReal) (j : Fin 1024) : EReal :=
  (∑ t : Fin 512, X (ix2 j t)) * ((1 / 512 : ℝ) : EReal)

/-- The unbiased standard deviation of row `j` of a block. -/
def rowSd (X : S1024x512.Idx → EReal) (j : Fin 1024) : EReal :=
  Ideal.sqrt ((∑ t : Fin 512, (X (ix2 j t) - rowMu X j) * (X (ix2 j t) - rowMu X j)) * ((1 / 511 : ℝ) : EReal))

/-- A square root taken elementwise, at an index. -/
theorem sqrt_at {s : Shape} (v : FVec Ideal s .f32) (i : s.Idx) : sqrt v i = Ideal.sqrt (v i) := rfl

/-- The mean column of region 0's body: row `j` holds the row's sum times 1/512. -/
theorem mean_col0 (X : Vec Ideal S1024x512 .f32) (j : Fin 1024) :
    k0_pay2 (F := Ideal) X (ix2 j (0 : Fin 1)) = rowMu X j := by
  unfold k0_pay2 k0_pay1
  refine (congrArg (· * _) ((shapeCast_a_a1_apply _ _ j 0).trans ((multiReduction_row _ _ _ _ _ j).trans
    (Finset.sum_congr rfl fun t _ => congrFun (shapeCast_self X _) (ix2 j t))))).trans ?_
  exact congrArg ((∑ t : Fin 512, X (ix2 j t)) * ·) ofBits_inv512

/-- The deviation column of region 0's body: row `j` holds the root of the squared deviations' sum over 511,
    the quotient by 511 being the product with 1/511 on every extended real. -/
theorem sd_col0 (X : Vec Ideal S1024x512 .f32) (j : Fin 1024) :
    k0_pay3 (F := Ideal) X (ix2 j (0 : Fin 1)) = rowSd X j := by
  unfold k0_pay3
  refine (show _ = Ideal.sqrt (Ideal.div (∑ t : Fin 512, (X (ix2 j t) - rowMu X j) * (X (ix2 j t) - rowMu X j))
      (Ideal.ofBits .f32 0x43FF8000#32)) from
    congrArg Ideal.sqrt (congrArg (Ideal.div · _) ((shapeCast_a_a1_apply _ _ j 0).trans
      ((multiReduction_row _ _ _ _ _ j).trans (Finset.sum_congr rfl fun t _ => ?_))))).trans ?_
  · have e : subf (k0_pay1 (F := Ideal) X) (broadcastTo S1024x512 (k0_pay2 (F := Ideal) X) Facts₀.broadcasts_S1024x1_S1024x512) (ix2 j t)
        = X (ix2 j t) - rowMu X j :=
      congrArg₂ (· - ·) (congrFun (shapeCast_self X _) (ix2 j t))
        ((broadcastTo_a1_ab_apply _ _ j t).trans (mean_col0 X j))
    exact congrArg₂ (· * ·) e e
  · rw [ofBits_511, Ideal.div_coe (by norm_num : (511 : ℝ) ≠ 0)]
    rfl

/-- The mean column of region 1's body: row `j` holds the row's sum times 1/512. -/
theorem mean_col1 (X : Vec Ideal S1024x512 .f32) (j : Fin 1024) :
    k1_pay2 (F := Ideal) X (ix2 j (0 : Fin 1)) = rowMu X j := by
  unfold k1_pay2 k1_pay1
  refine (congrArg (· * _) ((shapeCast_a_a1_apply _ _ j 0).trans ((multiReduction_row _ _ _ _ _ j).trans
    (Finset.sum_congr rfl fun t _ => congrFun (shapeCast_self X _) (ix2 j t))))).trans ?_
  exact congrArg ((∑ t : Fin 512, X (ix2 j t)) * ·) ofBits_inv512

/-- The deviation column of region 1's body: row `j` holds the root of the squared deviations' sum over 511,
    the quotient by 511 being the product with 1/511 on every extended real. -/
theorem sd_col1 (X : Vec Ideal S1024x512 .f32) (j : Fin 1024) :
    k1_pay3 (F := Ideal) X (ix2 j (0 : Fin 1)) = rowSd X j := by
  unfold k1_pay3
  refine (show _ = Ideal.sqrt (Ideal.div (∑ t : Fin 512, (X (ix2 j t) - rowMu X j) * (X (ix2 j t) - rowMu X j))
      (Ideal.ofBits .f32 0x43FF8000#32)) from
    congrArg Ideal.sqrt (congrArg (Ideal.div · _) ((shapeCast_a_a1_apply _ _ j 0).trans
      ((multiReduction_row _ _ _ _ _ j).trans (Finset.sum_congr rfl fun t _ => ?_))))).trans ?_
  · have e : subf (k1_pay1 (F := Ideal) X) (broadcastTo S1024x512 (k1_pay2 (F := Ideal) X) Facts₀.broadcasts_S1024x1_S1024x512) (ix2 j t)
        = X (ix2 j t) - rowMu X j :=
      congrArg₂ (· - ·) (congrFun (shapeCast_self X _) (ix2 j t))
        ((broadcastTo_a1_ab_apply _ _ j t).trans (mean_col1 X j))
    exact congrArg₂ (· * ·) e e
  · rw [ofBits_511, Ideal.div_coe (by norm_num : (511 : ℝ) ≠ 0)]
    rfl

/-- The mean column of region 2's body: row `j` holds the row's sum times 1/512. -/
theorem mean_col2 (X : Vec Ideal S1024x512 .f32) (j : Fin 1024) :
    k2_pay2 (F := Ideal) X (ix2 j (0 : Fin 1)) = rowMu X j := by
  unfold k2_pay2 k2_pay1
  refine (congrArg (· * _) ((shapeCast_a_a1_apply _ _ j 0).trans ((multiReduction_row _ _ _ _ _ j).trans
    (Finset.sum_congr rfl fun t _ => congrFun (shapeCast_self X _) (ix2 j t))))).trans ?_
  exact congrArg ((∑ t : Fin 512, X (ix2 j t)) * ·) ofBits_inv512

/-- The deviation column of region 2's body: row `j` holds the root of the squared deviations' sum over 511,
    the quotient by 511 being the product with 1/511 on every extended real. -/
theorem sd_col2 (X : Vec Ideal S1024x512 .f32) (j : Fin 1024) :
    k2_pay3 (F := Ideal) X (ix2 j (0 : Fin 1)) = rowSd X j := by
  unfold k2_pay3
  refine (show _ = Ideal.sqrt (Ideal.div (∑ t : Fin 512, (X (ix2 j t) - rowMu X j) * (X (ix2 j t) - rowMu X j))
      (Ideal.ofBits .f32 0x43FF8000#32)) from
    congrArg Ideal.sqrt (congrArg (Ideal.div · _) ((shapeCast_a_a1_apply _ _ j 0).trans
      ((multiReduction_row _ _ _ _ _ j).trans (Finset.sum_congr rfl fun t _ => ?_))))).trans ?_
  · have e : subf (k2_pay1 (F := Ideal) X) (broadcastTo S1024x512 (k2_pay2 (F := Ideal) X) Facts₀.broadcasts_S1024x1_S1024x512) (ix2 j t)
        = X (ix2 j t) - rowMu X j :=
      congrArg₂ (· - ·) (congrFun (shapeCast_self X _) (ix2 j t))
        ((broadcastTo_a1_ab_apply _ _ j t).trans (mean_col2 X j))
    exact congrArg₂ (· * ·) e e
  · rw [ofBits_511, Ideal.div_coe (by norm_num : (511 : ℝ) ≠ 0)]
    rfl

/-- The linear body's result at row `p`, column `o`. -/
theorem linear_at (xv : Vec Ideal S256x768 .f32) (wv : Vec Ideal S768x128 .f32) (bv : Vec Ideal S1x128 .f32)
    (p : Fin 256) (o : Fin 128) :
    k3_pay1 (F := Ideal) xv wv bv (ix2 p o)
      = (∑ f : Fin 768, xv (ix2 p f) * wv (ix2 f o)) + bv (ix2 (0 : Fin 1) o) := by
  unfold k3_pay1
  refine congrArg₂ (· + ·)
    ((Idealize.ShloMosaic.PlainDot.matmul_zero_apply dot_S256x768_S768x128_S256x128_1_0_0_1_n_n rfl rfl rfl rfl rfl rfl rfl rfl
      none _ _ p o).trans (Finset.sum_congr rfl fun f _ => congrArg (· * wv (ix2 f o)) (congrFun (shapeCast_self xv _) (ix2 p f))))
    ((broadcastTo_1b_ab_apply _ _ p o).trans (congrFun (shapeCast_self bv _) (ix2 (0 : Fin 1) o)))

end Cert.ReferenceIdeal.Pay

end
-- ==== Proof.RPoolBlk.lean ====
/-
  A block of 1024 rows of a pooling region's output depends only on the same 1024 rows of its input: a block's
  contents are the whole-array function read at the block's rows.
-/
import proofs.«109826_g2000005534411080_pallasbulk_673_7_alg».proof.Proof.RPay
import proofs.«109826_g2000005534411080_pallasbulk_673_7_alg».proof.Proof.RPoolSpec
import Idealize.ShloMosaic.Lib.Pipeline.Value

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

theorem hz2 : (![0, 0] : Fin 2 → Nat) = fun _ => 0 := funext fun a => by fin_cases a <;> rfl

/-- The pooled block of one block of 1024 rows. -/
def blkOf (X : S1024x512.Idx → EReal) : S1024x2.Idx → EReal := fun j =>
  if (j 1).val = 0 then Pay.rowSd X (j 0) else Pay.rowMu X (j 0)

/-- A block's row statistics are the whole array's at the row the block's row is. -/
theorem rowMu_eq (X : S1024x512.Idx → EReal) (A : S32768x512.Idx → EReal) (j : Fin 1024) (r : Fin 32768)
    (h : ∀ t : Fin 512, X (ix2 j t) = A (ix2 r t)) : Pay.rowMu X j = muRow A r := by
  unfold Pay.rowMu muRow
  rw [Finset.sum_congr rfl fun t _ => h t]

theorem rowSd_eq (X : S1024x512.Idx → EReal) (A : S32768x512.Idx → EReal) (j : Fin 1024) (r : Fin 32768)
    (h : ∀ t : Fin 512, X (ix2 j t) = A (ix2 r t)) : Pay.rowSd X j = sdRow A r := by
  unfold Pay.rowSd sdRow
  rw [rowMu_eq X A j r h, Finset.sum_congr rfl fun t _ => by rw [h t]]

/-- A block's entry is the pooled array's at the index with the same column whose row reads the same lanes. -/
theorem blkOf_eq_poolOf (X : S1024x512.Idx → EReal) (A : S32768x512.Idx → EReal) (j : S1024x2.Idx) (i : S32768x2.Idx)
    (h1 : (i 1).val = (j 1).val) (hrow : ∀ t : Fin 512, X (ix2 (j 0) t) = A (ix2 (i 0) t)) : blkOf X j = poolOf A i := by
  unfold blkOf poolOf
  rw [h1, rowSd_eq X A (j 0) (i 0) hrow, rowMu_eq X A (j 0) (i 0) hrow]

end Cert.ReferenceIdeal.Hand

end
-- ==== Proof.RPoolArr0.lean ====
/-
  Region 0's output array after the run of its 32 points: the pooled array of the input array as the region finds it.
  Each point writes back one block of 1024 rows; the blocks are the pooled array read at the block's rows, and together
  they cover all 32768 rows (row r lies in the block of point r / 1024).
-/
import proofs.«109826_g2000005534411080_pallasbulk_673_7_alg».proof.Proof.RBody0
import proofs.«109826_g2000005534411080_pallasbulk_673_7_alg».proof.Proof.RPoolBlk

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

variable (V : (c : Dev nD) → (b : Ref sig .tc) → Buf (Elt Ideal) ((c : Thread nD τ).loc b))

/-- The output block after the body is the block function of the input block: each of the two column pieces holds
    that function at the piece's own indices. -/
theorem out0_1_eq (X : Vec Ideal S1024x512 .f32) : out0_1 (F := Ideal) X = blkOf X := by
  funext y
  unfold out0_1
  rw [View.ld_unit_zero (S := S1024x512) hz2]
  refine View.canon_apply_of_pieces (Val := Elt Ideal) (S := S1024x2) (e := .f32) (blkOf X) _ ?_ y (cover0_1 _ _ y)
  intro p hp x
  rcases List.mem_cons.mp hp with rfl | hp
  · obtain ⟨a, q, rfl⟩ : ∃ (a : Fin 1024) (q : Fin 1), x = ix2 a q := ⟨x 0, x 1, eq_ix2 x⟩
    obtain rfl : q = 0 := Subsingleton.elim _ _
    show k0_pay2 (F := Ideal) X (ix2 a (0 : Fin 1)) = blkOf X (r0_c1.emb (ix2 a (0 : Fin 1)))
    rw [Pay.mean_col0]
    have e0 : (r0_c1.emb (ix2 a (0 : Fin 1))) 0 = a := Fin.ext (by show 0 + 1 * a.val = a.val; omega)
    have e1 : ((r0_c1.emb (ix2 a (0 : Fin 1))) 1).val = 1 := rfl
    unfold blkOf
    rw [if_neg (by rw [e1]; decide), e0]
  · rcases List.mem_cons.mp hp with rfl | hp
    · obtain ⟨a, q, rfl⟩ : ∃ (a : Fin 1024) (q : Fin 1), x = ix2 a q := ⟨x 0, x 1, eq_ix2 x⟩
      obtain rfl : q = 0 := Subsingleton.elim _ _
      show k0_pay3 (F := Ideal) X (ix2 a (0 : Fin 1)) = blkOf X (r0_c0.emb (ix2 a (0 : Fin 1)))
      rw [Pay.sd_col0]
      have e0 : (r0_c0.emb (ix2 a (0 : Fin 1))) 0 = a := Fin.ext (by show 0 + 1 * a.val = a.val; omega)
      have e1 : ((r0_c0.emb (ix2 a (0 : Fin 1))) 1).val = 0 := rfl
      unfold blkOf
      rw [if_pos e1, e0]
    · exact absurd hp List.not_mem_nil

/-- The printed index maps over the grid: both windows' block row is the point's number, their block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the pooled array of the input array. -/
theorem flushed0_eq (c : Dev nD) (t : Fin cfg0.N) :
    (dat0 V c).flushed 1 t = ((cfg0.win 1).blk t).view.read (Elt Ideal) (poolOf (V c main_v0)) := by
  show (cfg0.win 1).cut (grid0.coords t) ((dat0 V c).after 1 t) = _
  rw [after0_1, out0_1_eq]
  obtain ⟨e0, e1, e2, e3⟩ := idx_facts0 t
  funext j
  show blkOf (iblk0 V c 0 t) j = poolOf (V c main_v0) (((cfg0.win 1).blk t).view.emb j)
  refine blkOf_eq_poolOf _ _ j _ ?_ ?_
  · show win0_1.index t (1 : Fin 2) * 2 + 1 * (j 1).val = (j 1).val
    rw [e3]; omega
  · intro t'
    show V c main_v0 (((cfg0.win 0).blk t).view.emb (ix2 (j 0) t')) = V c main_v0 (ix2 ((((cfg0.win 1).blk t).view.emb j) 0) t')
    refine congrArg _ (funext fun a => Fin.ext ?_)
    match a with
    | ⟨0, _⟩ => show win0_0.index t (0 : Fin 2) * 1024 + 1 * (j 0).val = win0_1.index t (0 : Fin 2) * 1024 + 1 * (j 0).val; rw [e0, e2]
    | ⟨1, _⟩ => show win0_0.index t (1 : Fin 2) * 512 + 1 * t'.val = t'.val; rw [e1]; omega

/-- An index of the output array is in point t's block iff each coordinate is in the block's range on its axis. -/
theorem mem_blk0 (t : Fin cfg0.N) (i : S32768x2.Idx) :
    i ∈ ((cfg0.win 1).blk t).view.set ↔ ∀ a : Fin 2, win0_1.index t a * S1024x2.size a ≤ (i a).val ∧ (i a).val < win0_1.index t a * S1024x2.size a + S1024x2.size a := by
  show i ∈ ((View.whole main_v1).slice (win0_1.rect t)).set ↔ _
  rw [View.set_slice_whole, Rect.mem_set_unit]
  exact Iff.rfl

/-- Every index of the output array is in the block of the point its row divided by 1024 names. -/
theorem covered0 (i : S32768x2.Idx) : ∃ t : Fin cfg0.N, (cfg0.win 1).flush t = true ∧ i ∈ ((cfg0.win 1).blk t).view.set := by
  have hi0 : (i 0).val < 32768 := idx2_lt0 i
  have hi1 : (i 1).val < 2 := idx2_lt1 i
  have hN : cfg0.N = 32 := N_0
  have hlt : (i 0).val / 1024 < cfg0.N := by rw [hN]; omega
  refine ⟨⟨(i 0).val / 1024, hlt⟩, flush0_1 _, ?_⟩
  rw [mem_blk0]
  obtain ⟨e0, e1, e2, e3⟩ := idx_facts0 ⟨(i 0).val / 1024, hlt⟩
  intro a
  match a with
  | ⟨0, _⟩ =>
    show win0_1.index ⟨(i 0).val / 1024, hlt⟩ (0 : Fin 2) * 1024 ≤ (i 0).val ∧ (i 0).val < win0_1.index ⟨(i 0).val / 1024, hlt⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, hlt⟩ (1 : Fin 2) * 2 ≤ (i 1).val ∧ (i 1).val < win0_1.index ⟨(i 0).val / 1024, hlt⟩ (1 : Fin 2) * 2 + 2
    rw [e3]; omega

/-- The output array after the region: the pooled array of the input array as the region finds it. -/
theorem pool_arr0 (c : Dev nD) : (dat0 V c).arrAt 1 cfg0.N = poolOf (V c main_v0) :=
  (dat0 V c).arrAt_eq_of_cover 1 (poolOf (V c main_v0)) (fun t _ => flushed0_eq V c t) (covered0)

end Cert.ReferenceIdeal.Hand

end
-- ==== Proof.RPoolArr1.lean ====
/-
  Region 1's output array after the run of its 32 points: the pooled array of the input array as the region finds it.
  Each point writes back one block of 1024 rows; the blocks are the pooled array read at the block's rows, and together
  they cover all 32768 rows (row r lies in the block of point r / 1024).
-/
import proofs.«109826_g2000005534411080_pallasbulk_673_7_alg».proof.Proof.RBody1
import proofs.«109826_g2000005534411080_pallasbulk_673_7_alg».proof.Proof.RPoolBlk

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

variable (V : (c : Dev nD) → (b : Ref sig .tc) → Buf (Elt Ideal) ((c : Thread nD τ).loc b))

/-- The output block after the body is the block function of the input block: each of the two column pieces holds
    that function at the piece's own indices. -/
theorem out1_1_eq (X : Vec Ideal S1024x512 .f32) : out1_1 (F := Ideal) X = blkOf X := by
  funext y
  unfold out1_1
  rw [View.ld_unit_zero (S := S1024x512) hz2]
  refine View.canon_apply_of_pieces (Val := Elt Ideal) (S := S1024x2) (e := .f32) (blkOf X) _ ?_ y (cover1_1 _ _ y)
  intro p hp x
  rcases List.mem_cons.mp hp with rfl | hp
  · obtain ⟨a, q, rfl⟩ : ∃ (a : Fin 1024) (q : Fin 1), x = ix2 a q := ⟨x 0, x 1, eq_ix2 x⟩
    obtain rfl : q = 0 := Subsingleton.elim _ _
    show k1_pay2 (F := Ideal) X (ix2 a (0 : Fin 1)) = blkOf X (r1_c1.emb (ix2 a (0 : Fin 1)))
    rw [Pay.mean_col1]
    have e0 : (r1_c1.emb (ix2 a (0 : Fin 1))) 0 = a := Fin.ext (by show 0 + 1 * a.val = a.val; omega)
    have e1 : ((r1_c1.emb (ix2 a (0 : Fin 1))) 1).val = 1 := rfl
    unfold blkOf
    rw [if_neg (by rw [e1]; decide), e0]
  · rcases List.mem_cons.mp hp with rfl | hp
    · obtain ⟨a, q, rfl⟩ : ∃ (a : Fin 1024) (q : Fin 1), x = ix2 a q := ⟨x 0, x 1, eq_ix2 x⟩
      obtain rfl : q = 0 := Subsingleton.elim _ _
      show k1_pay3 (F := Ideal) X (ix2 a (0 : Fin 1)) = blkOf X (r1_c0.emb (ix2 a (0 : Fin 1)))
      rw [Pay.sd_col1]
      have e0 : (r1_c0.emb (ix2 a (0 : Fin 1))) 0 = a := Fin.ext (by show 0 + 1 * a.val = a.val; omega)
      have e1 : ((r1_c0.emb (ix2 a (0 : Fin 1))) 1).val = 0 := rfl
      unfold blkOf
      rw [if_pos e1, e0]
    · exact absurd hp List.not_mem_nil

/-- The printed index maps over the grid: both windows' block row is the point's number, their block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of the pooled array of the input array. -/
theorem flushed1_eq (c : Dev nD) (t : Fin cfg1.N) :
    (dat1 V c).flushed 1 t = ((cfg1.win 1).blk t).view.read (Elt Ideal) (poolOf (V c main_v5)) := by
  show (cfg1.win 1).cut (grid1.coords t) ((dat1 V c).after 1 t) = _
  rw [after1_1, out1_1_eq]
  obtain ⟨e0, e1, e2, e3⟩ := idx_facts1 t
  funext j
  show blkOf (iblk1 V c 0 t) j = poolOf (V c main_v5) (((cfg1.win 1).blk t).view.emb j)
  refine blkOf_eq_poolOf _ _ j _ ?_ ?_
  · show win1_1.index t (1 : Fin 2) * 2 + 1 * (j 1).val = (j 1).val
    rw [e3]; omega
  · intro t'
    show V c main_v5 (((cfg1.win 0).blk t).view.emb (ix2 (j 0) t')) = V c main_v5 (ix2 ((((cfg1.win 1).blk t).view.emb j) 0) t')
    refine congrArg _ (funext fun a => Fin.ext ?_)
    match a with
    | ⟨0, _⟩ => show win1_0.index t (0 : Fin 2) * 1024 + 1 * (j 0).val = win1_1.index t (0 : Fin 2) * 1024 + 1 * (j 0).val; rw [e0, e2]
    | ⟨1, _⟩ => show win1_0.index t (1 : Fin 2) * 512 + 1 * t'.val = t'.val; rw [e1]; omega

/-- An index of the output array is in point t's block iff each coordinate is in the block's range on its axis. -/
theorem mem_blk1 (t : Fin cfg1.N) (i : S32768x2.Idx) :
    i ∈ ((cfg1.win 1).blk t).view.set ↔ ∀ a : Fin 2, win1_1.index t a * S1024x2.size a ≤ (i a).val ∧ (i a).val < win1_1.index t a * S1024x2.size a + S1024x2.size a := by
  show i ∈ ((View.whole main_v6).slice (win1_1.rect t)).set ↔ _
  rw [View.set_slice_whole, Rect.mem_set_unit]
  exact Iff.rfl

/-- Every index of the output array is in the block of the point its row divided by 1024 names. -/
theorem covered1 (i : S32768x2.Idx) : ∃ t : Fin cfg1.N, (cfg1.win 1).flush t = true ∧ i ∈ ((cfg1.win 1).blk t).view.set := by
  have hi0 : (i 0).val < 32768 := idx2_lt0 i
  have hi1 : (i 1).val < 2 := idx2_lt1 i
  have hN : cfg1.N = 32 := N_1
  have hlt : (i 0).val / 1024 < cfg1.N := by rw [hN]; omega
  refine ⟨⟨(i 0).val / 1024, hlt⟩, flush1_1 _, ?_⟩
  rw [mem_blk1]
  obtain ⟨e0, e1, e2, e3⟩ := idx_facts1 ⟨(i 0).val / 1024, hlt⟩
  intro a
  match a with
  | ⟨0, _⟩ =>
    show win1_1.index ⟨(i 0).val / 1024, hlt⟩ (0 : Fin 2) * 1024 ≤ (i 0).val ∧ (i 0).val < win1_1.index ⟨(i 0).val / 1024, hlt⟩ (0 : Fin 2) * 1024 + 1024
    rw [e2]; show (i 0).val / 1024 * 1024 ≤ (i 0).val ∧ (i 0).val < (i 0).val / 1024 * 1024 + 1024; omega
  | ⟨1, _⟩ =>
    show win1_1.index ⟨(i 0).val / 1024, hlt⟩ (1 : Fin 2) * 2 ≤ (i 1).val ∧ (i 1).val < win1_1.index ⟨(i 0).val / 1024, hlt⟩ (1 : Fin 2) * 2 + 2
    rw [e3]; omega

/-- The output array after the region: the pooled array of the input array as the region finds it. -/
theorem pool_arr1 (c : Dev nD) : (dat1 V c).arrAt 1 cfg1.N = poolOf (V c main_v5) :=
  (dat1 V c).arrAt_eq_of_cover 1 (poolOf (V c main_v5)) (fun t _ => flushed1_eq V c t) (covered1)

end Cert.ReferenceIdeal.Hand

end
-- ==== Proof.RPoolArr2.lean ====
/-
  Region 2's output array after the run of its 32 points: the pooled array of the input array as the region finds it.
  Each point writes back one block of 1024 rows; the blocks are the pooled array read at the block's rows, and together
  they cover all 32768 rows (row r lies in the block of point r / 1024).
-/
import proofs.«109826_g2000005534411080_pallasbulk_673_7_alg».proof.Proof.RBody2
import proofs.«109826_g2000005534411080_pallasbulk_673_7_alg».proof.Proof.RPoolBlk

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

variable (V : (c : Dev nD) → (b : Ref sig .tc) → Buf (Elt Ideal) ((c : Thread nD τ).loc b))

/-- The output block after the body is the block function of the input block: each of the two column pieces holds
    that function at the piece's own indices. -/
theorem out2_1_eq (X : Vec Ideal S1024x512 .f32) : out2_1 (F := Ideal) X = blkOf X := by
  funext y
  unfold out2_1
  rw [View.ld_unit_zero (S := S1024x512) hz2]
  refine View.canon_apply_of_pieces (Val := Elt Ideal) (S := S1024x2) (e := .f32) (blkOf X) _ ?_ y (cover2_1 _ _ y)
  intro p hp x
  rcases List.mem_cons.mp hp with rfl | hp
  · obtain ⟨a, q, rfl⟩ : ∃ (a : Fin 1024) (q : Fin 1), x = ix2 a q := ⟨x 0, x 1, eq_ix2 x⟩
    obtain rfl : q = 0 := Subsingleton.elim _ _
    show k2_pay2 (F := Ideal) X (ix2 a (0 : Fin 1)) = blkOf X (r2_c1.emb (ix2 a (0 : Fin 1)))
    rw [Pay.mean_col2]
    have e0 : (r2_c1.emb (ix2 a (0 : Fin 1))) 0 = a := Fin.ext (by show 0 + 1 * a.val = a.val; omega)
    have e1 : ((r2_c1.emb (ix2 a (0 : Fin 1))) 1).val = 1 := rfl
    unfold blkOf
    rw [if_neg (by rw [e1]; decide), e0]
  · rcases List.mem_cons.mp hp with rfl | hp
    · obtain ⟨a, q, rfl⟩ : ∃ (a : Fin 1024) (q : Fin 1), x = ix2 a q := ⟨x 0, x 1, eq_ix2 x⟩
      obtain rfl : q = 0 := Subsingleton.elim _ _
      show k2_pay3 (F := Ideal) X (ix2 a (0 : Fin 1)) = blkOf X (r2_c0.emb (ix2 a (0 : Fin 1)))
      rw [Pay.sd_col2]
      have e0 : (r2_c0.emb (ix2 a (0 : Fin 1))) 0 = a := Fin.ext (by show 0 + 1 * a.val = a.val; omega)
      have e1 : ((r2_c0.emb (ix2 a (0 : Fin 1))) 1).val = 0 := rfl
      unfold blkOf
      rw [if_pos e1, e0]
    · exact absurd hp List.not_mem_nil

/-- The printed index maps over the grid: both windows' block row is the point's number, their block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point t writes back is block t of the pooled array of the input array. -/
theorem flushed2_eq (c : Dev nD) (t : Fin cfg2.N) :
    (dat2 V c).flushed 1 t = ((cfg2.win 1).blk t).view.read (Elt Ideal) (poolOf (V c main_v10)) := by
  show (cfg2.win 1).cut (grid2.coords t) ((dat2 V c).after 1 t) = _
  rw [after2_1, out2_1_eq]
  obtain ⟨e0, e1, e2, e3⟩ := idx_facts2 t
  funext j
  show blkOf (iblk2 V c 0 t) j = poolOf (V c main_v10) (((cfg2.win 1).blk t).view.emb j)
  refine blkOf_eq_poolOf _ _ j _ ?_ ?_
  · show win2_1.index t (1 : Fin 2) * 2 + 1 * (j 1).val = (j 1).val
    rw [e3]; omega
  · intro t'
    show V c main_v10 (((cfg2.win 0).blk t).view.emb (ix2 (j 0) t')) = V c main_v10 (ix2 ((((cfg2.win 1).blk t).view.emb j) 0) t')
    refine congrArg _ (funext fun a => Fin.ext ?_)
    match a with
    | ⟨0, _⟩ => show win2_0.index t (0 : Fin 2) * 1024 + 1 * (j 0).val = win2_1.index t (0 : Fin 2) * 1024 + 1 * (j 0).val; rw [e0, e2]
    | ⟨1, _⟩ => show win2_0.index t (1 : Fin 2) * 512 + 1 * t'.val = t'.val; rw [e1]; omega

/-- An index of the output array is in point t's block iff each coordinate is in the block's range on its axis. -/
theorem mem_blk2 (t : Fin cfg2.N) (i : S32768x2.Idx) :
    i ∈ ((cfg2.win 1).blk t).view.set ↔ ∀ a : Fin 2, win2_1.index t a * S1024x2.size a ≤ (i a).val ∧ (i a).val < win2_1.index t a * S1024x2.size a + S1024x2.size a := by
  show i ∈ ((View.whole main_v11).slice (win2_1.rect t)).set ↔ _
  rw [View.set_slice_whole, Rect.mem_set_unit]
  exact Iff.rfl

/-- Every index of the output array is in the block of the point its row divided by 1024 names. -/
theorem covered2 (i : S32768x2.Idx) : ∃ t : Fin cfg2.N, (cfg2.win 1).flush t = true ∧ i ∈ ((cfg2.win 1).blk t).view.set := by
  have hi0 : (i 0).val < 32768 := idx2_lt0 i
  have hi1 : (i 1).val < 2 := idx2_lt1 i
  have hN : cfg2.N = 32 := N_2
  have hlt : (i 0).val / 1024 < cfg2.N := by rw [hN]; omega
  refine ⟨⟨(i 0).val / 1024, hlt⟩, flush2_1 _, ?_⟩
  rw [mem_blk2]
  obtain ⟨e0, e1, e2, e3⟩ := idx_facts2 ⟨(i 0).val / 1024, hlt⟩
  intro a
  match a with
  | ⟨0, _⟩ =>
    show win2_1.index ⟨(i 0).val / 1024, hlt⟩ (0 : Fin 2) * 1024 ≤ (i 0).val ∧ (i 0).val < win2_1.index ⟨(i 0).val / 1024, hlt⟩ (0 : Fin 2) * 1024 + 1024
    rw [e2]; show (i 0).val / 1024 * 1024 ≤ (i 0).val ∧ (i 0).val < (i 0).val / 1024 * 1024 + 1024; omega
  | ⟨1, _⟩ =>
    show win2_1.index ⟨(i 0).val / 1024, hlt⟩ (1 : Fin 2) * 2 ≤ (i 1).val ∧ (i 1).val < win2_1.index ⟨(i 0).val / 1024, hlt⟩ (1 : Fin 2) * 2 + 2
    rw [e3]; omega

/-- The output array after the region: the pooled array of the input array as the region finds it. -/
theorem pool_arr2 (c : Dev nD) : (dat2 V c).arrAt 1 cfg2.N = poolOf (V c main_v10) :=
  (dat2 V c).arrAt_eq_of_cover 1 (poolOf (V c main_v10)) (fun t _ => flushed2_eq V c t) (covered2)

end Cert.ReferenceIdeal.Hand

end
-- ==== Proof.RHost.lean ====
/-
  What the buffers the regions read hold, as functions of the three arguments, read through the fold of the main
  function's items at the extended reals: each pooling region's input is the flattened input array; each pooling
  region's output is the pooled array of it; the last region finds the feature matrix, the weight matrix as launched,
  and the bias vector as a row.
-/
import proofs.«109826_g2000005534411080_pallasbulk_673_7_alg».proof.Proof.RFold
import proofs.«109826_g2000005534411080_pallasbulk_673_7_alg».proof.Proof.RFeat
import proofs.«109826_g2000005534411080_pallasbulk_673_7_alg».proof.Proof.RPoolArr0
import proofs.«109826_g2000005534411080_pallasbulk_673_7_alg».proof.Proof.RPoolArr1
import proofs.«109826_g2000005534411080_pallasbulk_673_7_alg».proof.Proof.RPoolArr2
import Idealize.ShloMosaic.Lib.Tactic

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

variable (m : (ℓ : Loc nD τ sig) → Buf (Elt Ideal) ℓ)

/-- A host operation of three operands given as a literal family: its result with each operand's contents at its
    own reference. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-! No item before the one that reads it writes an argument. -/

theorem Mem2_arg0 (c : Dev nD) : Mem2 m c (Proc.devRef .tc main_arg0) = m ((c : Thread nD τ).loc main_arg0) :=
  (Mem2_of_ne m c main_arg0 (by decide)).trans <| (Mem1_of m c main_arg0 (by decide)).trans rfl
theorem Mem4_arg0 (c : Dev nD) : Mem4 m c (Proc.devRef .tc main_arg0) = m ((c : Thread nD τ).loc main_arg0) :=
  (Mem4_of_ne m c main_arg0 (by decide)).trans <| (Mem3_of m c main_arg0 (by decide)).trans (Mem2_arg0 m c)
theorem Mem6_arg2 (c : Dev nD) : Mem6 m c (Proc.devRef .tc main_arg2) = m ((c : Thread nD τ).loc main_arg2) :=
  (Mem6_of_ne m c main_arg2 (by decide)).trans <| (Mem5_of m c main_arg2 (by decide)).trans <| (Mem4_of_ne m c main_arg2 (by decide)).trans <| (Mem3_of m c main_arg2 (by decide)).trans <| (Mem2_of_ne m c main_arg2 (by decide)).trans <| (Mem1_of m c main_arg2 (by decide)).trans rfl
theorem Mem7_arg1 (c : Dev nD) : Mem7 m c (Proc.devRef .tc main_arg1) = m ((c : Thread nD τ).loc main_arg1) :=
  (Mem7_of m c main_arg1 (by decide)).trans <| (Mem6_of_ne m c main_arg1 (by decide)).trans <| (Mem5_of m c main_arg1 (by decide)).trans <| (Mem4_of_ne m c main_arg1 (by decide)).trans <| (Mem3_of m c main_arg1 (by decide)).trans <| (Mem2_of_ne m c main_arg1 (by decide)).trans <| (Mem1_of m c main_arg1 (by decide)).trans rfl

/-! Each pooling region's input is the flattened input array. -/

theorem At1_v0 (c : Dev nD) : (At1 m c main_v0 : S32768x512.Idx → EReal) = flat (m ((c : Thread nD τ).loc main_arg0)) := by
  show StableHlo.after hostOps0 (Mem0 m c) (Proc.devRef .tc main_v0) = _
  after_results
  rfl
theorem At3_v5 (c : Dev nD) : (At3 m c main_v5 : S32768x512.Idx → EReal) = flat (m ((c : Thread nD τ).loc main_arg0)) := by
  show StableHlo.after hostOps1 (Mem2 m c) (Proc.devRef .tc main_v5) = _
  after_results
  rw [Mem2_arg0]
  rfl
theorem At5_v10 (c : Dev nD) : (At5 m c main_v10 : S32768x512.Idx → EReal) = flat (m ((c : Thread nD τ).loc main_arg0)) := by
  show StableHlo.after hostOps2 (Mem4 m c) (Proc.devRef .tc main_v10) = _
  after_results
  rw [Mem4_arg0]
  rfl

/-! Each pooling region leaves the pooled array of the flattened input. -/

theorem Mem2_v1 (c : Dev nD) : (Mem2 m c (Proc.devRef .tc main_v1) : S32768x2.Idx → EReal) = poolOf (flat (m ((c : Thread nD τ).loc main_arg0))) :=
  (Mem2_arr m c 1).trans ((pool_arr0 (At1 m) c).trans (congrArg poolOf (At1_v0 m c)))
theorem Mem4_v6 (c : Dev nD) : (Mem4 m c (Proc.devRef .tc main_v6) : S32768x2.Idx → EReal) = poolOf (flat (m ((c : Thread nD τ).loc main_arg0))) :=
  (Mem4_arr m c 1).trans ((pool_arr1 (At3 m) c).trans (congrArg poolOf (At3_v5 m c)))
theorem Mem6_v11 (c : Dev nD) : (Mem6 m c (Proc.devRef .tc main_v11) : S32768x2.Idx → EReal) = poolOf (flat (m ((c : Thread nD τ).loc main_arg0))) :=
  (Mem6_arr m c 1).trans ((pool_arr2 (At5 m) c).trans (congrArg poolOf (At5_v10 m c)))

/-! The host operations after each pooling region lay the pooled array out as the statistics matrix. -/

theorem Mem3_v4 (c : Dev nD) : (Mem3 m c (Proc.devRef .tc main_v4) : S256x256.Idx → EReal) = statsOf (poolOf (flat (m ((c : Thread nD τ).loc main_arg0)))) := by
  show StableHlo.after hostOps1 (Mem2 m c) (Proc.devRef .tc main_v4) = _
  after_results
  rw [Mem2_v1]
  rfl
theorem Mem5_v9 (c : Dev nD) : (Mem5 m c (Proc.devRef .tc main_v9) : S256x256.Idx → EReal) = statsOf (poolOf (flat (m ((c : Thread nD τ).loc main_arg0)))) := by
  show StableHlo.after hostOps2 (Mem4 m c) (Proc.devRef .tc main_v9) = _
  after_results
  rw [Mem4_v6]
  rfl
theorem Mem6_v4 (c : Dev nD) : (Mem6 m c (Proc.devRef .tc main_v4) : S256x256.Idx → EReal) = statsOf (poolOf (flat (m ((c : Thread nD τ).loc main_arg0)))) :=
  (Mem6_of_ne m c main_v4 (by decide)).trans <| (Mem5_of m c main_v4 (by decide)).trans <| (Mem4_of_ne m c main_v4 (by decide)).trans (Mem3_v4 m c)
theorem Mem6_v9 (c : Dev nD) : (Mem6 m c (Proc.devRef .tc main_v9) : S256x256.Idx → EReal) = statsOf (poolOf (flat (m ((c : Thread nD τ).loc main_arg0)))) :=
  (Mem6_of_ne m c main_v9 (by decide)).trans (Mem5_v9 m c)

/-! What the last region finds. -/

/-- The feature matrix. -/
theorem At7_v15 (c : Dev nD) : (At7 m c main_v15 : S256x768.Idx → EReal) = featOf (m ((c : Thread nD τ).loc main_arg0)) := by
  show StableHlo.after hostOps3 (Mem6 m c) (Proc.devRef .tc main_v15) = _
  simp only [StableHlo.after_cons, StableHlo.after_nil]
  rw [StableHlo.reshape_result_ne]; rotate_left; decide
  rw [nary3_result]
  repeat (first
    | rw [StableHlo.reshape_result] | rw [StableHlo.unary_result]
    | (rw [StableHlo.reshape_result_ne]; rotate_left; decide)
    | (rw [StableHlo.unary_result_ne]; rotate_left; decide))
  rw [Mem6_v4, Mem6_v9, Mem6_v11]
  rfl

/-- The bias vector as a row. -/
theorem At7_v16 (c : Dev nD) : (At7 m c main_v16 : S1x128.Idx → EReal) = shapeCast S1x128 (m ((c : Thread nD τ).loc main_arg2)) shapeCasts_S128_S1x128 := by
  show StableHlo.after hostOps3 (Mem6 m c) (Proc.devRef .tc main_v16) = _
  after_results
  rw [Mem6_arg2]
  rfl

/-- The weight matrix, as launched. -/
theorem At7_arg1 (c : Dev nD) : At7 m c main_arg1 = m ((c : Thread nD τ).loc main_arg1) := Mem7_arg1 m c

end Cert.ReferenceIdeal.Hand

end
-- ==== Proof.RLinArr.lean ====
/-
  Region 3's output array after its one point: the linear map of the three arrays the region finds — the feature
  matrix times the weight matrix, plus the bias row down every row. Each window's one block is its whole array.
-/
import proofs.«109826_g2000005534411080_pallasbulk_673_7_alg».proof.Proof.RBody3
import proofs.«109826_g2000005534411080_pallasbulk_673_7_alg».proof.Proof.RPay
import Idealize.ShloMosaic.Lib.Pipeline.Value

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The linear map of a feature matrix, a weight matrix and a bias row. -/
def linOf (a : S256x768.Idx → EReal) (w : S768x128.Idx → EReal) (b : S1x128.Idx → EReal) : S256x128.Idx → EReal := fun i =>
  (∑ f : Fin 768, a (ix2 (i 0) f) * w (ix2 f (i 1))) + b (ix2 (0 : Fin 1) (i 1))

theorem linOf_apply (a : S256x768.Idx → EReal) (w : S768x128.Idx → EReal) (b : S1x128.Idx → EReal) (p : Fin 256) (o : Fin 128) :
    linOf a w b (ix2 p o) = (∑ f : Fin 768, a (ix2 p f) * w (ix2 f o)) + b (ix2 (0 : Fin 1) o) := rfl

/-- The output block after the body is the linear map of the three input blocks. -/
theorem out3_3_eq (x0 : Vec Ideal S256x768 .f32) (x1 : Vec Ideal S768x128 .f32) (x2 : Vec Ideal S1x128 .f32) :
    out3_3 (F := Ideal) x0 x1 x2 = linOf x0 x1 x2 := by
  unfold out3_3
  rw [View.canon_unit_zero (S := S256x128) hz3]
  simp only [View.ld_unit_zero (S := S256x768) hz3, View.ld_unit_zero (S := S768x128) hz3, View.ld_unit_zero (S := S1x128) hz3]
  funext i
  obtain ⟨p, o, rfl⟩ : ∃ (p : Fin 256) (o : Fin 128), i = ix2 p o := ⟨i 0, i 1, eq_ix2 i⟩
  rw [Pay.linear_at]
  rfl

/-- The printed index maps at the grid's point: every window's block is block (0, 0). -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Each input window's block is its whole array. -/
theorem iblk3_0 (c : Dev nD) (t : Fin cfg3.N) : (iblk3 V c 0 t : S256x768.Idx → EReal) = V c main_v15 := by
  obtain ⟨e00, e01, -⟩ := idx_facts3 t
  funext y
  show V c main_v15 (((cfg3.win 0).blk t).view.emb y) = V c main_v15 y
  refine congrArg _ (funext fun a => Fin.ext ?_)
  match a with
  | ⟨0, _⟩ => show win3_0.index t (0 : Fin 2) * 256 + 1 * (y 0).val = (y 0).val; rw [e00]; omega
  | ⟨1, _⟩ => show win3_0.index t (1 : Fin 2) * 768 + 1 * (y 1).val = (y 1).val; rw [e01]; omega
theorem iblk3_1 (c : Dev nD) (t : Fin cfg3.N) : (iblk3 V c 1 t : S768x128.Idx → EReal) = V c main_arg1 := by
  obtain ⟨-, -, e10, e11, -⟩ := idx_facts3 t
  funext y
  show V c main_arg1 (((cfg3.win 1).blk t).view.emb y) = V c main_arg1 y
  refine congrArg _ (funext fun a => Fin.ext ?_)
  match a with
  | ⟨0, _⟩ => show win3_1.index t (0 : Fin 2) * 768 + 1 * (y 0).val = (y 0).val; rw [e10]; omega
  | ⟨1, _⟩ => show win3_1.index t (1 : Fin 2) * 128 + 1 * (y 1).val = (y 1).val; rw [e11]; omega
theorem iblk3_2 (c : Dev nD) (t : Fin cfg3.N) : (iblk3 V c 2 t : S1x128.Idx → EReal) = V c main_v16 := by
  obtain ⟨-, -, -, -, e20, e21, -⟩ := idx_facts3 t
  funext y
  show V c main_v16 (((cfg3.win 2).blk t).view.emb y) = V c main_v16 y
  refine congrArg _ (funext fun a => Fin.ext ?_)
  match a with
  | ⟨0, _⟩ => show win3_2.index t (0 : Fin 2) * 1 + 1 * (y 0).val = (y 0).val; rw [e20]; omega
  | ⟨1, _⟩ => show win3_2.index t (1 : Fin 2) * 128 + 1 * (y 1).val = (y 1).val; rw [e21]; omega

/-- What the point writes back is the whole linear map of the arrays as the region finds them. -/
theorem flushed3_eq (c : Dev nD) (t : Fin cfg3.N) :
    (dat3 V c).flushed 3 t = ((cfg3.win 3).blk t).view.read (Elt Ideal) (linOf (V c main_v15) (V c main_arg1) (V c main_v16)) := by
  show (cfg3.win 3).cut (grid3.coords t) ((dat3 V c).after 3 t) = _
  rw [after3_3, out3_3_eq, iblk3_0, iblk3_1, iblk3_2]
  obtain ⟨-, -, -, -, -, -, e30, e31⟩ := idx_facts3 t
  funext j
  show linOf (V c main_v15) (V c main_arg1) (V c main_v16) j = linOf (V c main_v15) (V c main_arg1) (V c main_v16) (((cfg3.win 3).blk t).view.emb j)
  refine congrArg _ (funext fun a => Fin.ext ?_)
  match a with
  | ⟨0, _⟩ => show (j 0).val = win3_3.index t (0 : Fin 2) * 256 + 1 * (j 0).val; rw [e30]; omega
  | ⟨1, _⟩ => show (j 1).val = win3_3.index t (1 : Fin 2) * 128 + 1 * (j 1).val; rw [e31]; omega

/-- An index of the output array is in the point's block iff each coordinate is in the block's range on its axis. -/
theorem mem_blk3 (t : Fin cfg3.N) (i : S256x128.Idx) :
    i ∈ ((cfg3.win 3).blk t).view.set ↔ ∀ a : Fin 2, win3_3.index t a * S256x128.size a ≤ (i a).val ∧ (i a).val < win3_3.index t a * S256x128.size a + S256x128.size a := by
  show i ∈ ((View.whole main_v17).slice (win3_3.rect t)).set ↔ _
  rw [View.set_slice_whole, Rect.mem_set_unit]
  exact Iff.rfl

/-- The one point's block covers the output array. -/
theorem covered3 (i : S256x128.Idx) : ∃ t : Fin cfg3.N, (cfg3.win 3).flush t = true ∧ i ∈ ((cfg3.win 3).blk t).view.set := by
  have hi0 : (i 0).val < 256 := idx2_lt0 i
  have hi1 : (i 1).val < 128 := idx2_lt1 i
  refine ⟨t3_0, flush3_3 _, ?_⟩
  rw [mem_blk3]
  obtain ⟨-, -, -, -, -, -, e30, e31⟩ := idx_facts3 t3_0
  intro a
  match a with
  | ⟨0, _⟩ =>
    show win3_3.index t3_0 (0 : Fin 2) * 256 ≤ (i 0).val ∧ (i 0).val < win3_3.index t3_0 (0 : Fin 2) * 256 + 256
    rw [e30]; omega
  | ⟨1, _⟩ =>
    show win3_3.index t3_0 (1 : Fin 2) * 128 ≤ (i 1).val ∧ (i 1).val < win3_3.index t3_0 (1 : Fin 2) * 128 + 128
    rw [e31]; omega

/-- The output array after the region: the linear map of the arrays as the region finds them. -/
theorem lin_arr (c : Dev nD) : (dat3 V c).arrAt 3 cfg3.N = linOf (V c main_v15) (V c main_arg1) (V c main_v16) :=
  (dat3 V c).arrAt_eq_of_cover 3 (linOf (V c main_v15) (V c main_arg1) (V c main_v16)) (fun t _ => flushed3_eq V c t) (covered3)

end Cert.ReferenceIdeal.Hand

end
-- ==== Proof.RFinal.lean ====
/-
  The reference's run at the extended reals, read: the result buffer ends holding the specification's arrangement
  Gr of the three arguments, and every argument ends as launched. The last region leaves the linear map of the
  feature matrix, the weight matrix and the bias row; the feature matrix's entries are the specification's feature
  row, and the bias row's entry o is the bias vector's entry o.
-/
import proofs.«109826_g2000005534411080_pallasbulk_673_7_alg».proof.Proof.RRun
import proofs.«109826_g2000005534411080_pallasbulk_673_7_alg».proof.Proof.RHost
import proofs.«109826_g2000005534411080_pallasbulk_673_7_alg».proof.Proof.RLinArr

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal.Gen
open scoped BigOperators

variable (m : (ℓ : Loc nD τ sig) → Buf (Elt Ideal) ℓ) (ρ : Dev nD → PrngReg)

/-- The last region's output array is the specification's arrangement of the arguments. -/
theorem result_eq (c : Dev nD) : (dat3 (At7 m) c).arrAt 3 cfg3.N
    = Cert.Spec.Gr (m ((c.tc : Thread nD τ).loc main_arg0)) (m ((c.tc : Thread nD τ).loc main_arg1)) (m ((c.tc : Thread nD τ).loc main_arg2)) := by
  rw [lin_arr (At7 m) c, At7_v15, At7_v16, show At7 m c main_arg1 = m ((c : Thread nD τ).loc main_arg1) from At7_arg1 m c]
  funext i
  obtain ⟨p, o, rfl⟩ : ∃ (p : Fin 256) (o : Fin 128), i = ix2 p o := ⟨i 0, i 1, eq_ix2 i⟩
  rw [linOf_apply, Cert.Spec.Gr_apply]
  congr 1
  · exact Finset.sum_congr rfl fun f _ => by rw [featOf_apply]
  · refine shapeCast_apply _ _ _ (ix1 o) ?_
    rw [Shape.rowMajor_val_one, Shape.rowMajor_val_two]
    show o.val = 0 * 128 + o.val
    omega

/-- Every weakly fair execution of the reference's main function at the extended reals terminates, nothing
    faulting; the result buffer ends holding Gr of the arguments, and every argument ends as launched. -/
theorem run : θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v17)
        = Cert.Spec.Gr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono (fun _ h c => ⟨(h c).1.trans (result_eq m c), (h c).2⟩)
    (run_arr (F := Ideal) m ρ)

end Cert.ReferenceIdeal.Hand

end
-- ==== Proof.lean ====
/-
  The claim: a fused pooling-and-linear kernel against its four-region reference.

  For an input x of shape [256, 128, 512], a weight matrix w of shape [768, 128] and a bias of shape [128]: per row (b, c)
  of x the mean mu and the unbiased standard deviation sd over the 512 entries; the reference lays these 256 statistics
  out three times over as a feature row of length 768 and multiplies by w; the kernel instead adds w's six slices of 128
  rows three and three and multiplies the 128 deviations and the 128 means by the two sums. On the extended reals both
  programs end at these two arrangements exactly (the kernel's constants 1/512 and 1/511 are named rationals; the
  reference's division by 511 is the product with 1/511), and where every entry of x and w is real - which the
  precondition says - the arrangements agree by distributivity. The three frames are the three runs with the result
  forgotten; the word-level kernel's is its own run at the bit-exact instance.
-/
import proofs.«109826_g2000005534411080_pallasbulk_673_7_alg».proof.Defs
import proofs.«109826_g2000005534411080_pallasbulk_673_7_alg».proof.Proof.Gen.Kernel
import proofs.«109826_g2000005534411080_pallasbulk_673_7_alg».proof.Proof.Gen.Kernel.Skeleton
import proofs.«109826_g2000005534411080_pallasbulk_673_7_alg».proof.Proof.Gen.Kernel.Launch
import proofs.«109826_g2000005534411080_pallasbulk_673_7_alg».proof.Proof.Gen.Kernel.Points
import proofs.«109826_g2000005534411080_pallasbulk_673_7_alg».proof.Proof.Gen.KernelIdeal
import proofs.«109826_g2000005534411080_pallasbulk_673_7_alg».proof.Proof.Gen.KernelIdeal.Skeleton
import proofs.«109826_g2000005534411080_pallasbulk_673_7_alg».proof.Proof.Gen.KernelIdeal.Launch
import proofs.«109826_g2000005534411080_pallasbulk_673_7_alg».proof.Proof.Gen.KernelIdeal.Points
import proofs.«109826_g2000005534411080_pallasbulk_673_7_alg».proof.Proof.Gen.ReferenceIdeal
import proofs.«109826_g2000005534411080_pallasbulk_673_7_alg».proof.Proof.Gen.ReferenceIdeal.Skeleton
import proofs.«109826_g2000005534411080_pallasbulk_673_7_alg».proof.Proof.Gen.ReferenceIdeal.Launch
import proofs.«109826_g2000005534411080_pallasbulk_673_7_alg».proof.Proof.Gen.ReferenceIdeal.Regions
import proofs.«109826_g2000005534411080_pallasbulk_673_7_alg».proof.Proof.Gen.ReferenceIdeal.Points
import proofs.«109826_g2000005534411080_pallasbulk_673_7_alg».proof.Proof.Gen.Pre_finite_inputs
import proofs.«109826_g2000005534411080_pallasbulk_673_7_alg».proof.Proof.Spec
import proofs.«109826_g2000005534411080_pallasbulk_673_7_alg».proof.Proof.Algebra
import proofs.«109826_g2000005534411080_pallasbulk_673_7_alg».proof.Proof.Finite
import proofs.«109826_g2000005534411080_pallasbulk_673_7_alg».proof.Proof.BRun
import proofs.«109826_g2000005534411080_pallasbulk_673_7_alg».proof.Proof.KValue
import proofs.«109826_g2000005534411080_pallasbulk_673_7_alg».proof.Proof.RFinal
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Hand.frame (F := Bits) m ρ

/-- So does the idealized kernel: its run, the result forgotten. -/
theorem frame_kernel_ideal : Cert.frame_KernelIdeal := fun m ρ _ =>
  (θ_run Cert.KernelIdeal.defs _ _).mono (fun _ h c => (h c).2) (Cert.KernelIdeal.Hand.run m ρ)

/-- And the idealized reference: its run, the result forgotten. -/
theorem frame_reference_ideal : Cert.frame_ReferenceIdeal := fun m ρ _ =>
  (θ_run Cert.ReferenceIdeal.defs _ _).mono (fun _ h c => (h c).2) (Cert.ReferenceIdeal.Hand.run m ρ)

/-- The table of named constants gives 1/512 and 1/511 their rational values: each ledger entry's statement. -/
theorem preserves : Cert.preserves_Kernel_KernelIdeal :=
  have s512 := IdealRules.named_const.statement Cert.KernelIdeal.κ "a_exact_inv_512" .f32 0x3B000000#32 ((1 / 512 : ℝ) : EReal) rfl
  have s511 := IdealRules.named_const.statement Cert.KernelIdeal.κ "inv_511" .f32 0x3B004020#32 ((1 / 511 : ℝ) : EReal) rfl
  ⟨s512, s511, s512, s511, s512, s511, s512, s511⟩

/-- Both idealized programs end at one array: the kernel at its arrangement of the affine map of the row statistics,
    the reference at its own, and under the precondition every entry of x and w is real, where the two arrangements
    agree by distributivity. -/
theorem algebraic : Cert.algebraic_KernelIdeal_ReferenceIdeal := by
  intro m ρ m' ρ' hpre hagree
  refine ⟨fun c => Cert.Spec.Gk
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2]
  obtain ⟨hx, hw, -⟩ := Cert.Finite.real_entries _ _ _ (hpre c)
  exact (Cert.Spec.Gk_eq_Gr _ _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
